-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S192x40 : Shape := ⟨2, ![192, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64 .f32) (main_arg9 : FVec F S192x40 .f32) (main_arg10 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x40 .f32 := Host.absf main_arg9
  let main_cst_14 : FVec F S_ .f32 := constant S_ .f32 0x7F800000#32
  let main_v40 : FVec F S192x40 .f32 := broadcastInDim S192x40 ![] bcast_S_S192x40 main_cst_14
  let main_v41 : IVec S192x40 1 := cmpf .olt main_v39 main_v40
  let main_c_15 : IVec S_ 1 := constantI S_ 1 1#1
  let main_v42 : IVec S_ 1 := (fun x v => Host.reduce IntOp.andi x v reducesTo_S192x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S192x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S192x40 .f32) (main_arg10 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S192x40 : Shape := ⟨2, ![192, 40]⟩
abbrev S40 : Shape := ⟨1, ![40]⟩
abbrev S1x1600000 : Shape := ⟨2, ![1, 1600000]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x192 : Shape := ⟨2, ![100000, 192]⟩
abbrev S1x40 : Shape := ⟨2, ![1, 40]⟩
abbrev S100000x40 : Shape := ⟨2, ![100000, 40]⟩
abbrev S10000x192 : Shape := ⟨2, ![10000, 192]⟩
abbrev S10000x40 : Shape := ⟨2, ![10000, 40]⟩

abbrev nBuf : Space → Nat
  | .hbm => 75
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x1, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x1, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x192, .f32⟩
  | .hbm, ⟨73, _⟩ => ⟨S1x40, .f32⟩
  | .hbm, ⟨74, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x192, .f32⟩
  | .local _ .vmem, ⟨31, _⟩ => ⟨S10000x192, .f32⟩
  | .local _ .vmem, ⟨32, _⟩ => ⟨S192x40, .f32⟩
  | .local _ .vmem, ⟨33, _⟩ => ⟨S1x40, .f32⟩
  | .local _ .vmem, ⟨34, _⟩ => ⟨S10000x40, .f32⟩
  | .local _ .vmem, ⟨35, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S192x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S100000x64_S100000x64_S100000x64_S100000x192_d1 : Shape.Concatenates [S100000x64, S100000x64, S100000x64] S100000x192 1
  shapeCasts_S40_S1x40 : S40.ShapeCasts S1x40
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x40_S192x40_0_0 : ∀ a, (![0, 0] : Fin 2 → Nat) a + S192x40.size a ≤ S192x40.size a
  h_S192x40 : 0 < S192x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x192_S192x40_S10000x40_1_0_0_1_n_n_wf : DotDims.WF S10000x192 S192x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x192.size a ≤ S100000x192.size a
  hwx6_0 : ∀ i : grid6.Coords, EltTy.bits .f32 = 32 ∨ (Rect.block (s := S100000x192) S10000x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x40.size a ≤ S192x40.size a
  hwx6_1 : ∀ i : grid6.Coords, EltTy.bits .f32 = 32 ∨ (Rect.block (s := S192x40) S192x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x40.size a ≤ S100000x40.size a
  hwx6_3 : ∀ i : grid6.Coords, EltTy.bits .f32 = 32 ∨ (Rect.block (s := S100000x40) S10000x40.size (cc6_transform_3 i) (hinb6_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x192_S192x40_S10000x40_1_0_0_1_n_n : DotDims S10000x192 S192x40 S10000x40 where
  lhsContracting := [1]
  rhsContracting := [0]
  lhsNonContracting := [0]
  rhsNonContracting := [1]
  lhsBatch := []
  rhsBatch := []
  wf := dot_S10000x192_S192x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v52) S10000x192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S192x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v53) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S10000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S192x40 : Shape := ⟨2, ![192, 40]⟩
abbrev S40 : Shape := ⟨1, ![40]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x192 : Shape := ⟨2, ![100000, 192]⟩
abbrev S100000x40 : Shape := ⟨2, ![100000, 40]⟩
abbrev S1x40 : Shape := ⟨2, ![1, 40]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x1, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x192, .f32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x64_S100000x192_d1 : Shape.Concatenates [S100000x64, S100000x64, S100000x64] S100000x192 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x40_S100000x40_1_0_0_1_n_n_wf : DotDims.WF S100000x192 S192x40 S100000x40 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x40_S100000x40_1_0_0_1_n_n : DotDims S100000x192 S192x40 S100000x40 where
  lhsContracting := [1]
  rhsContracting := [0]
  lhsNonContracting := [0]
  rhsNonContracting := [1]
  lhsBatch := []
  rhsBatch := []
  wf := dot_S100000x192_S192x40_S100000x40_1_0_0_1_n_n_wf

class Facts : Prop extends Facts₀ where

variable [Facts]
-- ==== Proof.BitsTiles.lean ====
/-
  The seven tiled regions of the program, one after the other: for each, the block a window shows the body at a grid
  point, what the body leaves in the output's staging buffer as a function of the input blocks (one store of the whole
  block: a [10000, 64] by [64, 64] product for the three projections, the bias row added and the half-and-half mix of
  z and max(z, 0) for the three activations, a [10000, 192] by [192, 40] product plus a bias row for the last), and
  the region's proof data built from these. Everything is stated at a parameter `V`, the contents of the core's
  buffers when the region is entered, and for any float model `F`.
-/
import proofs.«182094_j14697378087202_1_alg».proof.Proof.Gen.Kernel.Launch
import proofs.«182094_j14697378087202_1_alg».proof.Proof.Gen.Kernel.Skeleton
import proofs.«182094_j14697378087202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! # Region 0 of the program: `cc0__matmul_kernel`, at the contents `V` its arrays hold when it is entered -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds that input's block at every point, whether the point fetched it or the block index
    stayed where it was: the body never writes an input, so what was there is still there. -/
theorem kept0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- An input's staging buffer holds that input's block at every point, whether the point fetched it or the block index
    stayed where it was: the body never writes an input, so what was there is still there. -/
theorem kept0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- What the body leaves in the output's staging buffer, as a function of the input blocks: one store of the whole
    block, its value the body's arithmetic on the whole input blocks. -/
def res0 (x0 : Vec F S10000x64 .f32) (x1 : Vec F S64x64 .f32) : Vec F S10000x64 .f32 :=
  View.canon [⟨(Rect.unit (s := S10000x64) ![0, 0] S10000x64.size inb_S10000x64_S10000x64_0_0), k0_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The one store covers the whole output block. -/
theorem res0_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]
theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = res0 (blk0 V c 0 t) (blk0 V c 1 t) := by dsimp only [pd0]
theorem pd0_before_0 (c : Dev nD) (t : Fin cfg0.N) (d) : (pd0 V c).before 0 t d = blk0 V c 0 t :=
  kept0_0_of V (pd0 V c) (pd0_A V c 0) (pd0_after_0 V c) t d
theorem pd0_before_1 (c : Dev nD) (t : Fin cfg0.N) (d) : (pd0 V c).before 1 t d = blk0 V c 1 t :=
  kept0_1_of V (pd0 V c) (pd0_A V c 1) (pd0_after_1 V c) t d

/-! # Region 1 of the program: `cc1__biasact_kernel`, at the contents `V` its arrays hold when it is entered -/

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds that input's block at every point, whether the point fetched it or the block index
    stayed where it was: the body never writes an input, so what was there is still there. -/
theorem kept1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- An input's staging buffer holds that input's block at every point, whether the point fetched it or the block index
    stayed where it was: the body never writes an input, so what was there is still there. -/
theorem kept1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- What the body leaves in the output's staging buffer, as a function of the input blocks: one store of the whole
    block, its value the body's arithmetic on the whole input blocks. -/
def res1 (x0 : Vec F S10000x64 .f32) (x1 : Vec F S1x64 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S1x64) ![0, 0] S1x64.size inb_S1x64_S1x64_0_0))⟩]

/-- The one store covers the whole output block. -/
theorem res1_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem pd1_A (c : Dev nD) (w : Fin cfg1.W) : (pd1 V c).A w = V c (Pipeline.arrRef spec1 w) := by
  dsimp only [pd1]
theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = res1 (blk1 V c 0 t) (blk1 V c 1 t) := by dsimp only [pd1]
theorem pd1_before_0 (c : Dev nD) (t : Fin cfg1.N) (d) : (pd1 V c).before 0 t d = blk1 V c 0 t :=
  kept1_0_of V (pd1 V c) (pd1_A V c 0) (pd1_after_0 V c) t d
theorem pd1_before_1 (c : Dev nD) (t : Fin cfg1.N) (d) : (pd1 V c).before 1 t d = blk1 V c 1 t :=
  kept1_1_of V (pd1 V c) (pd1_A V c 1) (pd1_after_1 V c) t d

/-! # Region 2 of the program: `cc2__matmul_kernel`, at the contents `V` its arrays hold when it is entered -/

/-- The block of window `w` at grid point `t`, cut out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds that input's block at every point, whether the point fetched it or the block index
    stayed where it was: the body never writes an input, so what was there is still there. -/
theorem kept2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- An input's staging buffer holds that input's block at every point, whether the point fetched it or the block index
    stayed where it was: the body never writes an input, so what was there is still there. -/
theorem kept2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- What the body leaves in the output's staging buffer, as a function of the input blocks: one store of the whole
    block, its value the body's arithmetic on the whole input blocks. -/
def res2 (x0 : Vec F S10000x64 .f32) (x1 : Vec F S64x64 .f32) : Vec F S10000x64 .f32 :=
  View.canon [⟨(Rect.unit (s := S10000x64) ![0, 0] S10000x64.size inb_S10000x64_S10000x64_0_0), k2_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The one store covers the whole output block. -/
theorem res2_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem pd2_A (c : Dev nD) (w : Fin cfg2.W) : (pd2 V c).A w = V c (Pipeline.arrRef spec2 w) := by
  dsimp only [pd2]
theorem pd2_after_0 (c : Dev nD) (t : Fin cfg2.N) : (pd2 V c).after 0 t = blk2 V c 0 t := by dsimp only [pd2]
theorem pd2_after_1 (c : Dev nD) (t : Fin cfg2.N) : (pd2 V c).after 1 t = blk2 V c 1 t := by dsimp only [pd2]
theorem pd2_after_2 (c : Dev nD) (t : Fin cfg2.N) : (pd2 V c).after 2 t = res2 (blk2 V c 0 t) (blk2 V c 1 t) := by dsimp only [pd2]
theorem pd2_before_0 (c : Dev nD) (t : Fin cfg2.N) (d) : (pd2 V c).before 0 t d = blk2 V c 0 t :=
  kept2_0_of V (pd2 V c) (pd2_A V c 0) (pd2_after_0 V c) t d
theorem pd2_before_1 (c : Dev nD) (t : Fin cfg2.N) (d) : (pd2 V c).before 1 t d = blk2 V c 1 t :=
  kept2_1_of V (pd2 V c) (pd2_A V c 1) (pd2_after_1 V c) t d

/-! # Region 3 of the program: `cc3__biasact_kernel`, at the contents `V` its arrays hold when it is entered -/

/-- The block of window `w` at grid point `t`, cut out of the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds that input's block at every point, whether the point fetched it or the block index
    stayed where it was: the body never writes an input, so what was there is still there. -/
theorem kept3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- An input's staging buffer holds that input's block at every point, whether the point fetched it or the block index
    stayed where it was: the body never writes an input, so what was there is still there. -/
theorem kept3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- What the body leaves in the output's staging buffer, as a function of the input blocks: one store of the whole
    block, its value the body's arithmetic on the whole input blocks. -/
def res3 (x0 : Vec F S10000x64 .f32) (x1 : Vec F S1x64 .f32) : Vec F S10000x64 .f32 :=
  View.canon [⟨(Rect.unit (s := S10000x64) ![0, 0] S10000x64.size inb_S10000x64_S10000x64_0_0), k3_pay1 (View.ld x0 (Rect.unit (s := S10000x64) ![0, 0] S10000x64.size inb_S10000x64_S10000x64_0_0)) (View.ld x1 (Rect.unit (s := S1x64) ![0, 0] S1x64.size inb_S1x64_S1x64_0_0))⟩]

/-- The one store covers the whole output block. -/
theorem res3_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q _ := fullShare
  owed _ := 0

theorem pd3_A (c : Dev nD) (w : Fin cfg3.W) : (pd3 V c).A w = V c (Pipeline.arrRef spec3 w) := by
  dsimp only [pd3]
theorem pd3_after_0 (c : Dev nD) (t : Fin cfg3.N) : (pd3 V c).after 0 t = blk3 V c 0 t := by dsimp only [pd3]
theorem pd3_after_1 (c : Dev nD) (t : Fin cfg3.N) : (pd3 V c).after 1 t = blk3 V c 1 t := by dsimp only [pd3]
theorem pd3_after_2 (c : Dev nD) (t : Fin cfg3.N) : (pd3 V c).after 2 t = res3 (blk3 V c 0 t) (blk3 V c 1 t) := by dsimp only [pd3]
theorem pd3_before_0 (c : Dev nD) (t : Fin cfg3.N) (d) : (pd3 V c).before 0 t d = blk3 V c 0 t :=
  kept3_0_of V (pd3 V c) (pd3_A V c 0) (pd3_after_0 V c) t d
theorem pd3_before_1 (c : Dev nD) (t : Fin cfg3.N) (d) : (pd3 V c).before 1 t d = blk3 V c 1 t :=
  kept3_1_of V (pd3 V c) (pd3_A V c 1) (pd3_after_1 V c) t d

/-! # Region 4 of the program: `cc4__matmul_kernel`, at the contents `V` its arrays hold when it is entered -/

/-- The block of window `w` at grid point `t`, cut out of the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds that input's block at every point, whether the point fetched it or the block index
    stayed where it was: the body never writes an input, so what was there is still there. -/
theorem kept4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- An input's staging buffer holds that input's block at every point, whether the point fetched it or the block index
    stayed where it was: the body never writes an input, so what was there is still there. -/
theorem kept4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- What the body leaves in the output's staging buffer, as a function of the input blocks: one store of the whole
    block, its value the body's arithmetic on the whole input blocks. -/
def res4 (x0 : Vec F S10000x64 .f32) (x1 : Vec F S64x64 .f32) : Vec F S10000x64 .f32 :=
  View.canon [⟨(Rect.unit (s := S10000x64) ![0, 0] S10000x64.size inb_S10000x64_S10000x64_0_0), k4_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The one store covers the whole output block. -/
theorem res4_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => res4 (blk4 V c 0 t) (blk4 V c 1 t)
  Φ _ := Pipeline.ΦA spec4 c
  q _ := fullShare
  owed _ := 0

theorem pd4_A (c : Dev nD) (w : Fin cfg4.W) : (pd4 V c).A w = V c (Pipeline.arrRef spec4 w) := by
  dsimp only [pd4]
theorem pd4_after_0 (c : Dev nD) (t : Fin cfg4.N) : (pd4 V c).after 0 t = blk4 V c 0 t := by dsimp only [pd4]
theorem pd4_after_1 (c : Dev nD) (t : Fin cfg4.N) : (pd4 V c).after 1 t = blk4 V c 1 t := by dsimp only [pd4]
theorem pd4_after_2 (c : Dev nD) (t : Fin cfg4.N) : (pd4 V c).after 2 t = res4 (blk4 V c 0 t) (blk4 V c 1 t) := by dsimp only [pd4]
theorem pd4_before_0 (c : Dev nD) (t : Fin cfg4.N) (d) : (pd4 V c).before 0 t d = blk4 V c 0 t :=
  kept4_0_of V (pd4 V c) (pd4_A V c 0) (pd4_after_0 V c) t d
theorem pd4_before_1 (c : Dev nD) (t : Fin cfg4.N) (d) : (pd4 V c).before 1 t d = blk4 V c 1 t :=
  kept4_1_of V (pd4 V c) (pd4_A V c 1) (pd4_after_1 V c) t d

/-! # Region 5 of the program: `cc5__biasact_kernel`, at the contents `V` its arrays hold when it is entered -/

/-- The block of window `w` at grid point `t`, cut out of the window's array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds that input's block at every point, whether the point fetched it or the block index
    stayed where it was: the body never writes an input, so what was there is still there. -/
theorem kept5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- An input's staging buffer holds that input's block at every point, whether the point fetched it or the block index
    stayed where it was: the body never writes an input, so what was there is still there. -/
theorem kept5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- What the body leaves in the output's staging buffer, as a function of the input blocks: one store of the whole
    block, its value the body's arithmetic on the whole input blocks. -/
def res5 (x0 : Vec F S10000x64 .f32) (x1 : Vec F S1x64 .f32) : Vec F S10000x64 .f32 :=
  View.canon [⟨(Rect.unit (s := S10000x64) ![0, 0] S10000x64.size inb_S10000x64_S10000x64_0_0), k5_pay1 (View.ld x0 (Rect.unit (s := S10000x64) ![0, 0] S10000x64.size inb_S10000x64_S10000x64_0_0)) (View.ld x1 (Rect.unit (s := S1x64) ![0, 0] S1x64.size inb_S1x64_S1x64_0_0))⟩]

/-- The one store covers the whole output block. -/
theorem res5_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => res5 (blk5 V c 0 t) (blk5 V c 1 t)
  Φ _ := Pipeline.ΦA spec5 c
  q _ := fullShare
  owed _ := 0

theorem pd5_A (c : Dev nD) (w : Fin cfg5.W) : (pd5 V c).A w = V c (Pipeline.arrRef spec5 w) := by
  dsimp only [pd5]
theorem pd5_after_0 (c : Dev nD) (t : Fin cfg5.N) : (pd5 V c).after 0 t = blk5 V c 0 t := by dsimp only [pd5]
theorem pd5_after_1 (c : Dev nD) (t : Fin cfg5.N) : (pd5 V c).after 1 t = blk5 V c 1 t := by dsimp only [pd5]
theorem pd5_after_2 (c : Dev nD) (t : Fin cfg5.N) : (pd5 V c).after 2 t = res5 (blk5 V c 0 t) (blk5 V c 1 t) := by dsimp only [pd5]
theorem pd5_before_0 (c : Dev nD) (t : Fin cfg5.N) (d) : (pd5 V c).before 0 t d = blk5 V c 0 t :=
  kept5_0_of V (pd5 V c) (pd5_A V c 0) (pd5_after_0 V c) t d
theorem pd5_before_1 (c : Dev nD) (t : Fin cfg5.N) (d) : (pd5 V c).before 1 t d = blk5 V c 1 t :=
  kept5_1_of V (pd5 V c) (pd5_A V c 1) (pd5_after_1 V c) t d

/-! # Region 6 of the program: `cc6__matmul_bias_kernel`, at the contents `V` its arrays hold when it is entered -/

/-- The block of window `w` at grid point `t`, cut out of the window's array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds that input's block at every point, whether the point fetched it or the block index
    stayed where it was: the body never writes an input, so what was there is still there. -/
theorem kept6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- An input's staging buffer holds that input's block at every point, whether the point fetched it or the block index
    stayed where it was: the body never writes an input, so what was there is still there. -/
theorem kept6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- An input's staging buffer holds that input's block at every point, whether the point fetched it or the block index
    stayed where it was: the body never writes an input, so what was there is still there. -/
theorem kept6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-- What the body leaves in the output's staging buffer, as a function of the input blocks: one store of the whole
    block, its value the body's arithmetic on the whole input blocks. -/
def res6 (x0 : Vec F S10000x192 .f32) (x1 : Vec F S192x40 .f32) (x2 : Vec F S1x40 .f32) : Vec F S10000x40 .f32 :=
  View.canon [⟨(Rect.unit (s := S10000x40) ![0, 0] S10000x40.size inb_S10000x40_S10000x40_0_0), k6_pay1 (View.ld x0 (Rect.unit (s := S10000x192) ![0, 0] S10000x192.size inb_S10000x192_S10000x192_0_0)) (View.ld x1 (Rect.unit (s := S192x40) ![0, 0] S192x40.size inb_S192x40_S192x40_0_0)) (View.ld x2 (Rect.unit (s := S1x40) ![0, 0] S1x40.size inb_S1x40_S1x40_0_0))⟩]

/-- The one store covers the whole output block. -/
theorem res6_cover (p0 : Vec F S10000x40 .f32) (y : S10000x40.Idx) :
    ∃ pc ∈ ([⟨(Rect.unit (s := S10000x40) ![0, 0] S10000x40.size inb_S10000x40_S10000x40_0_0), p0⟩] : List (View.Piece (Elt F) S10000x40 .f32)), y ∈ pc.1.set :=
  View.cover_of_tiled [⟨(Rect.unit (s := S10000x40) ![0, 0] S10000x40.size inb_S10000x40_S10000x40_0_0), p0⟩] S10000x40.size (by rfl) y

/-- The region's proof data on core `c`: each window's array as the region finds it; after the body at point `t` every
    input's buffer still at its block and the output's at the body's result on the input blocks; nothing owed, whole
    shares, and the invariant that only carries the untouched rest along. -/
def pd6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => res6 (blk6 V c 0 t) (blk6 V c 1 t) (blk6 V c 2 t)
  Φ _ := Pipeline.ΦA spec6 c
  q _ := fullShare
  owed _ := 0

theorem pd6_A (c : Dev nD) (w : Fin cfg6.W) : (pd6 V c).A w = V c (Pipeline.arrRef spec6 w) := by
  dsimp only [pd6]
theorem pd6_after_0 (c : Dev nD) (t : Fin cfg6.N) : (pd6 V c).after 0 t = blk6 V c 0 t := by dsimp only [pd6]
theorem pd6_after_1 (c : Dev nD) (t : Fin cfg6.N) : (pd6 V c).after 1 t = blk6 V c 1 t := by dsimp only [pd6]
theorem pd6_after_2 (c : Dev nD) (t : Fin cfg6.N) : (pd6 V c).after 2 t = blk6 V c 2 t := by dsimp only [pd6]
theorem pd6_after_3 (c : Dev nD) (t : Fin cfg6.N) : (pd6 V c).after 3 t = res6 (blk6 V c 0 t) (blk6 V c 1 t) (blk6 V c 2 t) := by dsimp only [pd6]
theorem pd6_before_0 (c : Dev nD) (t : Fin cfg6.N) (d) : (pd6 V c).before 0 t d = blk6 V c 0 t :=
  kept6_0_of V (pd6 V c) (pd6_A V c 0) (pd6_after_0 V c) t d
theorem pd6_before_1 (c : Dev nD) (t : Fin cfg6.N) (d) : (pd6 V c).before 1 t d = blk6 V c 1 t :=
  kept6_1_of V (pd6 V c) (pd6_A V c 1) (pd6_after_1 V c) t d
theorem pd6_before_2 (c : Dev nD) (t : Fin cfg6.N) (d) : (pd6 V c).before 2 t d = blk6 V c 2 t :=
  kept6_2_of V (pd6 V c) (pd6_A V c 2) (pd6_after_2 V c) t d

end Cert.Kernel.Tiles

end
-- ==== Proof.BitsFold.lean ====
/-
  The contents of a core's buffers at each boundary between the program's twelve items (five stretches of host
  operations, seven tiled regions), as a fold from the launch memory: a host stretch applies its operations; a region
  leaves its input arrays as they were and its output array at what the write-backs of all grid points leave; every other
  buffer is untouched. Each step also says which buffers it cannot change, and the argument arrays, which no step may
  change, are read back through the whole fold to their launch contents.
-/
import proofs.«182094_j14697378087202_1_alg».proof.Proof.BitsTiles
import proofs.«182094_j14697378087202_1_alg».proof.Proof.Gen.Kernel.Regions

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A core's buffers at launch. -/
abbrev W0 : Dev nD → Valuation τ sig (Elt F) := fun c b => m ((c : Dev nD), b)

/-- After the host stretch `hostOps0`. -/
abbrev W1 : Dev nD → Valuation τ sig (Elt F) := fun c => StableHlo.after hostOps0 (W0 m c)
/-- The same, read at the core's own references. -/
abbrev V1 : (c : Dev nD) → (b : Ref sig .tc) → Buf (Elt F) ((c : Thread nD τ).loc b) := fun c b => W1 m c b
/-- A buffer the stretch does not write keeps its contents. -/
theorem W1_keep (c : Dev nD) (b : Ref sig .tc) (h : b ∉ hostOps0_W) : W1 m c (Proc.devRef .tc b) = W0 m c (Proc.devRef .tc b) :=
  StableHlo.after_of_writes_sub hostOps0 _ hostOps0_writes h

/-- After region 0: its arrays at what the pipeline leaves (inputs as entered, the output's write-backs folded over all
    grid points), every other buffer as entered. -/
def W2 (c : Dev nD) : Valuation τ sig (Elt F) :=
  Pipeline.withArrays spec0 c (W1 m c) fun w => (pd0 (V1 m) c).arrAt w cfg0.N
theorem W2_arr (c : Dev nD) (w : Fin cfg0.W) :
    W2 m c (Proc.devRef .tc (Pipeline.arrRef spec0 w)) = (pd0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m c b
theorem arrs0 (c : Dev nD) (w : Fin cfg0.W) : (pd0 (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Only the region's output array can change: an input array is read, never written back. -/
theorem W2_keep (c : Dev nD) (b : Ref sig .tc) (hb : b ≠ main_v4) : W2 m c (Proc.devRef .tc b) = W1 m c (Proc.devRef .tc b) := by
  by_cases h : ∀ w, Pipeline.arrRef spec0 w ≠ b
  · exact W2_of_ne m c b h
  · obtain ⟨w, rfl⟩ := not_forall_not.mp h
    match w with
    | ⟨0, _⟩ => exact (W2_arr m c 0).trans (((pd0 (V1 m) c).arrAt_in 0 rfl _).trans (pd0_A (V1 m) c 0))
    | ⟨1, _⟩ => exact (W2_arr m c 1).trans (((pd0 (V1 m) c).arrAt_in 1 rfl _).trans (pd0_A (V1 m) c 1))
    | ⟨2, _⟩ => exact absurd rfl hb

/-- After the host stretch `hostOps1`. -/
abbrev W3 : Dev nD → Valuation τ sig (Elt F) := fun c => StableHlo.after hostOps1 (W2 m c)
/-- The same, read at the core's own references. -/
abbrev V3 : (c : Dev nD) → (b : Ref sig .tc) → Buf (Elt F) ((c : Thread nD τ).loc b) := fun c b => W3 m c b
/-- A buffer the stretch does not write keeps its contents. -/
theorem W3_keep (c : Dev nD) (b : Ref sig .tc) (h : b ∉ hostOps1_W) : W3 m c (Proc.devRef .tc b) = W2 m c (Proc.devRef .tc b) :=
  StableHlo.after_of_writes_sub hostOps1 _ hostOps1_writes h

/-- After region 1: its arrays at what the pipeline leaves (inputs as entered, the output's write-backs folded over all
    grid points), every other buffer as entered. -/
def W4 (c : Dev nD) : Valuation τ sig (Elt F) :=
  Pipeline.withArrays spec1 c (W3 m c) fun w => (pd1 (V3 m) c).arrAt w cfg1.N
theorem W4_arr (c : Dev nD) (w : Fin cfg1.W) :
    W4 m c (Proc.devRef .tc (Pipeline.arrRef spec1 w)) = (pd1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m c b
theorem arrs1 (c : Dev nD) (w : Fin cfg1.W) : (pd1 (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Only the region's output array can change: an input array is read, never written back. -/
theorem W4_keep (c : Dev nD) (b : Ref sig .tc) (hb : b ≠ main_v19) : W4 m c (Proc.devRef .tc b) = W3 m c (Proc.devRef .tc b) := by
  by_cases h : ∀ w, Pipeline.arrRef spec1 w ≠ b
  · exact W4_of_ne m c b h
  · obtain ⟨w, rfl⟩ := not_forall_not.mp h
    match w with
    | ⟨0, _⟩ => exact (W4_arr m c 0).trans (((pd1 (V3 m) c).arrAt_in 0 rfl _).trans (pd1_A (V3 m) c 0))
    | ⟨1, _⟩ => exact (W4_arr m c 1).trans (((pd1 (V3 m) c).arrAt_in 1 rfl _).trans (pd1_A (V3 m) c 1))
    | ⟨2, _⟩ => exact absurd rfl hb

/-- After region 2: its arrays at what the pipeline leaves (inputs as entered, the output's write-backs folded over all
    grid points), every other buffer as entered. -/
def W5 (c : Dev nD) : Valuation τ sig (Elt F) :=
  Pipeline.withArrays spec2 c (W4 m c) fun w => (pd2 (V4 m) c).arrAt w cfg2.N
theorem W5_arr (c : Dev nD) (w : Fin cfg2.W) :
    W5 m c (Proc.devRef .tc (Pipeline.arrRef spec2 w)) = (pd2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same, read at the core's own references. -/
abbrev V5 : (c : Dev nD) → (b : Ref sig .tc) → Buf (Elt F) ((c : Thread nD τ).loc b) := fun c b => W5 m c b
theorem arrs2 (c : Dev nD) (w : Fin cfg2.W) : (pd2 (V4 m) c).arrAt w cfg2.N = V5 m c (Pipeline.arrRef spec2 w) :=
  (W5_arr m c w).symm
theorem rest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- Only the region's output array can change: an input array is read, never written back. -/
theorem W5_keep (c : Dev nD) (b : Ref sig .tc) (hb : b ≠ main_v20) : W5 m c (Proc.devRef .tc b) = W4 m c (Proc.devRef .tc b) := by
  by_cases h : ∀ w, Pipeline.arrRef spec2 w ≠ b
  · exact W5_of_ne m c b h
  · obtain ⟨w, rfl⟩ := not_forall_not.mp h
    match w with
    | ⟨0, _⟩ => exact (W5_arr m c 0).trans (((pd2 (V4 m) c).arrAt_in 0 rfl _).trans (pd2_A (V4 m) c 0))
    | ⟨1, _⟩ => exact (W5_arr m c 1).trans (((pd2 (V4 m) c).arrAt_in 1 rfl _).trans (pd2_A (V4 m) c 1))
    | ⟨2, _⟩ => exact absurd rfl hb

/-- After the host stretch `hostOps3`. -/
abbrev W6 : Dev nD → Valuation τ sig (Elt F) := fun c => StableHlo.after hostOps3 (W5 m c)
/-- The same, read at the core's own references. -/
abbrev V6 : (c : Dev nD) → (b : Ref sig .tc) → Buf (Elt F) ((c : Thread nD τ).loc b) := fun c b => W6 m c b
/-- A buffer the stretch does not write keeps its contents. -/
theorem W6_keep (c : Dev nD) (b : Ref sig .tc) (h : b ∉ hostOps3_W) : W6 m c (Proc.devRef .tc b) = W5 m c (Proc.devRef .tc b) :=
  StableHlo.after_of_writes_sub hostOps3 _ hostOps3_writes h

/-- After region 3: its arrays at what the pipeline leaves (inputs as entered, the output's write-backs folded over all
    grid points), every other buffer as entered. -/
def W7 (c : Dev nD) : Valuation τ sig (Elt F) :=
  Pipeline.withArrays spec3 c (W6 m c) fun w => (pd3 (V6 m) c).arrAt w cfg3.N
theorem W7_arr (c : Dev nD) (w : Fin cfg3.W) :
    W7 m c (Proc.devRef .tc (Pipeline.arrRef spec3 w)) = (pd3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same, read at the core's own references. -/
abbrev V7 : (c : Dev nD) → (b : Ref sig .tc) → Buf (Elt F) ((c : Thread nD τ).loc b) := fun c b => W7 m c b
theorem arrs3 (c : Dev nD) (w : Fin cfg3.W) : (pd3 (V6 m) c).arrAt w cfg3.N = V7 m c (Pipeline.arrRef spec3 w) :=
  (W7_arr m c w).symm
theorem rest3 (c : Dev nD) : ∀ b, b ∉ Finset.univ.image (Pipeline.arrRef spec3) → V7 m c b = V6 m c b :=
  fun b hb => W7_of_ne m c b fun w e => hb (Finset.mem_image.mpr ⟨w, Finset.mem_univ _, e⟩)
/-- Only the region's output array can change: an input array is read, never written back. -/
theorem W7_keep (c : Dev nD) (b : Ref sig .tc) (hb : b ≠ main_v35) : W7 m c (Proc.devRef .tc b) = W6 m c (Proc.devRef .tc b) := by
  by_cases h : ∀ w, Pipeline.arrRef spec3 w ≠ b
  · exact W7_of_ne m c b h
  · obtain ⟨w, rfl⟩ := not_forall_not.mp h
    match w with
    | ⟨0, _⟩ => exact (W7_arr m c 0).trans (((pd3 (V6 m) c).arrAt_in 0 rfl _).trans (pd3_A (V6 m) c 0))
    | ⟨1, _⟩ => exact (W7_arr m c 1).trans (((pd3 (V6 m) c).arrAt_in 1 rfl _).trans (pd3_A (V6 m) c 1))
    | ⟨2, _⟩ => exact absurd rfl hb

/-- After region 4: its arrays at what the pipeline leaves (inputs as entered, the output's write-backs folded over all
    grid points), every other buffer as entered. -/
def W8 (c : Dev nD) : Valuation τ sig (Elt F) :=
  Pipeline.withArrays spec4 c (W7 m c) fun w => (pd4 (V7 m) c).arrAt w cfg4.N
theorem W8_arr (c : Dev nD) (w : Fin cfg4.W) :
    W8 m c (Proc.devRef .tc (Pipeline.arrRef spec4 w)) = (pd4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- The same, read at the core's own references. -/
abbrev V8 : (c : Dev nD) → (b : Ref sig .tc) → Buf (Elt F) ((c : Thread nD τ).loc b) := fun c b => W8 m c b
theorem arrs4 (c : Dev nD) (w : Fin cfg4.W) : (pd4 (V7 m) c).arrAt w cfg4.N = V8 m c (Pipeline.arrRef spec4 w) :=
  (W8_arr m c w).symm
theorem rest4 (c : Dev nD) : ∀ b, b ∉ Finset.univ.image (Pipeline.arrRef spec4) → V8 m c b = V7 m c b :=
  fun b hb => W8_of_ne m c b fun w e => hb (Finset.mem_image.mpr ⟨w, Finset.mem_univ _, e⟩)
/-- Only the region's output array can change: an input array is read, never written back. -/
theorem W8_keep (c : Dev nD) (b : Ref sig .tc) (hb : b ≠ main_v36) : W8 m c (Proc.devRef .tc b) = W7 m c (Proc.devRef .tc b) := by
  by_cases h : ∀ w, Pipeline.arrRef spec4 w ≠ b
  · exact W8_of_ne m c b h
  · obtain ⟨w, rfl⟩ := not_forall_not.mp h
    match w with
    | ⟨0, _⟩ => exact (W8_arr m c 0).trans (((pd4 (V7 m) c).arrAt_in 0 rfl _).trans (pd4_A (V7 m) c 0))
    | ⟨1, _⟩ => exact (W8_arr m c 1).trans (((pd4 (V7 m) c).arrAt_in 1 rfl _).trans (pd4_A (V7 m) c 1))
    | ⟨2, _⟩ => exact absurd rfl hb

/-- After the host stretch `hostOps5`. -/
abbrev W9 : Dev nD → Valuation τ sig (Elt F) := fun c => StableHlo.after hostOps5 (W8 m c)
/-- The same, read at the core's own references. -/
abbrev V9 : (c : Dev nD) → (b : Ref sig .tc) → Buf (Elt F) ((c : Thread nD τ).loc b) := fun c b => W9 m c b
/-- A buffer the stretch does not write keeps its contents. -/
theorem W9_keep (c : Dev nD) (b : Ref sig .tc) (h : b ∉ hostOps5_W) : W9 m c (Proc.devRef .tc b) = W8 m c (Proc.devRef .tc b) :=
  StableHlo.after_of_writes_sub hostOps5 _ hostOps5_writes h

/-- After region 5: its arrays at what the pipeline leaves (inputs as entered, the output's write-backs folded over all
    grid points), every other buffer as entered. -/
def W10 (c : Dev nD) : Valuation τ sig (Elt F) :=
  Pipeline.withArrays spec5 c (W9 m c) fun w => (pd5 (V9 m) c).arrAt w cfg5.N
theorem W10_arr (c : Dev nD) (w : Fin cfg5.W) :
    W10 m c (Proc.devRef .tc (Pipeline.arrRef spec5 w)) = (pd5 (V9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- The same, read at the core's own references. -/
abbrev V10 : (c : Dev nD) → (b : Ref sig .tc) → Buf (Elt F) ((c : Thread nD τ).loc b) := fun c b => W10 m c b
theorem arrs5 (c : Dev nD) (w : Fin cfg5.W) : (pd5 (V9 m) c).arrAt w cfg5.N = V10 m c (Pipeline.arrRef spec5 w) :=
  (W10_arr m c w).symm
theorem rest5 (c : Dev nD) : ∀ b, b ∉ Finset.univ.image (Pipeline.arrRef spec5) → V10 m c b = V9 m c b :=
  fun b hb => W10_of_ne m c b fun w e => hb (Finset.mem_image.mpr ⟨w, Finset.mem_univ _, e⟩)
/-- Only the region's output array can change: an input array is read, never written back. -/
theorem W10_keep (c : Dev nD) (b : Ref sig .tc) (hb : b ≠ main_v51) : W10 m c (Proc.devRef .tc b) = W9 m c (Proc.devRef .tc b) := by
  by_cases h : ∀ w, Pipeline.arrRef spec5 w ≠ b
  · exact W10_of_ne m c b h
  · obtain ⟨w, rfl⟩ := not_forall_not.mp h
    match w with
    | ⟨0, _⟩ => exact (W10_arr m c 0).trans (((pd5 (V9 m) c).arrAt_in 0 rfl _).trans (pd5_A (V9 m) c 0))
    | ⟨1, _⟩ => exact (W10_arr m c 1).trans (((pd5 (V9 m) c).arrAt_in 1 rfl _).trans (pd5_A (V9 m) c 1))
    | ⟨2, _⟩ => exact absurd rfl hb

/-- After the host stretch `hostOps6`. -/
abbrev W11 : Dev nD → Valuation τ sig (Elt F) := fun c => StableHlo.after hostOps6 (W10 m c)
/-- The same, read at the core's own references. -/
abbrev V11 : (c : Dev nD) → (b : Ref sig .tc) → Buf (Elt F) ((c : Thread nD τ).loc b) := fun c b => W11 m c b
/-- A buffer the stretch does not write keeps its contents. -/
theorem W11_keep (c : Dev nD) (b : Ref sig .tc) (h : b ∉ hostOps6_W) : W11 m c (Proc.devRef .tc b) = W10 m c (Proc.devRef .tc b) :=
  StableHlo.after_of_writes_sub hostOps6 _ hostOps6_writes h

/-- After region 6: its arrays at what the pipeline leaves (inputs as entered, the output's write-backs folded over all
    grid points), every other buffer as entered. -/
def W12 (c : Dev nD) : Valuation τ sig (Elt F) :=
  Pipeline.withArrays spec6 c (W11 m c) fun w => (pd6 (V11 m) c).arrAt w cfg6.N
theorem W12_arr (c : Dev nD) (w : Fin cfg6.W) :
    W12 m c (Proc.devRef .tc (Pipeline.arrRef spec6 w)) = (pd6 (V11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
/-- The same, read at the core's own references. -/
abbrev V12 : (c : Dev nD) → (b : Ref sig .tc) → Buf (Elt F) ((c : Thread nD τ).loc b) := fun c b => W12 m c b
theorem arrs6 (c : Dev nD) (w : Fin cfg6.W) : (pd6 (V11 m) c).arrAt w cfg6.N = V12 m c (Pipeline.arrRef spec6 w) :=
  (W12_arr m c w).symm
theorem rest6 (c : Dev nD) : ∀ b, b ∉ Finset.univ.image (Pipeline.arrRef spec6) → V12 m c b = V11 m c b :=
  fun b hb => W12_of_ne m c b fun w e => hb (Finset.mem_image.mpr ⟨w, Finset.mem_univ _, e⟩)
/-- Only the region's output array can change: an input array is read, never written back. -/
theorem W12_keep (c : Dev nD) (b : Ref sig .tc) (hb : b ≠ main_v54) : W12 m c (Proc.devRef .tc b) = W11 m c (Proc.devRef .tc b) := by
  by_cases h : ∀ w, Pipeline.arrRef spec6 w ≠ b
  · exact W12_of_ne m c b h
  · obtain ⟨w, rfl⟩ := not_forall_not.mp h
    match w with
    | ⟨0, _⟩ => exact (W12_arr m c 0).trans (((pd6 (V11 m) c).arrAt_in 0 rfl _).trans (pd6_A (V11 m) c 0))
    | ⟨1, _⟩ => exact (W12_arr m c 1).trans (((pd6 (V11 m) c).arrAt_in 1 rfl _).trans (pd6_A (V11 m) c 1))
    | ⟨2, _⟩ => exact (W12_arr m c 2).trans (((pd6 (V11 m) c).arrAt_in 2 rfl _).trans (pd6_A (V11 m) c 2))
    | ⟨3, _⟩ => exact absurd rfl hb

/-- A buffer that no host stretch writes and that is no region's output holds its launch contents at the end. -/
theorem W12_launch (c : Dev nD) (b : Ref sig .tc) (h_hostOps0 : b ∉ hostOps0_W) (h_hostOps1 : b ∉ hostOps1_W) (h_hostOps3 : b ∉ hostOps3_W) (h_hostOps5 : b ∉ hostOps5_W) (h_hostOps6 : b ∉ hostOps6_W)
    (hout : b ∉ ([main_v4, main_v19, main_v20, main_v35, main_v36, main_v51, main_v54] : List (Ref sig .tc))) :
    W12 m c (Proc.devRef .tc b) = m ((c : Thread nD τ).loc b) := by
  have hne : ∀ o ∈ ([main_v4, main_v19, main_v20, main_v35, main_v36, main_v51, main_v54] : List (Ref sig .tc)), b ≠ o := fun o ho e => hout (e ▸ ho)
  rw [W12_keep m c b (hne _ (by decide))]
  rw [W11_keep m c b h_hostOps6]
  rw [W10_keep m c b (hne _ (by decide))]
  rw [W9_keep m c b h_hostOps5]
  rw [W8_keep m c b (hne _ (by decide))]
  rw [W7_keep m c b (hne _ (by decide))]
  rw [W6_keep m c b h_hostOps3]
  rw [W5_keep m c b (hne _ (by decide))]
  rw [W4_keep m c b (hne _ (by decide))]
  rw [W3_keep m c b h_hostOps1]
  rw [W2_keep m c b (hne _ (by decide))]
  rw [W1_keep m c b h_hostOps0]

end Cert.Kernel.Tiles

end
-- ==== Proof.BitsBody0.lean ====
/-
  Region 0's body: run on whole staging buffers holding the input blocks, `cc0__matmul_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body0_run (c : Dev nD) (E : Set ℕ) (i : grid0.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res0 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res0_cover _)

/-- What the pipeline hands the body at point `t`, -/
def body0_pre (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it gets back. -/
def body0_post (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

/-- The body at any point: the input buffers hold their blocks, so `body0_run` applies; the invariant and what the core
    owes pass through untouched. -/
theorem body0_at (c : Dev nD) (t : Fin cfg0.N) :
    body0_pre V c t ⊢ wp frame (wpE (defs₀ (F := F)) Variants.none c none) Set.univ (bodyAt0 t) (fun _ => body0_post V c t) := by
  unfold body0_pre body0_post bodyAt0
  simp only [pd0_before_0, pd0_before_1]
  rw [show (pd0 V c).Φ t.succ = (pd0 V c).Φ t.castSucc from rfl,
    show (pd0 V c).owesAt () t.succ = (pd0 V c).owesAt () t.castSucc from rfl,
    pd0_after_0, pd0_after_1, pd0_after_2]
  iintro ⟨HΦ, Ho, ⟨%d0, H0⟩, ⟨%d1, H1⟩, ⟨%d2, H2⟩⟩
  iapply (body0_run c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body0_obligation (c : Dev nD) : BodyObligation (pd0 (F := F) V c) (defs₀ (F := F)) Variants.none () Set.univ := fun t => by
  rw [bigSep_W0, bigSep_W0]
  exact body0_at V c t

end Cert.Kernel.Tiles

end
-- ==== Proof.BitsBody1.lean ====
/-
  Region 1's body: run on whole staging buffers holding the input blocks, `cc1__biasact_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body1_run (c : Dev nD) (E : Set ℕ) (i : grid1.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res1 x0 x1)) -∗ K ⟨⟩))
      ⊢ wp frame (wpE (defs₀ (F := F)) Variants.none c none) E (cc1__biasact_kernel i arg0 harg0 arg1 harg1 arg2 harg2) K := by
  simp only [cc1__biasact_kernel_eq_skeleton]; unfold cc1__biasact_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res1_cover _)

/-- What the pipeline hands the body at point `t`, -/
def body1_pre (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d)))

/-- and what it gets back. -/
def body1_post (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t))

/-- The body at any point: the input buffers hold their blocks, so `body1_run` applies; the invariant and what the core
    owes pass through untouched. -/
theorem body1_at (c : Dev nD) (t : Fin cfg1.N) :
    body1_pre V c t ⊢ wp frame (wpE (defs₀ (F := F)) Variants.none c none) Set.univ (bodyAt1 t) (fun _ => body1_post V c t) := by
  unfold body1_pre body1_post bodyAt1
  simp only [pd1_before_0, pd1_before_1]
  rw [show (pd1 V c).Φ t.succ = (pd1 V c).Φ t.castSucc from rfl,
    show (pd1 V c).owesAt () t.succ = (pd1 V c).owesAt () t.castSucc from rfl,
    pd1_after_0, pd1_after_1, pd1_after_2]
  iintro ⟨HΦ, Ho, ⟨%d0, H0⟩, ⟨%d1, H1⟩, ⟨%d2, H2⟩⟩
  iapply (body1_run c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body1_obligation (c : Dev nD) : BodyObligation (pd1 (F := F) V c) (defs₀ (F := F)) Variants.none () Set.univ := fun t => by
  rw [bigSep_W1, bigSep_W1]
  exact body1_at V c t

end Cert.Kernel.Tiles

end
-- ==== Proof.BitsBody2.lean ====
/-
  Region 2's body: run on whole staging buffers holding the input blocks, `cc2__matmul_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body2_run (c : Dev nD) (E : Set ℕ) (i : grid2.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res2_cover _)

/-- What the pipeline hands the body at point `t`, -/
def body2_pre (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d)))

/-- and what it gets back. -/
def body2_post (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t))

/-- The body at any point: the input buffers hold their blocks, so `body2_run` applies; the invariant and what the core
    owes pass through untouched. -/
theorem body2_at (c : Dev nD) (t : Fin cfg2.N) :
    body2_pre V c t ⊢ wp frame (wpE (defs₀ (F := F)) Variants.none c none) Set.univ (bodyAt2 t) (fun _ => body2_post V c t) := by
  unfold body2_pre body2_post bodyAt2
  simp only [pd2_before_0, pd2_before_1]
  rw [show (pd2 V c).Φ t.succ = (pd2 V c).Φ t.castSucc from rfl,
    show (pd2 V c).owesAt () t.succ = (pd2 V c).owesAt () t.castSucc from rfl,
    pd2_after_0, pd2_after_1, pd2_after_2]
  iintro ⟨HΦ, Ho, ⟨%d0, H0⟩, ⟨%d1, H1⟩, ⟨%d2, H2⟩⟩
  iapply (body2_run c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body2_obligation (c : Dev nD) : BodyObligation (pd2 (F := F) V c) (defs₀ (F := F)) Variants.none () Set.univ := fun t => by
  rw [bigSep_W2, bigSep_W2]
  exact body2_at V c t

end Cert.Kernel.Tiles

end
-- ==== Proof.BitsBody3.lean ====
/-
  Region 3's body: run on whole staging buffers holding the input blocks, `cc3__biasact_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body3_run (c : Dev nD) (E : Set ℕ) (i : grid3.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res3 x0 x1)) -∗ K ⟨⟩))
      ⊢ wp frame (wpE (defs₀ (F := F)) Variants.none c none) E (cc3__biasact_kernel i arg0 harg0 arg1 harg1 arg2 harg2) K := by
  simp only [cc3__biasact_kernel_eq_skeleton]; unfold cc3__biasact_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res3_cover _)

/-- What the pipeline hands the body at point `t`, -/
def body3_pre (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d)))

/-- and what it gets back. -/
def body3_post (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t))

/-- The body at any point: the input buffers hold their blocks, so `body3_run` applies; the invariant and what the core
    owes pass through untouched. -/
theorem body3_at (c : Dev nD) (t : Fin cfg3.N) :
    body3_pre V c t ⊢ wp frame (wpE (defs₀ (F := F)) Variants.none c none) Set.univ (bodyAt3 t) (fun _ => body3_post V c t) := by
  unfold body3_pre body3_post bodyAt3
  simp only [pd3_before_0, pd3_before_1]
  rw [show (pd3 V c).Φ t.succ = (pd3 V c).Φ t.castSucc from rfl,
    show (pd3 V c).owesAt () t.succ = (pd3 V c).owesAt () t.castSucc from rfl,
    pd3_after_0, pd3_after_1, pd3_after_2]
  iintro ⟨HΦ, Ho, ⟨%d0, H0⟩, ⟨%d1, H1⟩, ⟨%d2, H2⟩⟩
  iapply (body3_run c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body3_obligation (c : Dev nD) : BodyObligation (pd3 (F := F) V c) (defs₀ (F := F)) Variants.none () Set.univ := fun t => by
  rw [bigSep_W3, bigSep_W3]
  exact body3_at V c t

end Cert.Kernel.Tiles

end
-- ==== Proof.BitsBody4.lean ====
/-
  Region 4's body: run on whole staging buffers holding the input blocks, `cc4__matmul_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body4_run (c : Dev nD) (E : Set ℕ) (i : grid4.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res4 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res4_cover _)

/-- What the pipeline hands the body at point `t`, -/
def body4_pre (c : Dev nD) (t : Fin cfg4.N) : sProp 𝕄 :=
  iprop((pd4 V c).Φ t.castSucc ∗ (pd4 V c).owesAt () t.castSucc
    ∗ (∃ d, owns (c : Thread nD τ) (st4_0 t) fullShare ((pd4 V c).before 0 t d))
    ∗ (∃ d, owns (c : Thread nD τ) (st4_1 t) fullShare ((pd4 V c).before 1 t d))
    ∗ (∃ d, owns (c : Thread nD τ) (st4_2 t) fullShare ((pd4 V c).before 2 t d)))

/-- and what it gets back. -/
def body4_post (c : Dev nD) (t : Fin cfg4.N) : sProp 𝕄 :=
  iprop((pd4 V c).Φ t.succ ∗ (pd4 V c).owesAt () t.succ
    ∗ owns (c : Thread nD τ) (st4_0 t) fullShare ((pd4 V c).after 0 t)
    ∗ owns (c : Thread nD τ) (st4_1 t) fullShare ((pd4 V c).after 1 t)
    ∗ owns (c : Thread nD τ) (st4_2 t) fullShare ((pd4 V c).after 2 t))

/-- The body at any point: the input buffers hold their blocks, so `body4_run` applies; the invariant and what the core
    owes pass through untouched. -/
theorem body4_at (c : Dev nD) (t : Fin cfg4.N) :
    body4_pre V c t ⊢ wp frame (wpE (defs₀ (F := F)) Variants.none c none) Set.univ (bodyAt4 t) (fun _ => body4_post V c t) := by
  unfold body4_pre body4_post bodyAt4
  simp only [pd4_before_0, pd4_before_1]
  rw [show (pd4 V c).Φ t.succ = (pd4 V c).Φ t.castSucc from rfl,
    show (pd4 V c).owesAt () t.succ = (pd4 V c).owesAt () t.castSucc from rfl,
    pd4_after_0, pd4_after_1, pd4_after_2]
  iintro ⟨HΦ, Ho, ⟨%d0, H0⟩, ⟨%d1, H1⟩, ⟨%d2, H2⟩⟩
  iapply (body4_run c Set.univ _ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body4_obligation (c : Dev nD) : BodyObligation (pd4 (F := F) V c) (defs₀ (F := F)) Variants.none () Set.univ := fun t => by
  rw [bigSep_W4, bigSep_W4]
  exact body4_at V c t

end Cert.Kernel.Tiles

end
-- ==== Proof.BitsBody5.lean ====
/-
  Region 5's body: run on whole staging buffers holding the input blocks, `cc5__biasact_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body5_run (c : Dev nD) (E : Set ℕ) (i : grid5.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res5 x0 x1)) -∗ K ⟨⟩))
      ⊢ wp frame (wpE (defs₀ (F := F)) Variants.none c none) E (cc5__biasact_kernel i arg0 harg0 arg1 harg1 arg2 harg2) K := by
  simp only [cc5__biasact_kernel_eq_skeleton]; unfold cc5__biasact_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res5_cover _)

/-- What the pipeline hands the body at point `t`, -/
def body5_pre (c : Dev nD) (t : Fin cfg5.N) : sProp 𝕄 :=
  iprop((pd5 V c).Φ t.castSucc ∗ (pd5 V c).owesAt () t.castSucc
    ∗ (∃ d, owns (c : Thread nD τ) (st5_0 t) fullShare ((pd5 V c).before 0 t d))
    ∗ (∃ d, owns (c : Thread nD τ) (st5_1 t) fullShare ((pd5 V c).before 1 t d))
    ∗ (∃ d, owns (c : Thread nD τ) (st5_2 t) fullShare ((pd5 V c).before 2 t d)))

/-- and what it gets back. -/
def body5_post (c : Dev nD) (t : Fin cfg5.N) : sProp 𝕄 :=
  iprop((pd5 V c).Φ t.succ ∗ (pd5 V c).owesAt () t.succ
    ∗ owns (c : Thread nD τ) (st5_0 t) fullShare ((pd5 V c).after 0 t)
    ∗ owns (c : Thread nD τ) (st5_1 t) fullShare ((pd5 V c).after 1 t)
    ∗ owns (c : Thread nD τ) (st5_2 t) fullShare ((pd5 V c).after 2 t))

/-- The body at any point: the input buffers hold their blocks, so `body5_run` applies; the invariant and what the core
    owes pass through untouched. -/
theorem body5_at (c : Dev nD) (t : Fin cfg5.N) :
    body5_pre V c t ⊢ wp frame (wpE (defs₀ (F := F)) Variants.none c none) Set.univ (bodyAt5 t) (fun _ => body5_post V c t) := by
  unfold body5_pre body5_post bodyAt5
  simp only [pd5_before_0, pd5_before_1]
  rw [show (pd5 V c).Φ t.succ = (pd5 V c).Φ t.castSucc from rfl,
    show (pd5 V c).owesAt () t.succ = (pd5 V c).owesAt () t.castSucc from rfl,
    pd5_after_0, pd5_after_1, pd5_after_2]
  iintro ⟨HΦ, Ho, ⟨%d0, H0⟩, ⟨%d1, H1⟩, ⟨%d2, H2⟩⟩
  iapply (body5_run c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body5_obligation (c : Dev nD) : BodyObligation (pd5 (F := F) V c) (defs₀ (F := F)) Variants.none () Set.univ := fun t => by
  rw [bigSep_W5, bigSep_W5]
  exact body5_at V c t

end Cert.Kernel.Tiles

end
-- ==== Proof.BitsBody6.lean ====
/-
  Region 6's body: run on whole staging buffers holding the input blocks, `cc6__matmul_bias_kernel` ends with the inputs as they were
  and the output buffer at the body's result on them; hence the pipeline's obligation for the body at every grid point.
-/
import proofs.«182094_j14697378087202_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body6_run (c : Dev nD) (E : Set ℕ) (i : grid6.Coords) (arg0 : Memref sig .tc .vmem S10000x192 .f32) (harg0 : arg0.IsWhole) (arg1 : Memref sig .tc .vmem S192x40 .f32) (harg1 : arg1.IsWhole) (arg2 : Memref sig .tc .vmem S1x40 .f32) (harg2 : arg2.IsWhole) (arg3 : Memref sig .tc .vmem S10000x40 .f32) (harg3 : arg3.IsWhole)
    (x0 : Vec F S10000x192 .f32) (x1 : Vec F S192x40 .f32) (x2 : Vec F S1x40 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (res6 x0 x1 x2)) -∗ K ⟨⟩))
      ⊢ wp frame (wpE (defs₀ (F := F)) Variants.none c none) E (cc6__matmul_bias_kernel i arg0 harg0 arg1 harg1 arg2 harg2 arg3 harg3) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res6_cover _)

/-- What the pipeline hands the body at point `t`, -/
def body6_pre (c : Dev nD) (t : Fin cfg6.N) : sProp 𝕄 :=
  iprop((pd6 V c).Φ t.castSucc ∗ (pd6 V c).owesAt () t.castSucc
    ∗ (∃ d, owns (c : Thread nD τ) (st6_0 t) fullShare ((pd6 V c).before 0 t d))
    ∗ (∃ d, owns (c : Thread nD τ) (st6_1 t) fullShare ((pd6 V c).before 1 t d))
    ∗ (∃ d, owns (c : Thread nD τ) (st6_2 t) fullShare ((pd6 V c).before 2 t d))
    ∗ (∃ d, owns (c : Thread nD τ) (st6_3 t) fullShare ((pd6 V c).before 3 t d)))

/-- and what it gets back. -/
def body6_post (c : Dev nD) (t : Fin cfg6.N) : sProp 𝕄 :=
  iprop((pd6 V c).Φ t.succ ∗ (pd6 V c).owesAt () t.succ
    ∗ owns (c : Thread nD τ) (st6_0 t) fullShare ((pd6 V c).after 0 t)
    ∗ owns (c : Thread nD τ) (st6_1 t) fullShare ((pd6 V c).after 1 t)
    ∗ owns (c : Thread nD τ) (st6_2 t) fullShare ((pd6 V c).after 2 t)
    ∗ owns (c : Thread nD τ) (st6_3 t) fullShare ((pd6 V c).after 3 t))

/-- The body at any point: the input buffers hold their blocks, so `body6_run` applies; the invariant and what the core
    owes pass through untouched. -/
theorem body6_at (c : Dev nD) (t : Fin cfg6.N) :
    body6_pre V c t ⊢ wp frame (wpE (defs₀ (F := F)) Variants.none c none) Set.univ (bodyAt6 t) (fun _ => body6_post V c t) := by
  unfold body6_pre body6_post bodyAt6
  simp only [pd6_before_0, pd6_before_1, pd6_before_2]
  rw [show (pd6 V c).Φ t.succ = (pd6 V c).Φ t.castSucc from rfl,
    show (pd6 V c).owesAt () t.succ = (pd6 V c).owesAt () t.castSucc from rfl,
    pd6_after_0, pd6_after_1, pd6_after_2, pd6_after_3]
  iintro ⟨HΦ, Ho, ⟨%d0, H0⟩, ⟨%d1, H1⟩, ⟨%d2, H2⟩, ⟨%d3, H3⟩⟩
  iapply (body6_run c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation for the body, at every point. -/
theorem body6_obligation (c : Dev nD) : BodyObligation (pd6 (F := F) V c) (defs₀ (F := F)) Variants.none () Set.univ := fun t => by
  rw [bigSep_W6, bigSep_W6]
  exact body6_at V c t

end Cert.Kernel.Tiles

end
-- ==== Proof.BitsRun.lean ====
/-
  The program's run, item by item: each host stretch as a segment over the core's unscoped buffers, each tiled region as
  a segment entered from the buffers' contents before it and left at the contents after it (its arrays split out of the
  buffers, run through the pipeline under the body's obligation, and put back), the twelve segments chained from the
  launch; every weakly fair execution therefore terminates without a fault with every unscoped buffer at the last
  boundary's contents, which for an argument array are its launch contents.
-/
import proofs.«182094_j14697378087202_1_alg».proof.Proof.BitsFold
import proofs.«182094_j14697378087202_1_alg».proof.Proof.BitsBody0
import proofs.«182094_j14697378087202_1_alg».proof.Proof.BitsBody1
import proofs.«182094_j14697378087202_1_alg».proof.Proof.BitsBody2
import proofs.«182094_j14697378087202_1_alg».proof.Proof.BitsBody3
import proofs.«182094_j14697378087202_1_alg».proof.Proof.BitsBody4
import proofs.«182094_j14697378087202_1_alg».proof.Proof.BitsBody5
import proofs.«182094_j14697378087202_1_alg».proof.Proof.BitsBody6
import Idealize.ShloMosaic.Lib.Pipeline.Regions

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 7) → (pcfgs (F := F) p).Adm := fun p => (cfgs p).toPCfg_adm
/-- Every region's proof data, each at the contents its region is entered from. -/
def pdats : (p : Fin 7) → (c : Dev nD) → Dat τ (Elt F) Unit ℕ (UR sig nD τ) ℕ (Pipeline.pin (pcfgs (F := F)) adm p) c
  | ⟨0, _⟩ => fun c => pd0 (V1 m) c
  | ⟨1, _⟩ => fun c => pd1 (V3 m) c
  | ⟨2, _⟩ => fun c => pd2 (V4 m) c
  | ⟨3, _⟩ => fun c => pd3 (V6 m) c
  | ⟨4, _⟩ => fun c => pd4 (V7 m) c
  | ⟨5, _⟩ => fun c => pd5 (V9 m) c
  | ⟨6, _⟩ => fun c => pd6 (V11 m) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W12 m c) ∗ ∃ r, prngReg c r)

set_option backward.isDefEq.respectTransparency.types false in
/-- Region 0 as a segment: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W4`, left at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body2_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (arrs2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W6`, left at `W7`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body3_obligation (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (arrs3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at `W7`, left at `W8`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body4_obligation (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (arrs4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from every unscoped buffer at `W9`, left at `W10`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body5_obligation (V9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (V9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V9 m c) (V10 m c) ((pdats m 5 c).arrAt · cfg5.N) (arrs5 m c) (rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from every unscoped buffer at `W11`, left at `W12`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body6_obligation (V11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V11 m c) (V12 m c) ((pdats m 6 c).arrAt · cfg6.N) (arrs6 m c) (rest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's twelve segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m) ]

/-- The program IS the run of its segments. -/
theorem main_run (c : Dev nD) : main (F := F) c = Pipeline.Seg.run (segs m) := (main_chain c).trans (by chain_rfl)

set_option backward.isDefEq.respectTransparency.types false in
/-- From any memory with zero counters, every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The frame: every weakly fair execution terminates without a fault, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W12_launch m c main_arg0 (by decide) (by decide) (by decide) (by decide) (by decide) (by decide)),
    (h c _ (mem_uc main_arg1 (by decide))).trans (W12_launch m c main_arg1 (by decide) (by decide) (by decide) (by decide) (by decide) (by decide)),
    (h c _ (mem_uc main_arg2 (by decide))).trans (W12_launch m c main_arg2 (by decide) (by decide) (by decide) (by decide) (by decide) (by decide)),
    (h c _ (mem_uc main_arg3 (by decide))).trans (W12_launch m c main_arg3 (by decide) (by decide) (by decide) (by decide) (by decide) (by decide)),
    (h c _ (mem_uc main_arg4 (by decide))).trans (W12_launch m c main_arg4 (by decide) (by decide) (by decide) (by decide) (by decide) (by decide)),
    (h c _ (mem_uc main_arg5 (by decide))).trans (W12_launch m c main_arg5 (by decide) (by decide) (by decide) (by decide) (by decide) (by decide)),
    (h c _ (mem_uc main_arg6 (by decide))).trans (W12_launch m c main_arg6 (by decide) (by decide) (by decide) (by decide) (by decide) (by decide)),
    (h c _ (mem_uc main_arg7 (by decide))).trans (W12_launch m c main_arg7 (by decide) (by decide) (by decide) (by decide) (by decide) (by decide)),
    (h c _ (mem_uc main_arg8 (by decide))).trans (W12_launch m c main_arg8 (by decide) (by decide) (by decide) (by decide) (by decide) (by decide)),
    (h c _ (mem_uc main_arg9 (by decide))).trans (W12_launch m c main_arg9 (by decide) (by decide) (by decide) (by decide) (by decide) (by decide)),
    (h c _ (mem_uc main_arg10 (by decide))).trans (W12_launch m c main_arg10 (by decide) (by decide) (by decide) (by decide) (by decide) (by decide))⟩) (run_all m ρ)

end Cert.Kernel.Tiles

end
-- ==== Proof.IdealTiles.lean ====
/-
  The seven tiled regions of the program, one after the other: for each, the block a window shows the body at a grid
  point, what the body leaves in the output's staging buffer as a function of the input blocks (one store of the whole
  block: a [10000, 64] by [64, 64] product for the three projections, the bias row added and the half-and-half mix of
  z and max(z, 0) for the three activations, a [10000, 192] by [192, 40] product plus a bias row for the last), and
  the region's proof data built from these. Everything is stated at a parameter `V`, the contents of the core's
  buffers when the region is entered, and for any float model `F`.
-/
import proofs.«182094_j14697378087202_1_alg».proof.Proof.Gen.KernelIdeal.Launch
import proofs.«182094_j14697378087202_1_alg».proof.Proof.Gen.KernelIdeal.Skeleton
import proofs.«182094_j14697378087202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! # Region 0 of the program: `cc0__matmul_kernel`, at the contents `V` its arrays hold when it is entered -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds that input's block at every point, whether the point fetched it or the block index
    stayed where it was: the body never writes an input, so what was there is still there. -/
theorem kept0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- An input's staging buffer holds that input's block at every point, whether the point fetched it or the block index
    stayed where it was: the body never writes an input, so what was there is still there. -/
theorem kept0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- What the body leaves in the output's staging buffer, as a function of the input blocks: one store of the whole
    block, its value the body's arithmetic on the whole input blocks. -/
def res0 (x0 : Vec F S10000x64 .f32) (x1 : Vec F S64x64 .f32) : Vec F S10000x64 .f32 :=
  View.canon [⟨(Rect.unit (s := S10000x64) ![0, 0] S10000x64.size inb_S10000x64_S10000x64_0_0), k0_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The one store covers the whole output block. -/
theorem res0_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]
theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = res0 (blk0 V c 0 t) (blk0 V c 1 t) := by dsimp only [pd0]
theorem pd0_before_0 (c : Dev nD) (t : Fin cfg0.N) (d) : (pd0 V c).before 0 t d = blk0 V c 0 t :=
  kept0_0_of V (pd0 V c) (pd0_A V c 0) (pd0_after_0 V c) t d
theorem pd0_before_1 (c : Dev nD) (t : Fin cfg0.N) (d) : (pd0 V c).before 1 t d = blk0 V c 1 t :=
  kept0_1_of V (pd0 V c) (pd0_A V c 1) (pd0_after_1 V c) t d

/-! # Region 1 of the program: `cc1__biasact_kernel`, at the contents `V` its arrays hold when it is entered -/

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds that input's block at every point, whether the point fetched it or the block index
    stayed where it was: the body never writes an input, so what was there is still there. -/
theorem kept1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- An input's staging buffer holds that input's block at every point, whether the point fetched it or the block index
    stayed where it was: the body never writes an input, so what was there is still there. -/
theorem kept1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- What the body leaves in the output's staging buffer, as a function of the input blocks: one store of the whole
    block, its value the body's arithmetic on the whole input blocks. -/
def res1 (x0 : Vec F S10000x64 .f32) (x1 : Vec F S1x64 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S1x64) ![0, 0] S1x64.size inb_S1x64_S1x64_0_0))⟩]

/-- The one store covers the whole output block. -/
theorem res1_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem pd1_A (c : Dev nD) (w : Fin cfg1.W) : (pd1 V c).A w = V c (Pipeline.arrRef spec1 w) := by
  dsimp only [pd1]
theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = res1 (blk1 V c 0 t) (blk1 V c 1 t) := by dsimp only [pd1]
theorem pd1_before_0 (c : Dev nD) (t : Fin cfg1.N) (d) : (pd1 V c).before 0 t d = blk1 V c 0 t :=
  kept1_0_of V (pd1 V c) (pd1_A V c 0) (pd1_after_0 V c) t d
theorem pd1_before_1 (c : Dev nD) (t : Fin cfg1.N) (d) : (pd1 V c).before 1 t d = blk1 V c 1 t :=
  kept1_1_of V (pd1 V c) (pd1_A V c 1) (pd1_after_1 V c) t d

/-! # Region 2 of the program: `cc2__matmul_kernel`, at the contents `V` its arrays hold when it is entered -/

/-- The block of window `w` at grid point `t`, cut out of the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds that input's block at every point, whether the point fetched it or the block index
    stayed where it was: the body never writes an input, so what was there is still there. -/
theorem kept2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- An input's staging buffer holds that input's block at every point, whether the point fetched it or the block index
    stayed where it was: the body never writes an input, so what was there is still there. -/
theorem kept2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- What the body leaves in the output's staging buffer, as a function of the input blocks: one store of the whole
    block, its value the body's arithmetic on the whole input blocks. -/
def res2 (x0 : Vec F S10000x64 .f32) (x1 : Vec F S64x64 .f32) : Vec F S10000x64 .f32 :=
  View.canon [⟨(Rect.unit (s := S10000x64) ![0, 0] S10000x64.size inb_S10000x64_S10000x64_0_0), k2_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The one store covers the whole output block. -/
theorem res2_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem pd2_A (c : Dev nD) (w : Fin cfg2.W) : (pd2 V c).A w = V c (Pipeline.arrRef spec2 w) := by
  dsimp only [pd2]
theorem pd2_after_0 (c : Dev nD) (t : Fin cfg2.N) : (pd2 V c).after 0 t = blk2 V c 0 t := by dsimp only [pd2]
theorem pd2_after_1 (c : Dev nD) (t : Fin cfg2.N) : (pd2 V c).after 1 t = blk2 V c 1 t := by dsimp only [pd2]
theorem pd2_after_2 (c : Dev nD) (t : Fin cfg2.N) : (pd2 V c).after 2 t = res2 (blk2 V c 0 t) (blk2 V c 1 t) := by dsimp only [pd2]
theorem pd2_before_0 (c : Dev nD) (t : Fin cfg2.N) (d) : (pd2 V c).before 0 t d = blk2 V c 0 t :=
  kept2_0_of V (pd2 V c) (pd2_A V c 0) (pd2_after_0 V c) t d
theorem pd2_before_1 (c : Dev nD) (t : Fin cfg2.N) (d) : (pd2 V c).before 1 t d = blk2 V c 1 t :=
  kept2_1_of V (pd2 V c) (pd2_A V c 1) (pd2_after_1 V c) t d

/-! # Region 3 of the program: `cc3__biasact_kernel`, at the contents `V` its arrays hold when it is entered -/

/-- The block of window `w` at grid point `t`, cut out of the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds that input's block at every point, whether the point fetched it or the block index
    stayed where it was: the body never writes an input, so what was there is still there. -/
theorem kept3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- An input's staging buffer holds that input's block at every point, whether the point fetched it or the block index
    stayed where it was: the body never writes an input, so what was there is still there. -/
theorem kept3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- What the body leaves in the output's staging buffer, as a function of the input blocks: one store of the whole
    block, its value the body's arithmetic on the whole input blocks. -/
def res3 (x0 : Vec F S10000x64 .f32) (x1 : Vec F S1x64 .f32) : Vec F S10000x64 .f32 :=
  View.canon [⟨(Rect.unit (s := S10000x64) ![0, 0] S10000x64.size inb_S10000x64_S10000x64_0_0), k3_pay1 (View.ld x0 (Rect.unit (s := S10000x64) ![0, 0] S10000x64.size inb_S10000x64_S10000x64_0_0)) (View.ld x1 (Rect.unit (s := S1x64) ![0, 0] S1x64.size inb_S1x64_S1x64_0_0))⟩]

/-- The one store covers the whole output block. -/
theorem res3_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q _ := fullShare
  owed _ := 0

theorem pd3_A (c : Dev nD) (w : Fin cfg3.W) : (pd3 V c).A w = V c (Pipeline.arrRef spec3 w) := by
  dsimp only [pd3]
theorem pd3_after_0 (c : Dev nD) (t : Fin cfg3.N) : (pd3 V c).after 0 t = blk3 V c 0 t := by dsimp only [pd3]
theorem pd3_after_1 (c : Dev nD) (t : Fin cfg3.N) : (pd3 V c).after 1 t = blk3 V c 1 t := by dsimp only [pd3]
theorem pd3_after_2 (c : Dev nD) (t : Fin cfg3.N) : (pd3 V c).after 2 t = res3 (blk3 V c 0 t) (blk3 V c 1 t) := by dsimp only [pd3]
theorem pd3_before_0 (c : Dev nD) (t : Fin cfg3.N) (d) : (pd3 V c).before 0 t d = blk3 V c 0 t :=
  kept3_0_of V (pd3 V c) (pd3_A V c 0) (pd3_after_0 V c) t d
theorem pd3_before_1 (c : Dev nD) (t : Fin cfg3.N) (d) : (pd3 V c).before 1 t d = blk3 V c 1 t :=
  kept3_1_of V (pd3 V c) (pd3_A V c 1) (pd3_after_1 V c) t d

/-! # Region 4 of the program: `cc4__matmul_kernel`, at the contents `V` its arrays hold when it is entered -/

/-- The block of window `w` at grid point `t`, cut out of the window's array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds that input's block at every point, whether the point fetched it or the block index
    stayed where it was: the body never writes an input, so what was there is still there. -/
theorem kept4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- An input's staging buffer holds that input's block at every point, whether the point fetched it or the block index
    stayed where it was: the body never writes an input, so what was there is still there. -/
theorem kept4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- What the body leaves in the output's staging buffer, as a function of the input blocks: one store of the whole
    block, its value the body's arithmetic on the whole input blocks. -/
def res4 (x0 : Vec F S10000x64 .f32) (x1 : Vec F S64x64 .f32) : Vec F S10000x64 .f32 :=
  View.canon [⟨(Rect.unit (s := S10000x64) ![0, 0] S10000x64.size inb_S10000x64_S10000x64_0_0), k4_pay1 (View.ld x0 (Rect.unit (s := S10000x64) ![0, 0] S10000x64.size inb_S10000x64_S10000x64_0_0)) (View.ld x1 (Rect.unit (s := S64x64) ![0, 0] S64x64.size inb_S64x64_S64x64_0_0))⟩]

/-- The one store covers the whole output block. -/
theorem res4_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => res4 (blk4 V c 0 t) (blk4 V c 1 t)
  Φ _ := Pipeline.ΦA spec4 c
  q _ := fullShare
  owed _ := 0

theorem pd4_A (c : Dev nD) (w : Fin cfg4.W) : (pd4 V c).A w = V c (Pipeline.arrRef spec4 w) := by
  dsimp only [pd4]
theorem pd4_after_0 (c : Dev nD) (t : Fin cfg4.N) : (pd4 V c).after 0 t = blk4 V c 0 t := by dsimp only [pd4]
theorem pd4_after_1 (c : Dev nD) (t : Fin cfg4.N) : (pd4 V c).after 1 t = blk4 V c 1 t := by dsimp only [pd4]
theorem pd4_after_2 (c : Dev nD) (t : Fin cfg4.N) : (pd4 V c).after 2 t = res4 (blk4 V c 0 t) (blk4 V c 1 t) := by dsimp only [pd4]
theorem pd4_before_0 (c : Dev nD) (t : Fin cfg4.N) (d) : (pd4 V c).before 0 t d = blk4 V c 0 t :=
  kept4_0_of V (pd4 V c) (pd4_A V c 0) (pd4_after_0 V c) t d
theorem pd4_before_1 (c : Dev nD) (t : Fin cfg4.N) (d) : (pd4 V c).before 1 t d = blk4 V c 1 t :=
  kept4_1_of V (pd4 V c) (pd4_A V c 1) (pd4_after_1 V c) t d

/-! # Region 5 of the program: `cc5__biasact_kernel`, at the contents `V` its arrays hold when it is entered -/

/-- The block of window `w` at grid point `t`, cut out of the window's array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds that input's block at every point, whether the point fetched it or the block index
    stayed where it was: the body never writes an input, so what was there is still there. -/
theorem kept5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- An input's staging buffer holds that input's block at every point, whether the point fetched it or the block index
    stayed where it was: the body never writes an input, so what was there is still there. -/
theorem kept5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- What the body leaves in the output's staging buffer, as a function of the input blocks: one store of the whole
    block, its value the body's arithmetic on the whole input blocks. -/
def res5 (x0 : Vec F S10000x64 .f32) (x1 : Vec F S1x64 .f32) : Vec F S10000x64 .f32 :=
  View.canon [⟨(Rect.unit (s := S10000x64) ![0, 0] S10000x64.size inb_S10000x64_S10000x64_0_0), k5_pay1 (View.ld x0 (Rect.unit (s := S10000x64) ![0, 0] S10000x64.size inb_S10000x64_S10000x64_0_0)) (View.ld x1 (Rect.unit (s := S1x64) ![0, 0] S1x64.size inb_S1x64_S1x64_0_0))⟩]

/-- The one store covers the whole output block. -/
theorem res5_cover (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

/-- The region's proof data on core `c`: each window's array as the region finds it; after the body at point `t` every
    input's buffer still at its block and the output's at the body's result on the input blocks; nothing owed, whole
    shares, and the invariant that only carries the untouched rest along. -/
def pd5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => res5 (blk5 V c 0 t) (blk5 V c 1 t)
  Φ _ := Pipeline.ΦA spec5 c
  q _ := fullShare
  owed _ := 0

theorem pd5_A (c : Dev nD) (w : Fin cfg5.W) : (pd5 V c).A w = V c (Pipeline.arrRef spec5 w) := by
  dsimp only [pd5]
theorem pd5_after_0 (c : Dev nD) (t : Fin cfg5.N) : (pd5 V c).after 0 t = blk5 V c 0 t := by dsimp only [pd5]
theorem pd5_after_1 (c : Dev nD) (t : Fin cfg5.N) : (pd5 V c).after 1 t = blk5 V c 1 t := by dsimp only [pd5]
theorem pd5_after_2 (c : Dev nD) (t : Fin cfg5.N) : (pd5 V c).after 2 t = res5 (blk5 V c 0 t) (blk5 V c 1 t) := by dsimp only [pd5]
theorem pd5_before_0 (c : Dev nD) (t : Fin cfg5.N) (d) : (pd5 V c).before 0 t d = blk5 V c 0 t :=
  kept5_0_of V (pd5 V c) (pd5_A V c 0) (pd5_after_0 V c) t d
theorem pd5_before_1 (c : Dev nD) (t : Fin cfg5.N) (d) : (pd5 V c).before 1 t d = blk5 V c 1 t :=
  kept5_1_of V (pd5 V c) (pd5_A V c 1) (pd5_after_1 V c) t d

/-! # Region 6 of the program: `cc6__matmul_bias_kernel`, at the contents `V` its arrays hold when it is entered -/

/-- The block of window `w` at grid point `t`, cut out of the window's array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds that input's block at every point, whether the point fetched it or the block index
    stayed where it was: the body never writes an input, so what was there is still there. -/
theorem kept6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- An input's staging buffer holds that input's block at every point, whether the point fetched it or the block index
    stayed where it was: the body never writes an input, so what was there is still there. -/
theorem kept6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- An input's staging buffer holds that input's block at every point, whether the point fetched it or the block index
    stayed where it was: the body never writes an input, so what was there is still there. -/
theorem kept6_2_of {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)

/-- What the body leaves in the output's staging buffer, as a function of the input blocks: one store of the whole
    block, its value the body's arithmetic on the whole input blocks. -/
def res6 (x0 : Vec F S10000x192 .f32) (x1 : Vec F S192x40 .f32) (x2 : Vec F S1x40 .f32) : Vec F S10000x40 .f32 :=
  View.canon [⟨(Rect.unit (s := S10000x40) ![0, 0] S10000x40.size inb_S10000x40_S10000x40_0_0), k6_pay1 (View.ld x0 (Rect.unit (s := S10000x192) ![0, 0] S10000x192.size inb_S10000x192_S10000x192_0_0)) (View.ld x1 (Rect.unit (s := S192x40) ![0, 0] S192x40.size inb_S192x40_S192x40_0_0)) (View.ld x2 (Rect.unit (s := S1x40) ![0, 0] S1x40.size inb_S1x40_S1x40_0_0))⟩]

/-- The one store covers the whole output block. -/
theorem res6_cover (p0 : Vec F S10000x40 .f32) (y : S10000x40.Idx) :
    ∃ pc ∈ ([⟨(Rect.unit (s := S10000x40) ![0, 0] S10000x40.size inb_S10000x40_S10000x40_0_0), p0⟩] : List (View.Piece (Elt F) S10000x40 .f32)), y ∈ pc.1.set :=
  View.cover_of_tiled [⟨(Rect.unit (s := S10000x40) ![0, 0] S10000x40.size inb_S10000x40_S10000x40_0_0), p0⟩] S10000x40.size (by rfl) y

/-- The region's proof data on core `c`: each window's array as the region finds it; after the body at point `t` every
    input's buffer still at its block and the output's at the body's result on the input blocks; nothing owed, whole
    shares, and the invariant that only carries the untouched rest along. -/
def pd6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => res6 (blk6 V c 0 t) (blk6 V c 1 t) (blk6 V c 2 t)
  Φ _ := Pipeline.ΦA spec6 c
  q _ := fullShare
  owed _ := 0

theorem pd6_A (c : Dev nD) (w : Fin cfg6.W) : (pd6 V c).A w = V c (Pipeline.arrRef spec6 w) := by
  dsimp only [pd6]
theorem pd6_after_0 (c : Dev nD) (t : Fin cfg6.N) : (pd6 V c).after 0 t = blk6 V c 0 t := by dsimp only [pd6]
theorem pd6_after_1 (c : Dev nD) (t : Fin cfg6.N) : (pd6 V c).after 1 t = blk6 V c 1 t := by dsimp only [pd6]
theorem pd6_after_2 (c : Dev nD) (t : Fin cfg6.N) : (pd6 V c).after 2 t = blk6 V c 2 t := by dsimp only [pd6]
theorem pd6_after_3 (c : Dev nD) (t : Fin cfg6.N) : (pd6 V c).after 3 t = res6 (blk6 V c 0 t) (blk6 V c 1 t) (blk6 V c 2 t) := by dsimp only [pd6]
theorem pd6_before_0 (c : Dev nD) (t : Fin cfg6.N) (d) : (pd6 V c).before 0 t d = blk6 V c 0 t :=
  kept6_0_of V (pd6 V c) (pd6_A V c 0) (pd6_after_0 V c) t d
theorem pd6_before_1 (c : Dev nD) (t : Fin cfg6.N) (d) : (pd6 V c).before 1 t d = blk6 V c 1 t :=
  kept6_1_of V (pd6 V c) (pd6_A V c 1) (pd6_after_1 V c) t d
theorem pd6_before_2 (c : Dev nD) (t : Fin cfg6.N) (d) : (pd6 V c).before 2 t d = blk6 V c 2 t :=
  kept6_2_of V (pd6 V c) (pd6_A V c 2) (pd6_after_2 V c) t d

end Cert.KernelIdeal.Tiles

end
-- ==== Proof.IdealFold.lean ====
/-
  The contents of a core's buffers at each boundary between the program's twelve items (five stretches of host
  operations, seven tiled regions), as a fold from the launch memory: a host stretch applies its operations; a region
  leaves its input arrays as they were and its output array at what the write-backs of all grid points leave; every other
  buffer is untouched. Each step also says which buffers it cannot change, and the argument arrays, which no step may
  change, are read back through the whole fold to their launch contents.
-/
import proofs.«182094_j14697378087202_1_alg».proof.Proof.IdealTiles
import proofs.«182094_j14697378087202_1_alg».proof.Proof.Gen.KernelIdeal.Regions

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A core's buffers at launch. -/
abbrev W0 : Dev nD → Valuation τ sig (Elt F) := fun c b => m ((c : Dev nD), b)

/-- After the host stretch `hostOps0`. -/
abbrev W1 : Dev nD → Valuation τ sig (Elt F) := fun c => StableHlo.after hostOps0 (W0 m c)
/-- The same, read at the core's own references. -/
abbrev V1 : (c : Dev nD) → (b : Ref sig .tc) → Buf (Elt F) ((c : Thread nD τ).loc b) := fun c b => W1 m c b
/-- A buffer the stretch does not write keeps its contents. -/
theorem W1_keep (c : Dev nD) (b : Ref sig .tc) (h : b ∉ hostOps0_W) : W1 m c (Proc.devRef .tc b) = W0 m c (Proc.devRef .tc b) :=
  StableHlo.after_of_writes_sub hostOps0 _ hostOps0_writes h

/-- After region 0: its arrays at what the pipeline leaves (inputs as entered, the output's write-backs folded over all
    grid points), every other buffer as entered. -/
def W2 (c : Dev nD) : Valuation τ sig (Elt F) :=
  Pipeline.withArrays spec0 c (W1 m c) fun w => (pd0 (V1 m) c).arrAt w cfg0.N
theorem W2_arr (c : Dev nD) (w : Fin cfg0.W) :
    W2 m c (Proc.devRef .tc (Pipeline.arrRef spec0 w)) = (pd0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m c b
theorem arrs0 (c : Dev nD) (w : Fin cfg0.W) : (pd0 (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Only the region's output array can change: an input array is read, never written back. -/
theorem W2_keep (c : Dev nD) (b : Ref sig .tc) (hb : b ≠ main_v4) : W2 m c (Proc.devRef .tc b) = W1 m c (Proc.devRef .tc b) := by
  by_cases h : ∀ w, Pipeline.arrRef spec0 w ≠ b
  · exact W2_of_ne m c b h
  · obtain ⟨w, rfl⟩ := not_forall_not.mp h
    match w with
    | ⟨0, _⟩ => exact (W2_arr m c 0).trans (((pd0 (V1 m) c).arrAt_in 0 rfl _).trans (pd0_A (V1 m) c 0))
    | ⟨1, _⟩ => exact (W2_arr m c 1).trans (((pd0 (V1 m) c).arrAt_in 1 rfl _).trans (pd0_A (V1 m) c 1))
    | ⟨2, _⟩ => exact absurd rfl hb

/-- After the host stretch `hostOps1`. -/
abbrev W3 : Dev nD → Valuation τ sig (Elt F) := fun c => StableHlo.after hostOps1 (W2 m c)
/-- The same, read at the core's own references. -/
abbrev V3 : (c : Dev nD) → (b : Ref sig .tc) → Buf (Elt F) ((c : Thread nD τ).loc b) := fun c b => W3 m c b
/-- A buffer the stretch does not write keeps its contents. -/
theorem W3_keep (c : Dev nD) (b : Ref sig .tc) (h : b ∉ hostOps1_W) : W3 m c (Proc.devRef .tc b) = W2 m c (Proc.devRef .tc b) :=
  StableHlo.after_of_writes_sub hostOps1 _ hostOps1_writes h

/-- After region 1: its arrays at what the pipeline leaves (inputs as entered, the output's write-backs folded over all
    grid points), every other buffer as entered. -/
def W4 (c : Dev nD) : Valuation τ sig (Elt F) :=
  Pipeline.withArrays spec1 c (W3 m c) fun w => (pd1 (V3 m) c).arrAt w cfg1.N
theorem W4_arr (c : Dev nD) (w : Fin cfg1.W) :
    W4 m c (Proc.devRef .tc (Pipeline.arrRef spec1 w)) = (pd1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m c b
theorem arrs1 (c : Dev nD) (w : Fin cfg1.W) : (pd1 (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Only the region's output array can change: an input array is read, never written back. -/
theorem W4_keep (c : Dev nD) (b : Ref sig .tc) (hb : b ≠ main_v19) : W4 m c (Proc.devRef .tc b) = W3 m c (Proc.devRef .tc b) := by
  by_cases h : ∀ w, Pipeline.arrRef spec1 w ≠ b
  · exact W4_of_ne m c b h
  · obtain ⟨w, rfl⟩ := not_forall_not.mp h
    match w with
    | ⟨0, _⟩ => exact (W4_arr m c 0).trans (((pd1 (V3 m) c).arrAt_in 0 rfl _).trans (pd1_A (V3 m) c 0))
    | ⟨1, _⟩ => exact (W4_arr m c 1).trans (((pd1 (V3 m) c).arrAt_in 1 rfl _).trans (pd1_A (V3 m) c 1))
    | ⟨2, _⟩ => exact absurd rfl hb

/-- After region 2: its arrays at what the pipeline leaves (inputs as entered, the output's write-backs folded over all
    grid points), every other buffer as entered. -/
def W5 (c : Dev nD) : Valuation τ sig (Elt F) :=
  Pipeline.withArrays spec2 c (W4 m c) fun w => (pd2 (V4 m) c).arrAt w cfg2.N
theorem W5_arr (c : Dev nD) (w : Fin cfg2.W) :
    W5 m c (Proc.devRef .tc (Pipeline.arrRef spec2 w)) = (pd2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same, read at the core's own references. -/
abbrev V5 : (c : Dev nD) → (b : Ref sig .tc) → Buf (Elt F) ((c : Thread nD τ).loc b) := fun c b => W5 m c b
theorem arrs2 (c : Dev nD) (w : Fin cfg2.W) : (pd2 (V4 m) c).arrAt w cfg2.N = V5 m c (Pipeline.arrRef spec2 w) :=
  (W5_arr m c w).symm
theorem rest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- Only the region's output array can change: an input array is read, never written back. -/
theorem W5_keep (c : Dev nD) (b : Ref sig .tc) (hb : b ≠ main_v20) : W5 m c (Proc.devRef .tc b) = W4 m c (Proc.devRef .tc b) := by
  by_cases h : ∀ w, Pipeline.arrRef spec2 w ≠ b
  · exact W5_of_ne m c b h
  · obtain ⟨w, rfl⟩ := not_forall_not.mp h
    match w with
    | ⟨0, _⟩ => exact (W5_arr m c 0).trans (((pd2 (V4 m) c).arrAt_in 0 rfl _).trans (pd2_A (V4 m) c 0))
    | ⟨1, _⟩ => exact (W5_arr m c 1).trans (((pd2 (V4 m) c).arrAt_in 1 rfl _).trans (pd2_A (V4 m) c 1))
    | ⟨2, _⟩ => exact absurd rfl hb

/-- After the host stretch `hostOps3`. -/
abbrev W6 : Dev nD → Valuation τ sig (Elt F) := fun c => StableHlo.after hostOps3 (W5 m c)
/-- The same, read at the core's own references. -/
abbrev V6 : (c : Dev nD) → (b : Ref sig .tc) → Buf (Elt F) ((c : Thread nD τ).loc b) := fun c b => W6 m c b
/-- A buffer the stretch does not write keeps its contents. -/
theorem W6_keep (c : Dev nD) (b : Ref sig .tc) (h : b ∉ hostOps3_W) : W6 m c (Proc.devRef .tc b) = W5 m c (Proc.devRef .tc b) :=
  StableHlo.after_of_writes_sub hostOps3 _ hostOps3_writes h

/-- After region 3: its arrays at what the pipeline leaves (inputs as entered, the output's write-backs folded over all
    grid points), every other buffer as entered. -/
def W7 (c : Dev nD) : Valuation τ sig (Elt F) :=
  Pipeline.withArrays spec3 c (W6 m c) fun w => (pd3 (V6 m) c).arrAt w cfg3.N
theorem W7_arr (c : Dev nD) (w : Fin cfg3.W) :
    W7 m c (Proc.devRef .tc (Pipeline.arrRef spec3 w)) = (pd3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same, read at the core's own references. -/
abbrev V7 : (c : Dev nD) → (b : Ref sig .tc) → Buf (Elt F) ((c : Thread nD τ).loc b) := fun c b => W7 m c b
theorem arrs3 (c : Dev nD) (w : Fin cfg3.W) : (pd3 (V6 m) c).arrAt w cfg3.N = V7 m c (Pipeline.arrRef spec3 w) :=
  (W7_arr m c w).symm
theorem rest3 (c : Dev nD) : ∀ b, b ∉ Finset.univ.image (Pipeline.arrRef spec3) → V7 m c b = V6 m c b :=
  fun b hb => W7_of_ne m c b fun w e => hb (Finset.mem_image.mpr ⟨w, Finset.mem_univ _, e⟩)
/-- Only the region's output array can change: an input array is read, never written back. -/
theorem W7_keep (c : Dev nD) (b : Ref sig .tc) (hb : b ≠ main_v35) : W7 m c (Proc.devRef .tc b) = W6 m c (Proc.devRef .tc b) := by
  by_cases h : ∀ w, Pipeline.arrRef spec3 w ≠ b
  · exact W7_of_ne m c b h
  · obtain ⟨w, rfl⟩ := not_forall_not.mp h
    match w with
    | ⟨0, _⟩ => exact (W7_arr m c 0).trans (((pd3 (V6 m) c).arrAt_in 0 rfl _).trans (pd3_A (V6 m) c 0))
    | ⟨1, _⟩ => exact (W7_arr m c 1).trans (((pd3 (V6 m) c).arrAt_in 1 rfl _).trans (pd3_A (V6 m) c 1))
    | ⟨2, _⟩ => exact absurd rfl hb

/-- After region 4: its arrays at what the pipeline leaves (inputs as entered, the output's write-backs folded over all
    grid points), every other buffer as entered. -/
def W8 (c : Dev nD) : Valuation τ sig (Elt F) :=
  Pipeline.withArrays spec4 c (W7 m c) fun w => (pd4 (V7 m) c).arrAt w cfg4.N
theorem W8_arr (c : Dev nD) (w : Fin cfg4.W) :
    W8 m c (Proc.devRef .tc (Pipeline.arrRef spec4 w)) = (pd4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- The same, read at the core's own references. -/
abbrev V8 : (c : Dev nD) → (b : Ref sig .tc) → Buf (Elt F) ((c : Thread nD τ).loc b) := fun c b => W8 m c b
theorem arrs4 (c : Dev nD) (w : Fin cfg4.W) : (pd4 (V7 m) c).arrAt w cfg4.N = V8 m c (Pipeline.arrRef spec4 w) :=
  (W8_arr m c w).symm
theorem rest4 (c : Dev nD) : ∀ b, b ∉ Finset.univ.image (Pipeline.arrRef spec4) → V8 m c b = V7 m c b :=
  fun b hb => W8_of_ne m c b fun w e => hb (Finset.mem_image.mpr ⟨w, Finset.mem_univ _, e⟩)
/-- Only the region's output array can change: an input array is read, never written back. -/
theorem W8_keep (c : Dev nD) (b : Ref sig .tc) (hb : b ≠ main_v36) : W8 m c (Proc.devRef .tc b) = W7 m c (Proc.devRef .tc b) := by
  by_cases h : ∀ w, Pipeline.arrRef spec4 w ≠ b
  · exact W8_of_ne m c b h
  · obtain ⟨w, rfl⟩ := not_forall_not.mp h
    match w with
    | ⟨0, _⟩ => exact (W8_arr m c 0).trans (((pd4 (V7 m) c).arrAt_in 0 rfl _).trans (pd4_A (V7 m) c 0))
    | ⟨1, _⟩ => exact (W8_arr m c 1).trans (((pd4 (V7 m) c).arrAt_in 1 rfl _).trans (pd4_A (V7 m) c 1))
    | ⟨2, _⟩ => exact absurd rfl hb

/-- After the host stretch `hostOps5`. -/
abbrev W9 : Dev nD → Valuation τ sig (Elt F) := fun c => StableHlo.after hostOps5 (W8 m c)
/-- The same, read at the core's own references. -/
abbrev V9 : (c : Dev nD) → (b : Ref sig .tc) → Buf (Elt F) ((c : Thread nD τ).loc b) := fun c b => W9 m c b
/-- A buffer the stretch does not write keeps its contents. -/
theorem W9_keep (c : Dev nD) (b : Ref sig .tc) (h : b ∉ hostOps5_W) : W9 m c (Proc.devRef .tc b) = W8 m c (Proc.devRef .tc b) :=
  StableHlo.after_of_writes_sub hostOps5 _ hostOps5_writes h

/-- After region 5: its arrays at what the pipeline leaves (inputs as entered, the output's write-backs folded over all
    grid points), every other buffer as entered. -/
def W10 (c : Dev nD) : Valuation τ sig (Elt F) :=
  Pipeline.withArrays spec5 c (W9 m c) fun w => (pd5 (V9 m) c).arrAt w cfg5.N
theorem W10_arr (c : Dev nD) (w : Fin cfg5.W) :
    W10 m c (Proc.devRef .tc (Pipeline.arrRef spec5 w)) = (pd5 (V9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- The same, read at the core's own references. -/
abbrev V10 : (c : Dev nD) → (b : Ref sig .tc) → Buf (Elt F) ((c : Thread nD τ).loc b) := fun c b => W10 m c b
theorem arrs5 (c : Dev nD) (w : Fin cfg5.W) : (pd5 (V9 m) c).arrAt w cfg5.N = V10 m c (Pipeline.arrRef spec5 w) :=
  (W10_arr m c w).symm
theorem rest5 (c : Dev nD) : ∀ b, b ∉ Finset.univ.image (Pipeline.arrRef spec5) → V10 m c b = V9 m c b :=
  fun b hb => W10_of_ne m c b fun w e => hb (Finset.mem_image.mpr ⟨w, Finset.mem_univ _, e⟩)
/-- Only the region's output array can change: an input array is read, never written back. -/
theorem W10_keep (c : Dev nD) (b : Ref sig .tc) (hb : b ≠ main_v51) : W10 m c (Proc.devRef .tc b) = W9 m c (Proc.devRef .tc b) := by
  by_cases h : ∀ w, Pipeline.arrRef spec5 w ≠ b
  · exact W10_of_ne m c b h
  · obtain ⟨w, rfl⟩ := not_forall_not.mp h
    match w with
    | ⟨0, _⟩ => exact (W10_arr m c 0).trans (((pd5 (V9 m) c).arrAt_in 0 rfl _).trans (pd5_A (V9 m) c 0))
    | ⟨1, _⟩ => exact (W10_arr m c 1).trans (((pd5 (V9 m) c).arrAt_in 1 rfl _).trans (pd5_A (V9 m) c 1))
    | ⟨2, _⟩ => exact absurd rfl hb

/-- After the host stretch `hostOps6`. -/
abbrev W11 : Dev nD → Valuation τ sig (Elt F) := fun c => StableHlo.after hostOps6 (W10 m c)
/-- The same, read at the core's own references. -/
abbrev V11 : (c : Dev nD) → (b : Ref sig .tc) → Buf (Elt F) ((c : Thread nD τ).loc b) := fun c b => W11 m c b
/-- A buffer the stretch does not write keeps its contents. -/
theorem W11_keep (c : Dev nD) (b : Ref sig .tc) (h : b ∉ hostOps6_W) : W11 m c (Proc.devRef .tc b) = W10 m c (Proc.devRef .tc b) :=
  StableHlo.after_of_writes_sub hostOps6 _ hostOps6_writes h

/-- After region 6: its arrays at what the pipeline leaves (inputs as entered, the output's write-backs folded over all
    grid points), every other buffer as entered. -/
def W12 (c : Dev nD) : Valuation τ sig (Elt F) :=
  Pipeline.withArrays spec6 c (W11 m c) fun w => (pd6 (V11 m) c).arrAt w cfg6.N
theorem W12_arr (c : Dev nD) (w : Fin cfg6.W) :
    W12 m c (Proc.devRef .tc (Pipeline.arrRef spec6 w)) = (pd6 (V11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
/-- The same, read at the core's own references. -/
abbrev V12 : (c : Dev nD) → (b : Ref sig .tc) → Buf (Elt F) ((c : Thread nD τ).loc b) := fun c b => W12 m c b
theorem arrs6 (c : Dev nD) (w : Fin cfg6.W) : (pd6 (V11 m) c).arrAt w cfg6.N = V12 m c (Pipeline.arrRef spec6 w) :=
  (W12_arr m c w).symm
theorem rest6 (c : Dev nD) : ∀ b, b ∉ Finset.univ.image (Pipeline.arrRef spec6) → V12 m c b = V11 m c b :=
  fun b hb => W12_of_ne m c b fun w e => hb (Finset.mem_image.mpr ⟨w, Finset.mem_univ _, e⟩)
/-- Only the region's output array can change: an input array is read, never written back. -/
theorem W12_keep (c : Dev nD) (b : Ref sig .tc) (hb : b ≠ main_v54) : W12 m c (Proc.devRef .tc b) = W11 m c (Proc.devRef .tc b) := by
  by_cases h : ∀ w, Pipeline.arrRef spec6 w ≠ b
  · exact W12_of_ne m c b h
  · obtain ⟨w, rfl⟩ := not_forall_not.mp h
    match w with
    | ⟨0, _⟩ => exact (W12_arr m c 0).trans (((pd6 (V11 m) c).arrAt_in 0 rfl _).trans (pd6_A (V11 m) c 0))
    | ⟨1, _⟩ => exact (W12_arr m c 1).trans (((pd6 (V11 m) c).arrAt_in 1 rfl _).trans (pd6_A (V11 m) c 1))
    | ⟨2, _⟩ => exact (W12_arr m c 2).trans (((pd6 (V11 m) c).arrAt_in 2 rfl _).trans (pd6_A (V11 m) c 2))
    | ⟨3, _⟩ => exact absurd rfl hb

/-- A buffer that no host stretch writes and that is no region's output holds its launch contents at the end. -/
theorem W12_launch (c : Dev nD) (b : Ref sig .tc) (h_hostOps0 : b ∉ hostOps0_W) (h_hostOps1 : b ∉ hostOps1_W) (h_hostOps3 : b ∉ hostOps3_W) (h_hostOps5 : b ∉ hostOps5_W) (h_hostOps6 : b ∉ hostOps6_W)
    (hout : b ∉ ([main_v4, main_v19, main_v20, main_v35, main_v36, main_v51, main_v54] : List (Ref sig .tc))) :
    W12 m c (Proc.devRef .tc b) = m ((c : Thread nD τ).loc b) := by
  have hne : ∀ o ∈ ([main_v4, main_v19, main_v20, main_v35, main_v36, main_v51, main_v54] : List (Ref sig .tc)), b ≠ o := fun o ho e => hout (e ▸ ho)
  rw [W12_keep m c b (hne _ (by decide))]
  rw [W11_keep m c b h_hostOps6]
  rw [W10_keep m c b (hne _ (by decide))]
  rw [W9_keep m c b h_hostOps5]
  rw [W8_keep m c b (hne _ (by decide))]
  rw [W7_keep m c b (hne _ (by decide))]
  rw [W6_keep m c b h_hostOps3]
  rw [W5_keep m c b (hne _ (by decide))]
  rw [W4_keep m c b (hne _ (by decide))]
  rw [W3_keep m c b h_hostOps1]
  rw [W2_keep m c b (hne _ (by decide))]
  rw [W1_keep m c b h_hostOps0]

end Cert.KernelIdeal.Tiles

end
-- ==== Proof.IdealBody0.lean ====
/-
  Region 0's body: run on whole staging buffers holding the input blocks, `cc0__matmul_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body0_run (c : Dev nD) (E : Set ℕ) (i : grid0.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res0 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res0_cover _)

/-- What the pipeline hands the body at point `t`, -/
def body0_pre (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it gets back. -/
def body0_post (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

/-- The body at any point: the input buffers hold their blocks, so `body0_run` applies; the invariant and what the core
    owes pass through untouched. -/
theorem body0_at (c : Dev nD) (t : Fin cfg0.N) :
    body0_pre V c t ⊢ wp frame (wpE (defs₀ (F := F)) Variants.none c none) Set.univ (bodyAt0 t) (fun _ => body0_post V c t) := by
  unfold body0_pre body0_post bodyAt0
  simp only [pd0_before_0, pd0_before_1]
  rw [show (pd0 V c).Φ t.succ = (pd0 V c).Φ t.castSucc from rfl,
    show (pd0 V c).owesAt () t.succ = (pd0 V c).owesAt () t.castSucc from rfl,
    pd0_after_0, pd0_after_1, pd0_after_2]
  iintro ⟨HΦ, Ho, ⟨%d0, H0⟩, ⟨%d1, H1⟩, ⟨%d2, H2⟩⟩
  iapply (body0_run c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body0_obligation (c : Dev nD) : BodyObligation (pd0 (F := F) V c) (defs₀ (F := F)) Variants.none () Set.univ := fun t => by
  rw [bigSep_W0, bigSep_W0]
  exact body0_at V c t

end Cert.KernelIdeal.Tiles

end
-- ==== Proof.IdealBody1.lean ====
/-
  Region 1's body: run on whole staging buffers holding the input blocks, `cc1__biasact_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body1_run (c : Dev nD) (E : Set ℕ) (i : grid1.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res1 x0 x1)) -∗ K ⟨⟩))
      ⊢ wp frame (wpE (defs₀ (F := F)) Variants.none c none) E (cc1__biasact_kernel i arg0 harg0 arg1 harg1 arg2 harg2) K := by
  simp only [cc1__biasact_kernel_eq_skeleton]; unfold cc1__biasact_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res1_cover _)

/-- What the pipeline hands the body at point `t`, -/
def body1_pre (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d)))

/-- and what it gets back. -/
def body1_post (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t))

/-- The body at any point: the input buffers hold their blocks, so `body1_run` applies; the invariant and what the core
    owes pass through untouched. -/
theorem body1_at (c : Dev nD) (t : Fin cfg1.N) :
    body1_pre V c t ⊢ wp frame (wpE (defs₀ (F := F)) Variants.none c none) Set.univ (bodyAt1 t) (fun _ => body1_post V c t) := by
  unfold body1_pre body1_post bodyAt1
  simp only [pd1_before_0, pd1_before_1]
  rw [show (pd1 V c).Φ t.succ = (pd1 V c).Φ t.castSucc from rfl,
    show (pd1 V c).owesAt () t.succ = (pd1 V c).owesAt () t.castSucc from rfl,
    pd1_after_0, pd1_after_1, pd1_after_2]
  iintro ⟨HΦ, Ho, ⟨%d0, H0⟩, ⟨%d1, H1⟩, ⟨%d2, H2⟩⟩
  iapply (body1_run c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body1_obligation (c : Dev nD) : BodyObligation (pd1 (F := F) V c) (defs₀ (F := F)) Variants.none () Set.univ := fun t => by
  rw [bigSep_W1, bigSep_W1]
  exact body1_at V c t

end Cert.KernelIdeal.Tiles

end
-- ==== Proof.IdealBody2.lean ====
/-
  Region 2's body: run on whole staging buffers holding the input blocks, `cc2__matmul_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body2_run (c : Dev nD) (E : Set ℕ) (i : grid2.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res2_cover _)

/-- What the pipeline hands the body at point `t`, -/
def body2_pre (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d)))

/-- and what it gets back. -/
def body2_post (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t))

/-- The body at any point: the input buffers hold their blocks, so `body2_run` applies; the invariant and what the core
    owes pass through untouched. -/
theorem body2_at (c : Dev nD) (t : Fin cfg2.N) :
    body2_pre V c t ⊢ wp frame (wpE (defs₀ (F := F)) Variants.none c none) Set.univ (bodyAt2 t) (fun _ => body2_post V c t) := by
  unfold body2_pre body2_post bodyAt2
  simp only [pd2_before_0, pd2_before_1]
  rw [show (pd2 V c).Φ t.succ = (pd2 V c).Φ t.castSucc from rfl,
    show (pd2 V c).owesAt () t.succ = (pd2 V c).owesAt () t.castSucc from rfl,
    pd2_after_0, pd2_after_1, pd2_after_2]
  iintro ⟨HΦ, Ho, ⟨%d0, H0⟩, ⟨%d1, H1⟩, ⟨%d2, H2⟩⟩
  iapply (body2_run c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body2_obligation (c : Dev nD) : BodyObligation (pd2 (F := F) V c) (defs₀ (F := F)) Variants.none () Set.univ := fun t => by
  rw [bigSep_W2, bigSep_W2]
  exact body2_at V c t

end Cert.KernelIdeal.Tiles

end
-- ==== Proof.IdealBody3.lean ====
/-
  Region 3's body: run on whole staging buffers holding the input blocks, `cc3__biasact_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body3_run (c : Dev nD) (E : Set ℕ) (i : grid3.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res3 x0 x1)) -∗ K ⟨⟩))
      ⊢ wp frame (wpE (defs₀ (F := F)) Variants.none c none) E (cc3__biasact_kernel i arg0 harg0 arg1 harg1 arg2 harg2) K := by
  simp only [cc3__biasact_kernel_eq_skeleton]; unfold cc3__biasact_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res3_cover _)

/-- What the pipeline hands the body at point `t`, -/
def body3_pre (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d)))

/-- and what it gets back. -/
def body3_post (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t))

/-- The body at any point: the input buffers hold their blocks, so `body3_run` applies; the invariant and what the core
    owes pass through untouched. -/
theorem body3_at (c : Dev nD) (t : Fin cfg3.N) :
    body3_pre V c t ⊢ wp frame (wpE (defs₀ (F := F)) Variants.none c none) Set.univ (bodyAt3 t) (fun _ => body3_post V c t) := by
  unfold body3_pre body3_post bodyAt3
  simp only [pd3_before_0, pd3_before_1]
  rw [show (pd3 V c).Φ t.succ = (pd3 V c).Φ t.castSucc from rfl,
    show (pd3 V c).owesAt () t.succ = (pd3 V c).owesAt () t.castSucc from rfl,
    pd3_after_0, pd3_after_1, pd3_after_2]
  iintro ⟨HΦ, Ho, ⟨%d0, H0⟩, ⟨%d1, H1⟩, ⟨%d2, H2⟩⟩
  iapply (body3_run c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body3_obligation (c : Dev nD) : BodyObligation (pd3 (F := F) V c) (defs₀ (F := F)) Variants.none () Set.univ := fun t => by
  rw [bigSep_W3, bigSep_W3]
  exact body3_at V c t

end Cert.KernelIdeal.Tiles

end
-- ==== Proof.IdealBody4.lean ====
/-
  Region 4's body: run on whole staging buffers holding the input blocks, `cc4__matmul_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body4_run (c : Dev nD) (E : Set ℕ) (i : grid4.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res4 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res4_cover _)

/-- What the pipeline hands the body at point `t`, -/
def body4_pre (c : Dev nD) (t : Fin cfg4.N) : sProp 𝕄 :=
  iprop((pd4 V c).Φ t.castSucc ∗ (pd4 V c).owesAt () t.castSucc
    ∗ (∃ d, owns (c : Thread nD τ) (st4_0 t) fullShare ((pd4 V c).before 0 t d))
    ∗ (∃ d, owns (c : Thread nD τ) (st4_1 t) fullShare ((pd4 V c).before 1 t d))
    ∗ (∃ d, owns (c : Thread nD τ) (st4_2 t) fullShare ((pd4 V c).before 2 t d)))

/-- and what it gets back. -/
def body4_post (c : Dev nD) (t : Fin cfg4.N) : sProp 𝕄 :=
  iprop((pd4 V c).Φ t.succ ∗ (pd4 V c).owesAt () t.succ
    ∗ owns (c : Thread nD τ) (st4_0 t) fullShare ((pd4 V c).after 0 t)
    ∗ owns (c : Thread nD τ) (st4_1 t) fullShare ((pd4 V c).after 1 t)
    ∗ owns (c : Thread nD τ) (st4_2 t) fullShare ((pd4 V c).after 2 t))

/-- The body at any point: the input buffers hold their blocks, so `body4_run` applies; the invariant and what the core
    owes pass through untouched. -/
theorem body4_at (c : Dev nD) (t : Fin cfg4.N) :
    body4_pre V c t ⊢ wp frame (wpE (defs₀ (F := F)) Variants.none c none) Set.univ (bodyAt4 t) (fun _ => body4_post V c t) := by
  unfold body4_pre body4_post bodyAt4
  simp only [pd4_before_0, pd4_before_1]
  rw [show (pd4 V c).Φ t.succ = (pd4 V c).Φ t.castSucc from rfl,
    show (pd4 V c).owesAt () t.succ = (pd4 V c).owesAt () t.castSucc from rfl,
    pd4_after_0, pd4_after_1, pd4_after_2]
  iintro ⟨HΦ, Ho, ⟨%d0, H0⟩, ⟨%d1, H1⟩, ⟨%d2, H2⟩⟩
  iapply (body4_run c Set.univ _ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body4_obligation (c : Dev nD) : BodyObligation (pd4 (F := F) V c) (defs₀ (F := F)) Variants.none () Set.univ := fun t => by
  rw [bigSep_W4, bigSep_W4]
  exact body4_at V c t

end Cert.KernelIdeal.Tiles

end
-- ==== Proof.IdealBody5.lean ====
/-
  Region 5's body: run on whole staging buffers holding the input blocks, `cc5__biasact_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body5_run (c : Dev nD) (E : Set ℕ) (i : grid5.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (res5 x0 x1)) -∗ K ⟨⟩))
      ⊢ wp frame (wpE (defs₀ (F := F)) Variants.none c none) E (cc5__biasact_kernel i arg0 harg0 arg1 harg1 arg2 harg2) K := by
  simp only [cc5__biasact_kernel_eq_skeleton]; unfold cc5__biasact_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res5_cover _)

/-- What the pipeline hands the body at point `t`, -/
def body5_pre (c : Dev nD) (t : Fin cfg5.N) : sProp 𝕄 :=
  iprop((pd5 V c).Φ t.castSucc ∗ (pd5 V c).owesAt () t.castSucc
    ∗ (∃ d, owns (c : Thread nD τ) (st5_0 t) fullShare ((pd5 V c).before 0 t d))
    ∗ (∃ d, owns (c : Thread nD τ) (st5_1 t) fullShare ((pd5 V c).before 1 t d))
    ∗ (∃ d, owns (c : Thread nD τ) (st5_2 t) fullShare ((pd5 V c).before 2 t d)))

/-- and what it gets back. -/
def body5_post (c : Dev nD) (t : Fin cfg5.N) : sProp 𝕄 :=
  iprop((pd5 V c).Φ t.succ ∗ (pd5 V c).owesAt () t.succ
    ∗ owns (c : Thread nD τ) (st5_0 t) fullShare ((pd5 V c).after 0 t)
    ∗ owns (c : Thread nD τ) (st5_1 t) fullShare ((pd5 V c).after 1 t)
    ∗ owns (c : Thread nD τ) (st5_2 t) fullShare ((pd5 V c).after 2 t))

/-- The body at any point: the input buffers hold their blocks, so `body5_run` applies; the invariant and what the core
    owes pass through untouched. -/
theorem body5_at (c : Dev nD) (t : Fin cfg5.N) :
    body5_pre V c t ⊢ wp frame (wpE (defs₀ (F := F)) Variants.none c none) Set.univ (bodyAt5 t) (fun _ => body5_post V c t) := by
  unfold body5_pre body5_post bodyAt5
  simp only [pd5_before_0, pd5_before_1]
  rw [show (pd5 V c).Φ t.succ = (pd5 V c).Φ t.castSucc from rfl,
    show (pd5 V c).owesAt () t.succ = (pd5 V c).owesAt () t.castSucc from rfl,
    pd5_after_0, pd5_after_1, pd5_after_2]
  iintro ⟨HΦ, Ho, ⟨%d0, H0⟩, ⟨%d1, H1⟩, ⟨%d2, H2⟩⟩
  iapply (body5_run c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the body, at every point. -/
theorem body5_obligation (c : Dev nD) : BodyObligation (pd5 (F := F) V c) (defs₀ (F := F)) Variants.none () Set.univ := fun t => by
  rw [bigSep_W5, bigSep_W5]
  exact body5_at V c t

end Cert.KernelIdeal.Tiles

end
-- ==== Proof.IdealBody6.lean ====
/-
  Region 6's body: run on whole staging buffers holding the input blocks, `cc6__matmul_bias_kernel` ends with the inputs as they were
  and the output buffer at the body's result on them; hence the pipeline's obligation for the body at every grid point.
-/
import proofs.«182094_j14697378087202_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging buffers: the inputs' hold `x0 …`, the output's anything; it loads each input whole, loads the
    output (a value it never uses), stores the result over the whole output block, and returns. -/
theorem body6_run (c : Dev nD) (E : Set ℕ) (i : grid6.Coords) (arg0 : Memref sig .tc .vmem S10000x192 .f32) (harg0 : arg0.IsWhole) (arg1 : Memref sig .tc .vmem S192x40 .f32) (harg1 : arg1.IsWhole) (arg2 : Memref sig .tc .vmem S1x40 .f32) (harg2 : arg2.IsWhole) (arg3 : Memref sig .tc .vmem S10000x40 .f32) (harg3 : arg3.IsWhole)
    (x0 : Vec F S10000x192 .f32) (x1 : Vec F S192x40 .f32) (x2 : Vec F S1x40 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (res6 x0 x1 x2)) -∗ K ⟨⟩))
      ⊢ wp frame (wpE (defs₀ (F := F)) Variants.none c none) E (cc6__matmul_bias_kernel i arg0 harg0 arg1 harg1 arg2 harg2 arg3 harg3) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res6_cover _)

/-- What the pipeline hands the body at point `t`, -/
def body6_pre (c : Dev nD) (t : Fin cfg6.N) : sProp 𝕄 :=
  iprop((pd6 V c).Φ t.castSucc ∗ (pd6 V c).owesAt () t.castSucc
    ∗ (∃ d, owns (c : Thread nD τ) (st6_0 t) fullShare ((pd6 V c).before 0 t d))
    ∗ (∃ d, owns (c : Thread nD τ) (st6_1 t) fullShare ((pd6 V c).before 1 t d))
    ∗ (∃ d, owns (c : Thread nD τ) (st6_2 t) fullShare ((pd6 V c).before 2 t d))
    ∗ (∃ d, owns (c : Thread nD τ) (st6_3 t) fullShare ((pd6 V c).before 3 t d)))

/-- and what it gets back. -/
def body6_post (c : Dev nD) (t : Fin cfg6.N) : sProp 𝕄 :=
  iprop((pd6 V c).Φ t.succ ∗ (pd6 V c).owesAt () t.succ
    ∗ owns (c : Thread nD τ) (st6_0 t) fullShare ((pd6 V c).after 0 t)
    ∗ owns (c : Thread nD τ) (st6_1 t) fullShare ((pd6 V c).after 1 t)
    ∗ owns (c : Thread nD τ) (st6_2 t) fullShare ((pd6 V c).after 2 t)
    ∗ owns (c : Thread nD τ) (st6_3 t) fullShare ((pd6 V c).after 3 t))

/-- The body at any point: the input buffers hold their blocks, so `body6_run` applies; the invariant and what the core
    owes pass through untouched. -/
theorem body6_at (c : Dev nD) (t : Fin cfg6.N) :
    body6_pre V c t ⊢ wp frame (wpE (defs₀ (F := F)) Variants.none c none) Set.univ (bodyAt6 t) (fun _ => body6_post V c t) := by
  unfold body6_pre body6_post bodyAt6
  simp only [pd6_before_0, pd6_before_1, pd6_before_2]
  rw [show (pd6 V c).Φ t.succ = (pd6 V c).Φ t.castSucc from rfl,
    show (pd6 V c).owesAt () t.succ = (pd6 V c).owesAt () t.castSucc from rfl,
    pd6_after_0, pd6_after_1, pd6_after_2, pd6_after_3]
  iintro ⟨HΦ, Ho, ⟨%d0, H0⟩, ⟨%d1, H1⟩, ⟨%d2, H2⟩, ⟨%d3, H3⟩⟩
  iapply (body6_run c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation for the body, at every point. -/
theorem body6_obligation (c : Dev nD) : BodyObligation (pd6 (F := F) V c) (defs₀ (F := F)) Variants.none () Set.univ := fun t => by
  rw [bigSep_W6, bigSep_W6]
  exact body6_at V c t

end Cert.KernelIdeal.Tiles

end
-- ==== Proof.IdealRun.lean ====
/-
  The program's run, item by item: each host stretch as a segment over the core's unscoped buffers, each tiled region as
  a segment entered from the buffers' contents before it and left at the contents after it (its arrays split out of the
  buffers, run through the pipeline under the body's obligation, and put back), the twelve segments chained from the
  launch; every weakly fair execution therefore terminates without a fault with every unscoped buffer at the last
  boundary's contents, which for an argument array are its launch contents.
-/
import proofs.«182094_j14697378087202_1_alg».proof.Proof.IdealFold
import proofs.«182094_j14697378087202_1_alg».proof.Proof.IdealBody0
import proofs.«182094_j14697378087202_1_alg».proof.Proof.IdealBody1
import proofs.«182094_j14697378087202_1_alg».proof.Proof.IdealBody2
import proofs.«182094_j14697378087202_1_alg».proof.Proof.IdealBody3
import proofs.«182094_j14697378087202_1_alg».proof.Proof.IdealBody4
import proofs.«182094_j14697378087202_1_alg».proof.Proof.IdealBody5
import proofs.«182094_j14697378087202_1_alg».proof.Proof.IdealBody6
import Idealize.ShloMosaic.Lib.Pipeline.Regions

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 7) → (pcfgs (F := F) p).Adm := fun p => (cfgs p).toPCfg_adm
/-- Every region's proof data, each at the contents its region is entered from. -/
def pdats : (p : Fin 7) → (c : Dev nD) → Dat τ (Elt F) Unit ℕ (UR sig nD τ) ℕ (Pipeline.pin (pcfgs (F := F)) adm p) c
  | ⟨0, _⟩ => fun c => pd0 (V1 m) c
  | ⟨1, _⟩ => fun c => pd1 (V3 m) c
  | ⟨2, _⟩ => fun c => pd2 (V4 m) c
  | ⟨3, _⟩ => fun c => pd3 (V6 m) c
  | ⟨4, _⟩ => fun c => pd4 (V7 m) c
  | ⟨5, _⟩ => fun c => pd5 (V9 m) c
  | ⟨6, _⟩ => fun c => pd6 (V11 m) c
abbrev 𝒱₀ : Variants := Variants.none
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W12 m c) ∗ ∃ r, prngReg c r)

set_option backward.isDefEq.respectTransparency.types false in
/-- Region 0 as a segment: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W4`, left at `W5`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body2_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (arrs2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W6`, left at `W7`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body3_obligation (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (arrs3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at `W7`, left at `W8`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body4_obligation (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (arrs4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from every unscoped buffer at `W9`, left at `W10`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body5_obligation (V9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (V9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V9 m c) (V10 m c) ((pdats m 5 c).arrAt · cfg5.N) (arrs5 m c) (rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from every unscoped buffer at `W11`, left at `W12`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body6_obligation (V11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V11 m c) (V12 m c) ((pdats m 6 c).arrAt · cfg6.N) (arrs6 m c) (rest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's twelve segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m) ]

/-- The program IS the run of its segments. -/
theorem main_run (c : Dev nD) : main (F := F) c = Pipeline.Seg.run (segs m) := (main_chain c).trans (by chain_rfl)

set_option backward.isDefEq.respectTransparency.types false in
/-- From any memory with zero counters, every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The frame: every weakly fair execution terminates without a fault, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W12_launch m c main_arg0 (by decide) (by decide) (by decide) (by decide) (by decide) (by decide)),
    (h c _ (mem_uc main_arg1 (by decide))).trans (W12_launch m c main_arg1 (by decide) (by decide) (by decide) (by decide) (by decide) (by decide)),
    (h c _ (mem_uc main_arg2 (by decide))).trans (W12_launch m c main_arg2 (by decide) (by decide) (by decide) (by decide) (by decide) (by decide)),
    (h c _ (mem_uc main_arg3 (by decide))).trans (W12_launch m c main_arg3 (by decide) (by decide) (by decide) (by decide) (by decide) (by decide)),
    (h c _ (mem_uc main_arg4 (by decide))).trans (W12_launch m c main_arg4 (by decide) (by decide) (by decide) (by decide) (by decide) (by decide)),
    (h c _ (mem_uc main_arg5 (by decide))).trans (W12_launch m c main_arg5 (by decide) (by decide) (by decide) (by decide) (by decide) (by decide)),
    (h c _ (mem_uc main_arg6 (by decide))).trans (W12_launch m c main_arg6 (by decide) (by decide) (by decide) (by decide) (by decide) (by decide)),
    (h c _ (mem_uc main_arg7 (by decide))).trans (W12_launch m c main_arg7 (by decide) (by decide) (by decide) (by decide) (by decide) (by decide)),
    (h c _ (mem_uc main_arg8 (by decide))).trans (W12_launch m c main_arg8 (by decide) (by decide) (by decide) (by decide) (by decide) (by decide)),
    (h c _ (mem_uc main_arg9 (by decide))).trans (W12_launch m c main_arg9 (by decide) (by decide) (by decide) (by decide) (by decide) (by decide)),
    (h c _ (mem_uc main_arg10 (by decide))).trans (W12_launch m c main_arg10 (by decide) (by decide) (by decide) (by decide) (by decide) (by decide))⟩) (run_all m ρ)

end Cert.KernelIdeal.Tiles

end
-- ==== Proof.Net.lean ====
/-
  The network as a function on the extended reals, index by index.

  * `mm x w`: the product of an [n, K] matrix with a [K, N] matrix, entry (r, j) the sum over k of x (r, k) · w (k, j).
  * `act z b`: a bias row b added to every row of z, then half of the sum plus half of its positive part:
    ½ · (z + b) + ½ · max (z + b, 0).  `act1` is the same with the bias held as a [1, N] matrix.
  * `dense h w b`: the product `mm h w` plus a bias row;  `dense1` with the bias held as a [1, N] matrix.
  * `layer agg x w b`: one message-passing layer — project by w, aggregate over the edges by `agg` (any map of [n, N]
    arrays: the gather, the scaling by edge weights and the scatter-add, which both programs run as the same host
    operations), add the bias and mix.
  * `net agg cat …`: three layers, each fed the one before, their outputs laid side by side by `cat`, then the dense
    read-out.
-/
import Idealize.ShloMosaic.Lib.ValueIdx
import Idealize.ShloMosaic.PureOps.Ideal.Laws

noncomputable section

namespace Cert.Net

open Idealize.ShloMosaic Idealize.ShloMosaic.ValueIdx

/-- The float literal 0.5, as the extended real its bits denote. -/
abbrev half : EReal := Ideal.ofBits .f32 0x3F000000#32
/-- The float literal 0.0, as the extended real its bits denote. -/
abbrev zero : EReal := Ideal.ofBits .f32 0x00000000#32

section
variable {n K N : Nat}

/-- Matrix product: entry (r, j) is the sum over k of x (r, k) · w (k, j). -/
def mm (x : (⟨2, ![n, K]⟩ : Shape).Idx → EReal) (w : (⟨2, ![K, N]⟩ : Shape).Idx → EReal) :
    (⟨2, ![n, N]⟩ : Shape).Idx → EReal :=
  fun i => ∑ k : Fin K, x (ix2 (n0 := n) (i 0) k) * w (ix2 (n1 := N) k (i 1))

theorem mm_apply (x : (⟨2, ![n, K]⟩ : Shape).Idx → EReal) (w : (⟨2, ![K, N]⟩ : Shape).Idx → EReal) (r : Fin n) (j : Fin N) :
    mm x w (ix2 r j) = ∑ k : Fin K, x (ix2 r k) * w (ix2 k j) := rfl

/-- Bias row added, then half the sum plus half its positive part. -/
def act (z : (⟨2, ![n, N]⟩ : Shape).Idx → EReal) (b : (⟨1, ![N]⟩ : Shape).Idx → EReal) :
    (⟨2, ![n, N]⟩ : Shape).Idx → EReal :=
  fun i => half * (z i + b (ix1 (n := N) (i 1))) + half * max (z i + b (ix1 (n := N) (i 1))) zero

theorem act_apply (z : (⟨2, ![n, N]⟩ : Shape).Idx → EReal) (b : (⟨1, ![N]⟩ : Shape).Idx → EReal) (r : Fin n) (j : Fin N) :
    act z b (ix2 r j) = half * (z (ix2 r j) + b (ix1 j)) + half * max (z (ix2 r j) + b (ix1 j)) zero := rfl

/-- The same with the bias held as a one-row matrix. -/
def act1 (z : (⟨2, ![n, N]⟩ : Shape).Idx → EReal) (b : (⟨2, ![1, N]⟩ : Shape).Idx → EReal) :
    (⟨2, ![n, N]⟩ : Shape).Idx → EReal :=
  fun i => half * (z i + b (ix2 (0 : Fin 1) (n1 := N) (i 1))) + half * max (z i + b (ix2 (0 : Fin 1) (n1 := N) (i 1))) zero

theorem act1_apply (z : (⟨2, ![n, N]⟩ : Shape).Idx → EReal) (b : (⟨2, ![1, N]⟩ : Shape).Idx → EReal) (r : Fin n) (j : Fin N) :
    act1 z b (ix2 r j) = half * (z (ix2 r j) + b (ix2 0 j)) + half * max (z (ix2 r j) + b (ix2 0 j)) zero := rfl

/-- A one-row matrix whose entries are a vector's makes `act1` the vector's `act`. -/
theorem act1_eq_act (z : (⟨2, ![n, N]⟩ : Shape).Idx → EReal) (b1 : (⟨2, ![1, N]⟩ : Shape).Idx → EReal)
    (b : (⟨1, ![N]⟩ : Shape).Idx → EReal) (h : ∀ j : Fin N, b1 (ix2 0 j) = b (ix1 j)) : act1 z b1 = act z b := by
  funext i
  obtain ⟨r, j, rfl⟩ : ∃ (r : Fin n) (j : Fin N), i = ix2 r j := ⟨i 0, i 1, eq_ix2 i⟩
  rw [act1_apply, act_apply, h]

/-- Matrix product plus a bias row. -/
def dense (h : (⟨2, ![n, K]⟩ : Shape).Idx → EReal) (w : (⟨2, ![K, N]⟩ : Shape).Idx → EReal)
    (b : (⟨1, ![N]⟩ : Shape).Idx → EReal) : (⟨2, ![n, N]⟩ : Shape).Idx → EReal :=
  fun i => mm h w i + b (ix1 (n := N) (i 1))

theorem dense_apply (h : (⟨2, ![n, K]⟩ : Shape).Idx → EReal) (w : (⟨2, ![K, N]⟩ : Shape).Idx → EReal)
    (b : (⟨1, ![N]⟩ : Shape).Idx → EReal) (r : Fin n) (j : Fin N) :
    dense h w b (ix2 r j) = (∑ k : Fin K, h (ix2 r k) * w (ix2 k j)) + b (ix1 j) := rfl

/-- The same with the bias held as a one-row matrix. -/
def dense1 (h : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => mm h w i + b (ix2 (0 : Fin 1) (n1 := N) (i 1))

theorem dense1_apply (h : (⟨2, ![n, K]⟩ : Shape).Idx → EReal) (w : (⟨2, ![K, N]⟩ : Shape).Idx → EReal)
    (b : (⟨2, ![1, N]⟩ : Shape).Idx → EReal) (r : Fin n) (j : Fin N) :
    dense1 h w b (ix2 r j) = (∑ k : Fin K, h (ix2 r k) * w (ix2 k j)) + b (ix2 0 j) := rfl

theorem dense1_eq_dense (h : (⟨2, ![n, K]⟩ : Shape).Idx → EReal) (w : (⟨2, ![K, N]⟩ : Shape).Idx → EReal)
    (b1 : (⟨2, ![1, N]⟩ : Shape).Idx → EReal) (b : (⟨1, ![N]⟩ : Shape).Idx → EReal)
    (hb : ∀ j : Fin N, b1 (ix2 0 j) = b (ix1 j)) : dense1 h w b1 = dense h w b := by
  funext i
  obtain ⟨r, j, rfl⟩ : ∃ (r : Fin n) (j : Fin N), i = ix2 r j := ⟨i 0, i 1, eq_ix2 i⟩
  rw [dense1_apply, dense_apply, hb]

end

section
variable {n H K O : Nat}

/-- One layer: project, aggregate over the edges, add the bias and mix. -/
def layer (agg : ((⟨2, ![n, H]⟩ : Shape).Idx → EReal) → ((⟨2, ![n, H]⟩ : Shape).Idx → EReal))
    (x : (⟨2, ![n, K]⟩ : Shape).Idx → EReal) (w : (⟨2, ![K, H]⟩ : Shape).Idx → EReal)
    (b : (⟨1, ![H]⟩ : Shape).Idx → EReal) : (⟨2, ![n, H]⟩ : Shape).Idx → EReal :=
  act (agg (mm x w)) b

/-- Three layers, their outputs side by side, then the dense read-out. -/
def net (agg : ((⟨2, ![n, H]⟩ : Shape).Idx → EReal) → ((⟨2, ![n, H]⟩ : Shape).Idx → EReal))
    (cat : ((⟨2, ![n, H]⟩ : Shape).Idx → EReal) → ((⟨2, ![n, H]⟩ : Shape).Idx → EReal) → ((⟨2, ![n, H]⟩ : Shape).Idx → EReal)
      → ((⟨2, ![n, K]⟩ : Shape).Idx → EReal))
    (x : (⟨2, ![n, H]⟩ : Shape).Idx → EReal)
    (w1 : (⟨2, ![H, H]⟩ : Shape).Idx → EReal) (b1 : (⟨1, ![H]⟩ : Shape).Idx → EReal)
    (w2 : (⟨2, ![H, H]⟩ : Shape).Idx → EReal) (b2 : (⟨1, ![H]⟩ : Shape).Idx → EReal)
    (w3 : (⟨2, ![H, H]⟩ : Shape).Idx → EReal) (b3 : (⟨1, ![H]⟩ : Shape).Idx → EReal)
    (wl : (⟨2, ![K, O]⟩ : Shape).Idx → EReal) (bl : (⟨1, ![O]⟩ : Shape).Idx → EReal) :
    (⟨2, ![n, O]⟩ : Shape).Idx → EReal :=
  dense (cat (layer agg x w1 b1) (layer agg (layer agg x w1 b1) w2 b2)
    (layer agg (layer agg (layer agg x w1 b1) w2 b2) w3 b3)) wl bl

end

end Cert.Net

end
-- ==== Proof.IdealNet.lean ====
/-
  The idealized kernel program's result as a function of its arguments, at the extended reals.

  Between the tiled regions the program runs the same few host operations three times: the source and destination
  index rows cut out of the edge list once; per layer the projected features gathered by source index (an index below
  zero wrapped once), scaled by the edge weight and scatter-added by destination index into zeros (`aggK`); the bias
  vector laid out as a one-row matrix; at the end the three layer outputs laid side by side (`catK`). With each region's
  output array given as a whole-array function of its input arrays (hypotheses `hv0` … `hv6`: the three projections are
  matrix products, the three activations the bias-and-mix, the read-out a matrix product plus a bias row), walking the
  boundaries from the launch to the end gives the result as `Net.net aggK catK` of the arguments.
-/
import proofs.«182094_j14697378087202_1_alg».proof.Proof.IdealFold
import proofs.«182094_j14697378087202_1_alg».proof.Proof.Net
import Idealize.ShloMosaic.Lib.StableHlo.Run
import Idealize.ShloMosaic.Lib.Pipeline.Value
import Idealize.ShloMosaic.PureOps.Ideal.Laws

set_option maxRecDepth 16384

noncomputable section

namespace Cert.KernelIdeal.NetValue

open Cert.KernelIdeal Cert.KernelIdeal.Gen Cert.KernelIdeal.Tiles
open Idealize.ShloMosaic Idealize.ShloMosaic.TcCoe Idealize.ShloMosaic.StableHlo Idealize.ShloMosaic.ValueIdx
open Idealize.SL.Sem
open Idealize.ShloMosaic.Pipeline (Dat)

/-- The source index row of the edge list. -/
def srcOf (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
/-- The destination index row of the edge list. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- One aggregation over the edges: rows of `z` gathered by source index (an index below zero has the row count added),
    each scaled by its edge's weight, scatter-added by destination index into zeros. -/
def aggS (src dst : (⟨S1600000, .i32⟩ : BufTy).Contents (Elt Ideal)) (ew : (⟨S1600000, .f32⟩ : BufTy).Contents (Elt Ideal))
    (z : (⟨S100000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf
      (Host.gather gather_S100000x64_S1600000x1_S1600000x64_1_0_n_n_0_1_164 z
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 ew)))

/-- The aggregation from the edge list itself. -/
def aggK (ei : (⟨S2x1600000, .i32⟩ : BufTy).Contents (Elt Ideal)) (ew : (⟨S1600000, .f32⟩ : BufTy).Contents (Elt Ideal))
    (z : (⟨S100000x64, .f32⟩ : BufTy).Contents (Elt Ideal)) : (⟨S100000x64, .f32⟩ : BufTy).Contents (Elt Ideal) :=
  aggS (srcOf ei) (dstOf ei) ew z

/-- Three [100000, 64] arrays side by side. -/
def catK (h1 h2 h3 : (⟨S100000x64, .f32⟩ : BufTy).Contents (Elt Ideal)) : (⟨S100000x192, .f32⟩ : BufTy).Contents (Elt Ideal) :=
  concatenate S100000x192 1 [⟨S100000x64, h1⟩, ⟨S100000x64, h2⟩, ⟨S100000x64, h3⟩] concatenates_S100000x64_S100000x64_S100000x64_S100000x192_d1

/-- A vector laid out as a one-row matrix, read in that row. -/
theorem row_of_vec {N : Nat} (b : (⟨1, ![N]⟩ : Shape).Idx → EReal) (h : (⟨1, ![N]⟩ : Shape).ShapeCasts ⟨2, ![1, N]⟩) (j : Fin N) :
    shapeCast (⟨2, ![1, N]⟩ : Shape) b h (ix2 (0 : Fin 1) j) = b (ix1 j) :=
  (shapeCast_addUnit_apply ![N] b h (ix2 (0 : Fin 1) j)).trans
    (congrArg b (funext fun a => match a with | ⟨0, _⟩ => rfl))

variable (m : (ℓ : Loc nD τ sig) → Buf (Elt Ideal) ℓ)

/-! ## What the host stretches write -/

theorem src_at1 (c : Dev nD) : W1 m c (Proc.devRef .tc main_v1) = srcOf (m ((c : Thread nD τ).loc main_arg1)) := by
  show StableHlo.after hostOps0 (W0 m c) (Proc.devRef .tc main_v1) = _
  after_results_simp <;> rfl
theorem dst_at1 (c : Dev nD) : W1 m c (Proc.devRef .tc main_v3) = dstOf (m ((c : Thread nD τ).loc main_arg1)) := by
  show StableHlo.after hostOps0 (W0 m c) (Proc.devRef .tc main_v3) = _
  after_results_simp <;> rfl

theorem agg_at3 (c : Dev nD) : W3 m c (Proc.devRef .tc main_v17)
    = aggS (W2 m c (Proc.devRef .tc main_v1)) (W2 m c (Proc.devRef .tc main_v3)) (W2 m c (Proc.devRef .tc main_arg2)) (W2 m c (Proc.devRef .tc main_v4)) := by
  show StableHlo.after hostOps1 (W2 m c) (Proc.devRef .tc main_v17) = _
  after_results_simp <;> rfl
theorem bias_at3 (c : Dev nD) : W3 m c (Proc.devRef .tc main_v18)
    = shapeCast S1x64 (W2 m c (Proc.devRef .tc main_arg4)) shapeCasts_S64_S1x64 := by
  show StableHlo.after hostOps1 (W2 m c) (Proc.devRef .tc main_v18) = _
  after_results_simp <;> rfl

theorem agg_at6 (c : Dev nD) : W6 m c (Proc.devRef .tc main_v33)
    = aggS (W5 m c (Proc.devRef .tc main_v1)) (W5 m c (Proc.devRef .tc main_v3)) (W5 m c (Proc.devRef .tc main_arg2)) (W5 m c (Proc.devRef .tc main_v20)) := by
  show StableHlo.after hostOps3 (W5 m c) (Proc.devRef .tc main_v33) = _
  after_results_simp <;> rfl
theorem bias_at6 (c : Dev nD) : W6 m c (Proc.devRef .tc main_v34)
    = shapeCast S1x64 (W5 m c (Proc.devRef .tc main_arg6)) shapeCasts_S64_S1x64 := by
  show StableHlo.after hostOps3 (W5 m c) (Proc.devRef .tc main_v34) = _
  after_results_simp <;> rfl

theorem agg_at9 (c : Dev nD) : W9 m c (Proc.devRef .tc main_v49)
    = aggS (W8 m c (Proc.devRef .tc main_v1)) (W8 m c (Proc.devRef .tc main_v3)) (W8 m c (Proc.devRef .tc main_arg2)) (W8 m c (Proc.devRef .tc main_v36)) := by
  show StableHlo.after hostOps5 (W8 m c) (Proc.devRef .tc main_v49) = _
  after_results_simp <;> rfl
theorem bias_at9 (c : Dev nD) : W9 m c (Proc.devRef .tc main_v50)
    = shapeCast S1x64 (W8 m c (Proc.devRef .tc main_arg8)) shapeCasts_S64_S1x64 := by
  show StableHlo.after hostOps5 (W8 m c) (Proc.devRef .tc main_v50) = _
  after_results_simp <;> rfl

theorem cat_at11 (c : Dev nD) : W11 m c (Proc.devRef .tc main_v52)
    = catK (W10 m c (Proc.devRef .tc main_v19)) (W10 m c (Proc.devRef .tc main_v35)) (W10 m c (Proc.devRef .tc main_v51)) := by
  show StableHlo.after hostOps6 (W10 m c) (Proc.devRef .tc main_v52) = _
  after_results_simp <;> rfl
theorem bias_at11 (c : Dev nD) : W11 m c (Proc.devRef .tc main_v53)
    = shapeCast S1x40 (W10 m c (Proc.devRef .tc main_arg10)) shapeCasts_S40_S1x40 := by
  show StableHlo.after hostOps6 (W10 m c) (Proc.devRef .tc main_v53) = _
  after_results_simp <;> rfl

end Cert.KernelIdeal.NetValue

end
-- ==== Proof.IdealWalk.lean ====
/-
  Walking the program's boundaries with each tiled region's value in hand: the first layer's output after region 1, the
  second's after region 3, the third's after region 5, and the result after region 6, each as the network function of
  the launch contents of the arguments. What a later layer reads of the edge list, the edge weights, a weight matrix or a
  bias vector is what was launched, because no item in between writes those buffers.
-/
import proofs.«182094_j14697378087202_1_alg».proof.Proof.IdealNet

set_option maxRecDepth 16384

noncomputable section

namespace Cert.KernelIdeal.NetValue

open Cert.KernelIdeal Cert.KernelIdeal.Gen Cert.KernelIdeal.Tiles
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ)

/-- The edge aggregation a stretch computes from the buffers before it is the aggregation from the launched edge list and
    weights, when those three buffers still hold what the first stretch and the launch put there. -/
theorem aggS_launch (c : Dev nD) (s d : (⟨S1600000, .i32⟩ : BufTy).Contents (Elt Ideal)) (w : (⟨S1600000, .f32⟩ : BufTy).Contents (Elt Ideal))
    (z : (⟨S100000x64, .f32⟩ : BufTy).Contents (Elt Ideal))
    (hs : s = W1 m c (Proc.devRef .tc main_v1)) (hd : d = W1 m c (Proc.devRef .tc main_v3)) (hw : w = (m ((c : Thread nD τ).loc main_arg2))) :
    aggS s d w z = aggK (m ((c : Thread nD τ).loc main_arg1)) (m ((c : Thread nD τ).loc main_arg2)) z := by
  rw [hs, hd, hw, src_at1, dst_at1]; rfl

/-- After region 0: the first projection. -/
theorem z1_at2
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (c : Dev nD) : W2 m c (Proc.devRef .tc main_v4) = Cert.Net.mm (m ((c : Thread nD τ).loc main_arg0)) (m ((c : Thread nD τ).loc main_arg3)) := by
  refine (W2_arr m c 2).trans ((hv0 (V1 m) c).trans ?_)
  show Cert.Net.mm (W1 m c (Proc.devRef .tc main_arg0)) (W1 m c (Proc.devRef .tc main_arg3)) = _
  rw [W1_keep m c main_arg0 (by decide), W1_keep m c main_arg3 (by decide)]

/-- After region 1: the first layer. -/
theorem h1_at4
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (hv1 : ∀ (V : (c : Dev nD) → (b : Ref sig .tc) → Buf (Elt Ideal) ((c : Thread nD τ).loc b)) (c : Dev nD), (pd1 V c).arrAt 2 cfg1.N = Cert.Net.act1 (V c main_v17) (V c main_v18))
    (c : Dev nD) : W4 m c (Proc.devRef .tc main_v19)
    = Cert.Net.layer (aggK (m ((c : Thread nD τ).loc main_arg1)) (m ((c : Thread nD τ).loc main_arg2))) (m ((c : Thread nD τ).loc main_arg0)) (m ((c : Thread nD τ).loc main_arg3)) (m ((c : Thread nD τ).loc main_arg4)) := by
  refine (W4_arr m c 2).trans ((hv1 (V3 m) c).trans ?_)
  show Cert.Net.act1 (W3 m c (Proc.devRef .tc main_v17)) (W3 m c (Proc.devRef .tc main_v18)) = _
  rw [agg_at3, bias_at3, z1_at2 m hv0 c,
    aggS_launch m c _ _ _ _ (by rw [W2_keep m c main_v1 (by decide)]) (by rw [W2_keep m c main_v3 (by decide)]) (by rw [W2_keep m c main_arg2 (by decide), W1_keep m c main_arg2 (by decide)]),
    W2_keep m c main_arg4 (by decide), W1_keep m c main_arg4 (by decide)]
  exact Cert.Net.act1_eq_act _ _ _ fun j => row_of_vec _ _ j

/-- After region 2: the second projection. -/
theorem z2_at5
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (hv1 : ∀ (V : (c : Dev nD) → (b : Ref sig .tc) → Buf (Elt Ideal) ((c : Thread nD τ).loc b)) (c : Dev nD), (pd1 V c).arrAt 2 cfg1.N = Cert.Net.act1 (V c main_v17) (V c main_v18))
    (hv2 : ∀ (V : (c : Dev nD) → (b : Ref sig .tc) → Buf (Elt Ideal) ((c : Thread nD τ).loc b)) (c : Dev nD), (pd2 V c).arrAt 2 cfg2.N = Cert.Net.mm (V c main_v19) (V c main_arg5))
    (c : Dev nD) : W5 m c (Proc.devRef .tc main_v20)
    = Cert.Net.mm (Cert.Net.layer (aggK (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) := by
  refine (W5_arr m c 2).trans ((hv2 (V4 m) c).trans ?_)
  show Cert.Net.mm (W4 m c (Proc.devRef .tc main_v19)) (W4 m c (Proc.devRef .tc main_arg5)) = _
  rw [h1_at4 m hv0 hv1 c, W4_keep m c main_arg5 (by decide), W3_keep m c main_arg5 (by decide), W2_keep m c main_arg5 (by decide), W1_keep m c main_arg5 (by decide)]

/-- After region 3: the second layer. -/
theorem h2_at7
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (hv1 : ∀ (V : (c : Dev nD) → (b : Ref sig .tc) → Buf (Elt Ideal) ((c : Thread nD τ).loc b)) (c : Dev nD), (pd1 V c).arrAt 2 cfg1.N = Cert.Net.act1 (V c main_v17) (V c main_v18))
    (hv2 : ∀ (V : (c : Dev nD) → (b : Ref sig .tc) → Buf (Elt Ideal) ((c : Thread nD τ).loc b)) (c : Dev nD), (pd2 V c).arrAt 2 cfg2.N = Cert.Net.mm (V c main_v19) (V c main_arg5))
    (hv3 : ∀ (V : (c : Dev nD) → (b : Ref sig .tc) → Buf (Elt Ideal) ((c : Thread nD τ).loc b)) (c : Dev nD), (pd3 V c).arrAt 2 cfg3.N = Cert.Net.act1 (V c main_v33) (V c main_v34))
    (c : Dev nD) : W7 m c (Proc.devRef .tc main_v35)
    = Cert.Net.layer (aggK (m ((c : Thread nD τ).loc main_arg1)) (m ((c : Thread nD τ).loc main_arg2))) (Cert.Net.layer (aggK (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6)) := by
  refine (W7_arr m c 2).trans ((hv3 (V6 m) c).trans ?_)
  show Cert.Net.act1 (W6 m c (Proc.devRef .tc main_v33)) (W6 m c (Proc.devRef .tc main_v34)) = _
  rw [agg_at6, bias_at6, z2_at5 m hv0 hv1 hv2 c,
    aggS_launch m c _ _ _ _ (by rw [W5_keep m c main_v1 (by decide), W4_keep m c main_v1 (by decide), W3_keep m c main_v1 (by decide), W2_keep m c main_v1 (by decide)]) (by rw [W5_keep m c main_v3 (by decide), W4_keep m c main_v3 (by decide), W3_keep m c main_v3 (by decide), W2_keep m c main_v3 (by decide)]) (by rw [W5_keep m c main_arg2 (by decide), W4_keep m c main_arg2 (by decide), W3_keep m c main_arg2 (by decide), W2_keep m c main_arg2 (by decide), W1_keep m c main_arg2 (by decide)]),
    W5_keep m c main_arg6 (by decide), W4_keep m c main_arg6 (by decide), W3_keep m c main_arg6 (by decide), W2_keep m c main_arg6 (by decide), W1_keep m c main_arg6 (by decide)]
  exact Cert.Net.act1_eq_act _ _ _ fun j => row_of_vec _ _ j

/-- After region 4: the third projection. -/
theorem z3_at8
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (hv1 : ∀ (V : (c : Dev nD) → (b : Ref sig .tc) → Buf (Elt Ideal) ((c : Thread nD τ).loc b)) (c : Dev nD), (pd1 V c).arrAt 2 cfg1.N = Cert.Net.act1 (V c main_v17) (V c main_v18))
    (hv2 : ∀ (V : (c : Dev nD) → (b : Ref sig .tc) → Buf (Elt Ideal) ((c : Thread nD τ).loc b)) (c : Dev nD), (pd2 V c).arrAt 2 cfg2.N = Cert.Net.mm (V c main_v19) (V c main_arg5))
    (hv3 : ∀ (V : (c : Dev nD) → (b : Ref sig .tc) → Buf (Elt Ideal) ((c : Thread nD τ).loc b)) (c : Dev nD), (pd3 V c).arrAt 2 cfg3.N = Cert.Net.act1 (V c main_v33) (V c main_v34))
    (hv4 : ∀ (V : (c : Dev nD) → (b : Ref sig .tc) → Buf (Elt Ideal) ((c : Thread nD τ).loc b)) (c : Dev nD), (pd4 V c).arrAt 2 cfg4.N = Cert.Net.mm (V c main_v35) (V c main_arg7))
    (c : Dev nD) : W8 m c (Proc.devRef .tc main_v36)
    = Cert.Net.mm (Cert.Net.layer (aggK (m ((c : Thread nD τ).loc main_arg1)) (m ((c : Thread nD τ).loc main_arg2))) (Cert.Net.layer (aggK (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) := by
  refine (W8_arr m c 2).trans ((hv4 (V7 m) c).trans ?_)
  show Cert.Net.mm (W7 m c (Proc.devRef .tc main_v35)) (W7 m c (Proc.devRef .tc main_arg7)) = _
  rw [h2_at7 m hv0 hv1 hv2 hv3 c, W7_keep m c main_arg7 (by decide), W6_keep m c main_arg7 (by decide), W5_keep m c main_arg7 (by decide), W4_keep m c main_arg7 (by decide), W3_keep m c main_arg7 (by decide), W2_keep m c main_arg7 (by decide), W1_keep m c main_arg7 (by decide)]

/-- After region 5: the third layer. -/
theorem h3_at10
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (hv1 : ∀ (V : (c : Dev nD) → (b : Ref sig .tc) → Buf (Elt Ideal) ((c : Thread nD τ).loc b)) (c : Dev nD), (pd1 V c).arrAt 2 cfg1.N = Cert.Net.act1 (V c main_v17) (V c main_v18))
    (hv2 : ∀ (V : (c : Dev nD) → (b : Ref sig .tc) → Buf (Elt Ideal) ((c : Thread nD τ).loc b)) (c : Dev nD), (pd2 V c).arrAt 2 cfg2.N = Cert.Net.mm (V c main_v19) (V c main_arg5))
    (hv3 : ∀ (V : (c : Dev nD) → (b : Ref sig .tc) → Buf (Elt Ideal) ((c : Thread nD τ).loc b)) (c : Dev nD), (pd3 V c).arrAt 2 cfg3.N = Cert.Net.act1 (V c main_v33) (V c main_v34))
    (hv4 : ∀ (V : (c : Dev nD) → (b : Ref sig .tc) → Buf (Elt Ideal) ((c : Thread nD τ).loc b)) (c : Dev nD), (pd4 V c).arrAt 2 cfg4.N = Cert.Net.mm (V c main_v35) (V c main_arg7))
    (hv5 : ∀ (V : (c : Dev nD) → (b : Ref sig .tc) → Buf (Elt Ideal) ((c : Thread nD τ).loc b)) (c : Dev nD), (pd5 V c).arrAt 2 cfg5.N = Cert.Net.act1 (V c main_v49) (V c main_v50))
    (c : Dev nD) : W10 m c (Proc.devRef .tc main_v51)
    = Cert.Net.layer (aggK (m ((c : Thread nD τ).loc main_arg1)) (m ((c : Thread nD τ).loc main_arg2))) (Cert.Net.layer (aggK (m ((c : Thread nD τ).loc main_arg1)) (m ((c : Thread nD τ).loc main_arg2))) (Cert.Net.layer (aggK (m ((c : Thread nD τ).loc main_arg1)) (m ((c : Thread nD τ).loc main_arg2))) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)) := by
  refine (W10_arr m c 2).trans ((hv5 (V9 m) c).trans ?_)
  show Cert.Net.act1 (W9 m c (Proc.devRef .tc main_v49)) (W9 m c (Proc.devRef .tc main_v50)) = _
  rw [agg_at9, bias_at9, z3_at8 m hv0 hv1 hv2 hv3 hv4 c,
    aggS_launch m c _ _ _ _ (by rw [W8_keep m c main_v1 (by decide), W7_keep m c main_v1 (by decide), W6_keep m c main_v1 (by decide), W5_keep m c main_v1 (by decide), W4_keep m c main_v1 (by decide), W3_keep m c main_v1 (by decide), W2_keep m c main_v1 (by decide)]) (by rw [W8_keep m c main_v3 (by decide), W7_keep m c main_v3 (by decide), W6_keep m c main_v3 (by decide), W5_keep m c main_v3 (by decide), W4_keep m c main_v3 (by decide), W3_keep m c main_v3 (by decide), W2_keep m c main_v3 (by decide)]) (by rw [W8_keep m c main_arg2 (by decide), W7_keep m c main_arg2 (by decide), W6_keep m c main_arg2 (by decide), W5_keep m c main_arg2 (by decide), W4_keep m c main_arg2 (by decide), W3_keep m c main_arg2 (by decide), W2_keep m c main_arg2 (by decide), W1_keep m c main_arg2 (by decide)]),
    W8_keep m c main_arg8 (by decide), W7_keep m c main_arg8 (by decide), W6_keep m c main_arg8 (by decide), W5_keep m c main_arg8 (by decide), W4_keep m c main_arg8 (by decide), W3_keep m c main_arg8 (by decide), W2_keep m c main_arg8 (by decide), W1_keep m c main_arg8 (by decide)]
  exact Cert.Net.act1_eq_act _ _ _ fun j => row_of_vec _ _ j

/-- At the end: the result. -/
theorem out_at12
    (hv0 : ∀ (V : (c : Dev nD) → (b : Ref sig .tc) → Buf (Elt Ideal) ((c : Thread nD τ).loc b)) (c : Dev nD), (pd0 V c).arrAt 2 cfg0.N = Cert.Net.mm (V c main_arg0) (V c main_arg3))
    (hv1 : ∀ (V : (c : Dev nD) → (b : Ref sig .tc) → Buf (Elt Ideal) ((c : Thread nD τ).loc b)) (c : Dev nD), (pd1 V c).arrAt 2 cfg1.N = Cert.Net.act1 (V c main_v17) (V c main_v18))
    (hv2 : ∀ (V : (c : Dev nD) → (b : Ref sig .tc) → Buf (Elt Ideal) ((c : Thread nD τ).loc b)) (c : Dev nD), (pd2 V c).arrAt 2 cfg2.N = Cert.Net.mm (V c main_v19) (V c main_arg5))
    (hv3 : ∀ (V : (c : Dev nD) → (b : Ref sig .tc) → Buf (Elt Ideal) ((c : Thread nD τ).loc b)) (c : Dev nD), (pd3 V c).arrAt 2 cfg3.N = Cert.Net.act1 (V c main_v33) (V c main_v34))
    (hv4 : ∀ (V : (c : Dev nD) → (b : Ref sig .tc) → Buf (Elt Ideal) ((c : Thread nD τ).loc b)) (c : Dev nD), (pd4 V c).arrAt 2 cfg4.N = Cert.Net.mm (V c main_v35) (V c main_arg7))
    (hv5 : ∀ (V : (c : Dev nD) → (b : Ref sig .tc) → Buf (Elt Ideal) ((c : Thread nD τ).loc b)) (c : Dev nD), (pd5 V c).arrAt 2 cfg5.N = Cert.Net.act1 (V c main_v49) (V c main_v50))
    (hv6 : ∀ (V : (c : Dev nD) → (b : Ref sig .tc) → Buf (Elt Ideal) ((c : Thread nD τ).loc b)) (c : Dev nD), (pd6 V c).arrAt 3 cfg6.N = Cert.Net.dense1 (V c main_v52) (V c main_arg9) (V c main_v53))
    (c : Dev nD) : W12 m c (Proc.devRef .tc main_v54)
    = Cert.Net.net (aggK (m ((c : Thread nD τ).loc main_arg1)) (m ((c : Thread nD τ).loc main_arg2))) catK (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m c 3).trans ((hv6 (V11 m) c).trans ?_)
  show Cert.Net.dense1 (W11 m c (Proc.devRef .tc main_v52)) (W11 m c (Proc.devRef .tc main_arg9)) (W11 m c (Proc.devRef .tc main_v53)) = _
  rw [cat_at11, bias_at11,
    W10_keep m c main_v19 (by decide), W9_keep m c main_v19 (by decide), W8_keep m c main_v19 (by decide), W7_keep m c main_v19 (by decide), W6_keep m c main_v19 (by decide), W5_keep m c main_v19 (by decide), W10_keep m c main_v35 (by decide), W9_keep m c main_v35 (by decide), W8_keep m c main_v35 (by decide),
    h1_at4 m hv0 hv1 c, h2_at7 m hv0 hv1 hv2 hv3 c, h3_at10 m hv0 hv1 hv2 hv3 hv4 hv5 c,
    W11_keep m c main_arg9 (by decide), W10_keep m c main_arg9 (by decide), W9_keep m c main_arg9 (by decide), W8_keep m c main_arg9 (by decide), W7_keep m c main_arg9 (by decide), W6_keep m c main_arg9 (by decide), W5_keep m c main_arg9 (by decide), W4_keep m c main_arg9 (by decide), W3_keep m c main_arg9 (by decide), W2_keep m c main_arg9 (by decide), W1_keep m c main_arg9 (by decide), W10_keep m c main_arg10 (by decide), W9_keep m c main_arg10 (by decide), W8_keep m c main_arg10 (by decide), W7_keep m c main_arg10 (by decide), W6_keep m c main_arg10 (by decide), W5_keep m c main_arg10 (by decide), W4_keep m c main_arg10 (by decide), W3_keep m c main_arg10 (by decide), W2_keep m c main_arg10 (by decide), W1_keep m c main_arg10 (by decide)]
  exact Cert.Net.dense1_eq_dense _ _ _ _ fun j => row_of_vec _ _ j

end Cert.KernelIdeal.NetValue

end
-- ==== Proof.IdealOut.lean ====
/-
  The idealized kernel program's run with its result named: every weakly fair execution terminates without a fault, the
  result array holding the network function of the launched arguments and every argument array as launched — the run
  over the twelve items read at the result's buffer and at each argument's.
-/
import proofs.«182094_j14697378087202_1_alg».proof.Proof.IdealRun
import proofs.«182094_j14697378087202_1_alg».proof.Proof.IdealWalk

set_option maxRecDepth 16384

noncomputable section

namespace Cert.KernelIdeal.NetValue

open Cert.KernelIdeal Cert.KernelIdeal.Gen Cert.KernelIdeal.Tiles
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ) (ρ : Dev nD → PrngReg)

theorem run
  (hv0 : ∀ (V : (c : Dev nD) → (b : Ref sig .tc) → Buf (Elt Ideal) ((c : Thread nD τ).loc b)) (c : Dev nD), (pd0 V c).arrAt 2 cfg0.N = Cert.Net.mm (V c main_arg0) (V c main_arg3))
  (hv1 : ∀ (V : (c : Dev nD) → (b : Ref sig .tc) → Buf (Elt Ideal) ((c : Thread nD τ).loc b)) (c : Dev nD), (pd1 V c).arrAt 2 cfg1.N = Cert.Net.act1 (V c main_v17) (V c main_v18))
  (hv2 : ∀ (V : (c : Dev nD) → (b : Ref sig .tc) → Buf (Elt Ideal) ((c : Thread nD τ).loc b)) (c : Dev nD), (pd2 V c).arrAt 2 cfg2.N = Cert.Net.mm (V c main_v19) (V c main_arg5))
  (hv3 : ∀ (V : (c : Dev nD) → (b : Ref sig .tc) → Buf (Elt Ideal) ((c : Thread nD τ).loc b)) (c : Dev nD), (pd3 V c).arrAt 2 cfg3.N = Cert.Net.act1 (V c main_v33) (V c main_v34))
  (hv4 : ∀ (V : (c : Dev nD) → (b : Ref sig .tc) → Buf (Elt Ideal) ((c : Thread nD τ).loc b)) (c : Dev nD), (pd4 V c).arrAt 2 cfg4.N = Cert.Net.mm (V c main_v35) (V c main_arg7))
  (hv5 : ∀ (V : (c : Dev nD) → (b : Ref sig .tc) → Buf (Elt Ideal) ((c : Thread nD τ).loc b)) (c : Dev nD), (pd5 V c).arrAt 2 cfg5.N = Cert.Net.act1 (V c main_v49) (V c main_v50))
  (hv6 : ∀ (V : (c : Dev nD) → (b : Ref sig .tc) → Buf (Elt Ideal) ((c : Thread nD τ).loc b)) (c : Dev nD), (pd6 V c).arrAt 3 cfg6.N = Cert.Net.dense1 (V c main_v52) (V c main_arg9) (V c main_v53)) :
    θ_run defs (onTc (τ := τ) (main (F := Ideal))) ⟨m, fun _ => 0, ρ⟩ (fun r => ∀ c : Dev nD,
      r.2.mem ((c.tc : Thread nD τ).loc main_v54)
        = Cert.Net.net (aggK (m ((c : Thread nD τ).loc main_arg1)) (m ((c : Thread nD τ).loc main_arg2))) catK (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v54 (by decide))).trans (out_at12 m hv0 hv1 hv2 hv3 hv4 hv5 hv6 c),
    (h c _ (mem_uc main_arg0 (by decide))).trans (W12_launch m c main_arg0 (by decide) (by decide) (by decide) (by decide) (by decide) (by decide)),
    (h c _ (mem_uc main_arg1 (by decide))).trans (W12_launch m c main_arg1 (by decide) (by decide) (by decide) (by decide) (by decide) (by decide)),
    (h c _ (mem_uc main_arg2 (by decide))).trans (W12_launch m c main_arg2 (by decide) (by decide) (by decide) (by decide) (by decide) (by decide)),
    (h c _ (mem_uc main_arg3 (by decide))).trans (W12_launch m c main_arg3 (by decide) (by decide) (by decide) (by decide) (by decide) (by decide)),
    (h c _ (mem_uc main_arg4 (by decide))).trans (W12_launch m c main_arg4 (by decide) (by decide) (by decide) (by decide) (by decide) (by decide)),
    (h c _ (mem_uc main_arg5 (by decide))).trans (W12_launch m c main_arg5 (by decide) (by decide) (by decide) (by decide) (by decide) (by decide)),
    (h c _ (mem_uc main_arg6 (by decide))).trans (W12_launch m c main_arg6 (by decide) (by decide) (by decide) (by decide) (by decide) (by decide)),
    (h c _ (mem_uc main_arg7 (by decide))).trans (W12_launch m c main_arg7 (by decide) (by decide) (by decide) (by decide) (by decide) (by decide)),
    (h c _ (mem_uc main_arg8 (by decide))).trans (W12_launch m c main_arg8 (by decide) (by decide) (by decide) (by decide) (by decide) (by decide)),
    (h c _ (mem_uc main_arg9 (by decide))).trans (W12_launch m c main_arg9 (by decide) (by decide) (by decide) (by decide) (by decide) (by decide)),
    (h c _ (mem_uc main_arg10 (by decide))).trans (W12_launch m c main_arg10 (by decide) (by decide) (by decide) (by decide) (by decide) (by decide))⟩)
    (run_all (F := Ideal) m ρ)

end Cert.KernelIdeal.NetValue

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.IdealVal0.lean ====
/-
  The value of the first projection's tiled region, at the extended reals: the region multiplies a [100000, 64] array
  by a [64, 64] weight matrix in ten blocks of 10000 rows, and leaves in its output array the whole product, entry
  (r, j) the sum over k of x (r, k) · w (k, j).

  Each grid point t multiplies rows 10000·t … 10000·t + 9999 by the whole weight matrix and writes the result back to
  the same rows of the output; the ten row blocks cover the array, so the array ends holding the product.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The projection's arithmetic on whole blocks, read at (p, q): the sum over k of x0 (p, k) · x1 (k, q) (the narrowing of
    the operands is the identity on the extended reals, the accumulator starts at zero). -/
theorem pay0_apply (x0 : Vec Ideal S10000x64 .f32) (x1 : Vec Ideal S64x64 .f32) (p : Fin 10000) (q : Fin 64) :
    (k0_pay1 x0 x1 : FVec Ideal S10000x64 .f32) (ix2 p q) = ∑ k : Fin 64, x0 (ix2 p k) * x1 (ix2 k q) := by
  unfold k0_pay1
  exact Cert.LibDense.matmul_zero_plain dot_S10000x64_S64x64_S10000x64_1_0_0_1_n_n_wf none
    (truncf .bf16 x0 bitsLt_bf16_f32) (truncf .bf16 x1 bitsLt_bf16_f32) p q

/-- The block index of each window at every grid point: the left operand and the output move down one block of rows per
    point, the weight matrix stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a written-back block against the whole-array product: when row (j 0) of the left block is row (i 0)
    of the left array and column (j 1) of the right block is column (i 1) of the right array, the block's product at j
    is the arrays' product at i. -/
theorem mm_point0 (A : S100000x64.Idx → EReal) (W : S64x64.Idx → EReal)
    (x0 : Vec Ideal S10000x64 .f32) (x1 : Vec Ideal S64x64 .f32) (j : S10000x64.Idx) (i : S100000x64.Idx)
    (h0 : ∀ k : Fin 64, x0 (ix2 (j 0) k) = A (ix2 (i 0) k))
    (h1 : ∀ k : Fin 64, x1 (ix2 k (j 1)) = W (ix2 k (i 1))) :
    (k0_pay1 x0 x1 : FVec Ideal S10000x64 .f32) j = Cert.Net.mm (n := 100000) (K := 64) (N := 64) A W i := by
  refine (congrArg (k0_pay1 x0 x1 : FVec Ideal S10000x64 .f32) (eq_ix2 j)).trans ?_
  refine (pay0_apply x0 x1 (j 0) (j 1)).trans ?_
  show _ = ∑ k : Fin 64, A (ix2 (i 0) k) * W (ix2 k (i 1))
  exact Finset.sum_congr rfl fun k _ => congrArg₂ (· * ·) (h0 k) (h1 k)

/-- What grid point t writes back is block t of the whole-array product: row y of the block is row 10000·t + y of the
    array, and the weight block is the whole weight matrix. -/
theorem flushed0_eq (c : Dev nD) (t : Fin cfg0.N) :
    (pd0 V c).flushed 2 t = ((cfg0.win 2).blk t).view.read (Elt Ideal)
      (Cert.Net.mm (n := 100000) (K := 64) (N := 64) (V c main_arg0) (V c main_arg3)) := by
  show (cfg0.win 2).cut (grid0.coords t) ((pd0 V c).after 2 t) = _
  rw [pd0_after_2]
  unfold res0
  rw [View.canon_unit_zero zero_offsets0]
  simp only [View.ld_unit_zero (S := S10000x64) zero_offsets0, View.ld_unit_zero (S := S64x64) zero_offsets0]
  obtain ⟨e0, e1, e2, e3, e4, e5⟩ := idx_facts0 t
  funext y
  refine mm_point0 (V c main_arg0) (V c main_arg3) (blk0 V c 0 t) (blk0 V c 1 t)
    ((cfg0.win 2).xinj (grid0.coords t) y) (((cfg0.win 2).blk t).view.emb y) (fun k => ?_) (fun k => ?_)
  · show V c main_arg0 (((cfg0.win 0).blk t).view.emb (ix2 ((cfg0.win 2).xinj (grid0.coords t) y 0) k))
      = V c main_arg0 (ix2 (((cfg0.win 2).blk t).view.emb y 0) k)
    congr 1
    funext a
    apply Fin.ext
    match a with
    | ⟨0, _⟩ => show win0_0.index t (0 : Fin 2) * 10000 + 1 * (y 0).val = win0_2.index t (0 : Fin 2) * 10000 + 1 * (y 0).val; rw [e0, e4]
    | ⟨1, _⟩ => show win0_0.index t (1 : Fin 2) * 64 + 1 * k.val = k.val; rw [e1]; omega
  · show V c main_arg3 (((cfg0.win 1).blk t).view.emb (ix2 k ((cfg0.win 2).xinj (grid0.coords t) y 1)))
      = V c main_arg3 (ix2 k (((cfg0.win 2).blk t).view.emb y 1))
    congr 1
    funext a
    apply Fin.ext
    match a with
    | ⟨0, _⟩ => show win0_1.index t (0 : Fin 2) * 64 + 1 * k.val = k.val; rw [e2]; omega
    | ⟨1, _⟩ => show win0_1.index t (1 : Fin 2) * 64 + 1 * (y 1).val = win0_2.index t (1 : Fin 2) * 64 + 1 * (y 1).val; rw [e3, e5]

/-- An index of the array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- Row r of the array lies in the block of point r / 10000: the ten blocks of 10000 rows cover the 100000 rows. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]
    omega

/-- The first projection's output array after its region: the node features times the first weight matrix. -/
theorem val0 (c : Dev nD) : (pd0 V c).arrAt 2 cfg0.N
    = Cert.Net.mm (n := 100000) (K := 64) (N := 64) (V c main_arg0) (V c main_arg3) :=
  (pd0 V c).arrAt_eq_of_cover 2 (Cert.Net.mm (n := 100000) (K := 64) (N := 64) (V c main_arg0) (V c main_arg3))
    (fun t _ => flushed0_eq V c t) cover0

end Cert.KernelIdeal.TileValue

end
-- ==== Proof.IdealVal1.lean ====
/-
  The value of the first activation's tiled region, at the extended reals: the region adds a [1, 64] bias row to every
  row of a [100000, 64] array and mixes the sum s with its positive part, ½ · s + ½ · max (s, 0), in ten blocks of
  10000 rows, and leaves in its output array that function of the whole input array and the bias row.

  Each grid point t works on rows 10000·t … 10000·t + 9999 and writes the result back to the same rows of the output;
  the ten row blocks cover the array, so the array ends holding the activation of the whole input.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The activation's arithmetic on whole blocks, read at (p, q): with s = x0 (p, q) + x1 (0, q), half of s plus half
    of the larger of s and zero (the bias row is spread down the rows, the two constants over the block). -/
theorem pay1_apply (x0 : Vec Ideal S10000x64 .f32) (x1 : Vec Ideal S1x64 .f32) (p : Fin 10000) (q : Fin 64) :
    (k1_pay1 x0 x1 : FVec Ideal S10000x64 .f32) (ix2 p q)
      = Cert.Net.half * (x0 (ix2 p q) + x1 (ix2 (0 : Fin 1) q))
        + Cert.Net.half * max (x0 (ix2 p q) + x1 (ix2 (0 : Fin 1) q)) Cert.Net.zero := by
  unfold k1_pay1
  have hb : (broadcastTo S10000x64 (shapeCast S1x64 x1 shapeCasts_S1x64_S1x64) broadcasts_S1x64_S10000x64 : FVec Ideal S10000x64 .f32) (ix2 p q)
      = x1 (ix2 (0 : Fin 1) q) := by
    rw [shapeCast_self]
    exact broadcastTo_1b_ab_apply x1 broadcasts_S1x64_S10000x64 p q
  have hs : (shapeCast S10000x64 x0 shapeCasts_S10000x64_S10000x64 : FVec Ideal S10000x64 .f32) = x0 := shapeCast_self x0 _
  show Cert.Net.half * ((shapeCast S10000x64 x0 shapeCasts_S10000x64_S10000x64 : FVec Ideal S10000x64 .f32) (ix2 p q)
        + (broadcastTo S10000x64 (shapeCast S1x64 x1 shapeCasts_S1x64_S1x64) broadcasts_S1x64_S10000x64 : FVec Ideal S10000x64 .f32) (ix2 p q))
      + Cert.Net.half * max ((shapeCast S10000x64 x0 shapeCasts_S10000x64_S10000x64 : FVec Ideal S10000x64 .f32) (ix2 p q)
        + (broadcastTo S10000x64 (shapeCast S1x64 x1 shapeCasts_S1x64_S1x64) broadcasts_S1x64_S10000x64 : FVec Ideal S10000x64 .f32) (ix2 p q)) Cert.Net.zero = _
  rw [hb, hs]

/-- The block index of each window at every grid point: the input and the output move down one block of rows per point,
    the bias row stays at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a written-back block against the whole-array activation: when the input block's entry j is the input
    array's entry i and the bias block at column (j 1) is the bias row at column (i 1), the block's activation at j is
    the arrays' at i. -/
theorem act_point1 (A : S100000x64.Idx → EReal) (B : S1x64.Idx → EReal)
    (x0 : Vec Ideal S10000x64 .f32) (x1 : Vec Ideal S1x64 .f32) (j : S10000x64.Idx) (i : S100000x64.Idx)
    (h0 : x0 (ix2 (j 0) (j 1)) = A i)
    (h1 : x1 (ix2 (0 : Fin 1) (j 1)) = B (ix2 (0 : Fin 1) (i 1))) :
    (k1_pay1 x0 x1 : FVec Ideal S10000x64 .f32) j = Cert.Net.act1 (n := 100000) (N := 64) A B i := by
  refine (congrArg (k1_pay1 x0 x1 : FVec Ideal S10000x64 .f32) (eq_ix2 j)).trans ?_
  refine (pay1_apply x0 x1 (j 0) (j 1)).trans ?_
  show _ = Cert.Net.half * (A i + B (ix2 (0 : Fin 1) (i 1))) + Cert.Net.half * max (A i + B (ix2 (0 : Fin 1) (i 1))) Cert.Net.zero
  rw [h0, h1]

/-- What grid point t writes back is block t of the whole-array activation: entry y of the block is entry
    (10000·t + y 0, y 1) of the array, and the bias block is the whole bias row. -/
theorem flushed1_eq (c : Dev nD) (t : Fin cfg1.N) :
    (pd1 V c).flushed 2 t = ((cfg1.win 2).blk t).view.read (Elt Ideal)
      (Cert.Net.act1 (n := 100000) (N := 64) (V c main_v17) (V c main_v18)) := by
  show (cfg1.win 2).cut (grid1.coords t) ((pd1 V c).after 2 t) = _
  rw [pd1_after_2]
  unfold res1
  rw [View.canon_unit_zero zero_offsets1]
  simp only [View.ld_unit_zero (S := S10000x64) zero_offsets1, View.ld_unit_zero (S := S1x64) zero_offsets1]
  obtain ⟨e0, e1, e2, e3, e4, e5⟩ := idx_facts1 t
  funext y
  refine act_point1 (V c main_v17) (V c main_v18) (blk1 V c 0 t) (blk1 V c 1 t)
    ((cfg1.win 2).xinj (grid1.coords t) y) (((cfg1.win 2).blk t).view.emb y) ?_ ?_
  · show V c main_v17 (((cfg1.win 0).blk t).view.emb (ix2 ((cfg1.win 2).xinj (grid1.coords t) y 0) ((cfg1.win 2).xinj (grid1.coords t) y 1)))
      = V c main_v17 (((cfg1.win 2).blk t).view.emb y)
    congr 1
    funext a
    apply Fin.ext
    match a with
    | ⟨0, _⟩ => show win1_0.index t (0 : Fin 2) * 10000 + 1 * (y 0).val = win1_2.index t (0 : Fin 2) * 10000 + 1 * (y 0).val; rw [e0, e4]
    | ⟨1, _⟩ => show win1_0.index t (1 : Fin 2) * 64 + 1 * (y 1).val = win1_2.index t (1 : Fin 2) * 64 + 1 * (y 1).val; rw [e1, e5]
  · show V c main_v18 (((cfg1.win 1).blk t).view.emb (ix2 (0 : Fin 1) ((cfg1.win 2).xinj (grid1.coords t) y 1)))
      = V c main_v18 (ix2 (0 : Fin 1) (((cfg1.win 2).blk t).view.emb y 1))
    congr 1
    funext a
    apply Fin.ext
    match a with
    | ⟨0, _⟩ => show win1_1.index t (0 : Fin 2) * 1 + 1 * 0 = 0; rw [e2]
    | ⟨1, _⟩ => show win1_1.index t (1 : Fin 2) * 64 + 1 * (y 1).val = win1_2.index t (1 : Fin 2) * 64 + 1 * (y 1).val; rw [e3, e5]

/-- An index of the array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v19).slice (win1_2.rect t)).set ↔ _
  rw [View.set_slice_whole, Rect.mem_set_unit]
  exact Iff.rfl

/-- Row r of the array lies in the block of point r / 10000: the ten blocks of 10000 rows cover the 100000 rows. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨e0, e1, e2, e3, e4, e5⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]
    omega

/-- The first activation's output array after its region: the bias and mix of the first aggregated array. -/
theorem val1 (c : Dev nD) : (pd1 V c).arrAt 2 cfg1.N
    = Cert.Net.act1 (n := 100000) (N := 64) (V c main_v17) (V c main_v18) :=
  (pd1 V c).arrAt_eq_of_cover 2 (Cert.Net.act1 (n := 100000) (N := 64) (V c main_v17) (V c main_v18))
    (fun t _ => flushed1_eq V c t) cover1

end Cert.KernelIdeal.TileValue

end
-- ==== Proof.IdealVal2.lean ====
/-
  The value of the second projection's tiled region, at the extended reals: the region multiplies a [100000, 64] array
  by a [64, 64] weight matrix in ten blocks of 10000 rows, and leaves in its output array the whole product, entry
  (r, j) the sum over k of x (r, k) · w (k, j).

  Each grid point t multiplies rows 10000·t … 10000·t + 9999 by the whole weight matrix and writes the result back to
  the same rows of the output; the ten row blocks cover the array, so the array ends holding the product.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The projection's arithmetic on whole blocks, read at (p, q): the sum over k of x0 (p, k) · x1 (k, q) (the narrowing of
    the operands is the identity on the extended reals, the accumulator starts at zero). -/
theorem pay2_apply (x0 : Vec Ideal S10000x64 .f32) (x1 : Vec Ideal S64x64 .f32) (p : Fin 10000) (q : Fin 64) :
    (k2_pay1 x0 x1 : FVec Ideal S10000x64 .f32) (ix2 p q) = ∑ k : Fin 64, x0 (ix2 p k) * x1 (ix2 k q) := by
  unfold k2_pay1
  have hs : (shapeCast S10000x64 x0 shapeCasts_S10000x64_S10000x64 : FVec Ideal S10000x64 .f32) = x0 := shapeCast_self x0 _
  refine (Cert.LibDense.matmul_zero_plain dot_S10000x64_S64x64_S10000x64_1_0_0_1_n_n_wf none
    (truncf .bf16 (shapeCast S10000x64 x0 shapeCasts_S10000x64_S10000x64) bitsLt_bf16_f32) (truncf .bf16 x1 bitsLt_bf16_f32) p q).trans ?_
  rw [hs]
  rfl

/-- The block index of each window at every grid point: the left operand and the output move down one block of rows per
    point, the weight matrix stays at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a written-back block against the whole-array product: when row (j 0) of the left block is row (i 0)
    of the left array and column (j 1) of the right block is column (i 1) of the right array, the block's product at j
    is the arrays' product at i. -/
theorem mm_point2 (A : S100000x64.Idx → EReal) (W : S64x64.Idx → EReal)
    (x0 : Vec Ideal S10000x64 .f32) (x1 : Vec Ideal S64x64 .f32) (j : S10000x64.Idx) (i : S100000x64.Idx)
    (h0 : ∀ k : Fin 64, x0 (ix2 (j 0) k) = A (ix2 (i 0) k))
    (h1 : ∀ k : Fin 64, x1 (ix2 k (j 1)) = W (ix2 k (i 1))) :
    (k2_pay1 x0 x1 : FVec Ideal S10000x64 .f32) j = Cert.Net.mm (n := 100000) (K := 64) (N := 64) A W i := by
  refine (congrArg (k2_pay1 x0 x1 : FVec Ideal S10000x64 .f32) (eq_ix2 j)).trans ?_
  refine (pay2_apply x0 x1 (j 0) (j 1)).trans ?_
  show _ = ∑ k : Fin 64, A (ix2 (i 0) k) * W (ix2 k (i 1))
  exact Finset.sum_congr rfl fun k _ => congrArg₂ (· * ·) (h0 k) (h1 k)

/-- What grid point t writes back is block t of the whole-array product: row y of the block is row 10000·t + y of the
    array, and the weight block is the whole weight matrix. -/
theorem flushed2_eq (c : Dev nD) (t : Fin cfg2.N) :
    (pd2 V c).flushed 2 t = ((cfg2.win 2).blk t).view.read (Elt Ideal)
      (Cert.Net.mm (n := 100000) (K := 64) (N := 64) (V c main_v19) (V c main_arg5)) := by
  show (cfg2.win 2).cut (grid2.coords t) ((pd2 V c).after 2 t) = _
  rw [pd2_after_2]
  unfold res2
  rw [View.canon_unit_zero zero_offsets2]
  simp only [View.ld_unit_zero (S := S10000x64) zero_offsets2, View.ld_unit_zero (S := S64x64) zero_offsets2]
  obtain ⟨e0, e1, e2, e3, e4, e5⟩ := idx_facts2 t
  funext y
  refine mm_point2 (V c main_v19) (V c main_arg5) (blk2 V c 0 t) (blk2 V c 1 t)
    ((cfg2.win 2).xinj (grid2.coords t) y) (((cfg2.win 2).blk t).view.emb y) (fun k => ?_) (fun k => ?_)
  · show V c main_v19 (((cfg2.win 0).blk t).view.emb (ix2 ((cfg2.win 2).xinj (grid2.coords t) y 0) k))
      = V c main_v19 (ix2 (((cfg2.win 2).blk t).view.emb y 0) k)
    congr 1
    funext a
    apply Fin.ext
    match a with
    | ⟨0, _⟩ => show win2_0.index t (0 : Fin 2) * 10000 + 1 * (y 0).val = win2_2.index t (0 : Fin 2) * 10000 + 1 * (y 0).val; rw [e0, e4]
    | ⟨1, _⟩ => show win2_0.index t (1 : Fin 2) * 64 + 1 * k.val = k.val; rw [e1]; omega
  · show V c main_arg5 (((cfg2.win 1).blk t).view.emb (ix2 k ((cfg2.win 2).xinj (grid2.coords t) y 1)))
      = V c main_arg5 (ix2 k (((cfg2.win 2).blk t).view.emb y 1))
    congr 1
    funext a
    apply Fin.ext
    match a with
    | ⟨0, _⟩ => show win2_1.index t (0 : Fin 2) * 64 + 1 * k.val = k.val; rw [e2]; omega
    | ⟨1, _⟩ => show win2_1.index t (1 : Fin 2) * 64 + 1 * (y 1).val = win2_2.index t (1 : Fin 2) * 64 + 1 * (y 1).val; rw [e3, e5]

/-- An index of the array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v20).slice (win2_2.rect t)).set ↔ _
  rw [View.set_slice_whole, Rect.mem_set_unit]
  exact Iff.rfl

/-- Row r of the array lies in the block of point r / 10000: the ten blocks of 10000 rows cover the 100000 rows. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨e0, e1, e2, e3, e4, e5⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]
    omega

/-- The second projection's output array after its region: the first layer's output times the second weight matrix. -/
theorem val2 (c : Dev nD) : (pd2 V c).arrAt 2 cfg2.N
    = Cert.Net.mm (n := 100000) (K := 64) (N := 64) (V c main_v19) (V c main_arg5) :=
  (pd2 V c).arrAt_eq_of_cover 2 (Cert.Net.mm (n := 100000) (K := 64) (N := 64) (V c main_v19) (V c main_arg5))
    (fun t _ => flushed2_eq V c t) cover2

end Cert.KernelIdeal.TileValue

end
-- ==== Proof.IdealVal3.lean ====
/-
  The value of the second activation's tiled region, at the extended reals: the region adds a [1, 64] bias row to every
  row of a [100000, 64] array and mixes the sum s with its positive part, ½ · s + ½ · max (s, 0), in ten blocks of
  10000 rows, and leaves in its output array that function of the whole input array and the bias row.

  Each grid point t works on rows 10000·t … 10000·t + 9999 and writes the result back to the same rows of the output;
  the ten row blocks cover the array, so the array ends holding the activation of the whole input.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The activation's arithmetic on whole blocks, read at (p, q): with s = x0 (p, q) + x1 (0, q), half of s plus half
    of the larger of s and zero (the bias row is spread down the rows, the two constants over the block). -/
theorem pay3_apply (x0 : Vec Ideal S10000x64 .f32) (x1 : Vec Ideal S1x64 .f32) (p : Fin 10000) (q : Fin 64) :
    (k3_pay1 x0 x1 : FVec Ideal S10000x64 .f32) (ix2 p q)
      = Cert.Net.half * (x0 (ix2 p q) + x1 (ix2 (0 : Fin 1) q))
        + Cert.Net.half * max (x0 (ix2 p q) + x1 (ix2 (0 : Fin 1) q)) Cert.Net.zero := by
  unfold k3_pay1
  have hb : (broadcastTo S10000x64 (shapeCast S1x64 x1 shapeCasts_S1x64_S1x64) broadcasts_S1x64_S10000x64 : FVec Ideal S10000x64 .f32) (ix2 p q)
      = x1 (ix2 (0 : Fin 1) q) := by
    rw [shapeCast_self]
    exact broadcastTo_1b_ab_apply x1 broadcasts_S1x64_S10000x64 p q
  have hs : (shapeCast S10000x64 x0 shapeCasts_S10000x64_S10000x64 : FVec Ideal S10000x64 .f32) = x0 := shapeCast_self x0 _
  show Cert.Net.half * ((shapeCast S10000x64 x0 shapeCasts_S10000x64_S10000x64 : FVec Ideal S10000x64 .f32) (ix2 p q)
        + (broadcastTo S10000x64 (shapeCast S1x64 x1 shapeCasts_S1x64_S1x64) broadcasts_S1x64_S10000x64 : FVec Ideal S10000x64 .f32) (ix2 p q))
      + Cert.Net.half * max ((shapeCast S10000x64 x0 shapeCasts_S10000x64_S10000x64 : FVec Ideal S10000x64 .f32) (ix2 p q)
        + (broadcastTo S10000x64 (shapeCast S1x64 x1 shapeCasts_S1x64_S1x64) broadcasts_S1x64_S10000x64 : FVec Ideal S10000x64 .f32) (ix2 p q)) Cert.Net.zero = _
  rw [hb, hs]

/-- The block index of each window at every grid point: the input and the output move down one block of rows per point,
    the bias row stays at its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of a written-back block against the whole-array activation: when the input block's entry j is the input
    array's entry i and the bias block at column (j 1) is the bias row at column (i 1), the block's activation at j is
    the arrays' at i. -/
theorem act_point3 (A : S100000x64.Idx → EReal) (B : S1x64.Idx → EReal)
    (x0 : Vec Ideal S10000x64 .f32) (x1 : Vec Ideal S1x64 .f32) (j : S10000x64.Idx) (i : S100000x64.Idx)
    (h0 : x0 (ix2 (j 0) (j 1)) = A i)
    (h1 : x1 (ix2 (0 : Fin 1) (j 1)) = B (ix2 (0 : Fin 1) (i 1))) :
    (k3_pay1 x0 x1 : FVec Ideal S10000x64 .f32) j = Cert.Net.act1 (n := 100000) (N := 64) A B i := by
  refine (congrArg (k3_pay1 x0 x1 : FVec Ideal S10000x64 .f32) (eq_ix2 j)).trans ?_
  refine (pay3_apply x0 x1 (j 0) (j 1)).trans ?_
  show _ = Cert.Net.half * (A i + B (ix2 (0 : Fin 1) (i 1))) + Cert.Net.half * max (A i + B (ix2 (0 : Fin 1) (i 1))) Cert.Net.zero
  rw [h0, h1]

/-- What grid point t writes back is block t of the whole-array activation: entry y of the block is entry
    (10000·t + y 0, y 1) of the array, and the bias block is the whole bias row. -/
theorem flushed3_eq (c : Dev nD) (t : Fin cfg3.N) :
    (pd3 V c).flushed 2 t = ((cfg3.win 2).blk t).view.read (Elt Ideal)
      (Cert.Net.act1 (n := 100000) (N := 64) (V c main_v33) (V c main_v34)) := by
  show (cfg3.win 2).cut (grid3.coords t) ((pd3 V c).after 2 t) = _
  rw [pd3_after_2]
  unfold res3
  rw [View.canon_unit_zero zero_offsets3]
  simp only [View.ld_unit_zero (S := S10000x64) zero_offsets3, View.ld_unit_zero (S := S1x64) zero_offsets3]
  obtain ⟨e0, e1, e2, e3, e4, e5⟩ := idx_facts3 t
  funext y
  refine act_point3 (V c main_v33) (V c main_v34) (blk3 V c 0 t) (blk3 V c 1 t)
    ((cfg3.win 2).xinj (grid3.coords t) y) (((cfg3.win 2).blk t).view.emb y) ?_ ?_
  · show V c main_v33 (((cfg3.win 0).blk t).view.emb (ix2 ((cfg3.win 2).xinj (grid3.coords t) y 0) ((cfg3.win 2).xinj (grid3.coords t) y 1)))
      = V c main_v33 (((cfg3.win 2).blk t).view.emb y)
    congr 1
    funext a
    apply Fin.ext
    match a with
    | ⟨0, _⟩ => show win3_0.index t (0 : Fin 2) * 10000 + 1 * (y 0).val = win3_2.index t (0 : Fin 2) * 10000 + 1 * (y 0).val; rw [e0, e4]
    | ⟨1, _⟩ => show win3_0.index t (1 : Fin 2) * 64 + 1 * (y 1).val = win3_2.index t (1 : Fin 2) * 64 + 1 * (y 1).val; rw [e1, e5]
  · show V c main_v34 (((cfg3.win 1).blk t).view.emb (ix2 (0 : Fin 1) ((cfg3.win 2).xinj (grid3.coords t) y 1)))
      = V c main_v34 (ix2 (0 : Fin 1) (((cfg3.win 2).blk t).view.emb y 1))
    congr 1
    funext a
    apply Fin.ext
    match a with
    | ⟨0, _⟩ => show win3_1.index t (0 : Fin 2) * 1 + 1 * 0 = 0; rw [e2]
    | ⟨1, _⟩ => show win3_1.index t (1 : Fin 2) * 64 + 1 * (y 1).val = win3_2.index t (1 : Fin 2) * 64 + 1 * (y 1).val; rw [e3, e5]

/-- An index of the array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v35).slice (win3_2.rect t)).set ↔ _
  rw [View.set_slice_whole, Rect.mem_set_unit]
  exact Iff.rfl

/-- Row r of the array lies in the block of point r / 10000: the ten blocks of 10000 rows cover the 100000 rows. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨e0, e1, e2, e3, e4, e5⟩ := idx_facts3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]
    omega

/-- The second activation's output array after its region: the bias and mix of the second aggregated array. -/
theorem val3 (c : Dev nD) : (pd3 V c).arrAt 2 cfg3.N
    = Cert.Net.act1 (n := 100000) (N := 64) (V c main_v33) (V c main_v34) :=
  (pd3 V c).arrAt_eq_of_cover 2 (Cert.Net.act1 (n := 100000) (N := 64) (V c main_v33) (V c main_v34))
    (fun t _ => flushed3_eq V c t) cover3

end Cert.KernelIdeal.TileValue

end
-- ==== Proof.IdealVal4.lean ====
/-
  The value of the third projection's tiled region, at the extended reals: the region multiplies a [100000, 64] array
  by a [64, 64] weight matrix in ten blocks of 10000 rows, and leaves in its output array the whole product, entry
  (r, j) the sum over k of x (r, k) · w (k, j).

  Each grid point t multiplies rows 10000·t … 10000·t + 9999 by the whole weight matrix and writes the result back to
  the same rows of the output; the ten row blocks cover the array, so the array ends holding the product.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets4 : (![0, 0] : Fin 2 → Nat) = fun _ => 0 := funext fun a => by fin_cases a <;> rfl

/-- The projection's arithmetic on whole blocks, read at (p, q): the sum over k of x0 (p, k) · x1 (k, q) (the narrowing of
    the operands is the identity on the extended reals, the accumulator starts at zero). -/
theorem pay4_apply (x0 : Vec Ideal S10000x64 .f32) (x1 : Vec Ideal S64x64 .f32) (p : Fin 10000) (q : Fin 64) :
    (k4_pay1 x0 x1 : FVec Ideal S10000x64 .f32) (ix2 p q) = ∑ k : Fin 64, x0 (ix2 p k) * x1 (ix2 k q) := by
  unfold k4_pay1
  have hs : (shapeCast S10000x64 x0 shapeCasts_S10000x64_S10000x64 : FVec Ideal S10000x64 .f32) = x0 := shapeCast_self x0 _
  refine (Cert.LibDense.matmul_zero_plain dot_S10000x64_S64x64_S10000x64_1_0_0_1_n_n_wf none
    (truncf .bf16 (shapeCast S10000x64 x0 shapeCasts_S10000x64_S10000x64) bitsLt_bf16_f32) (truncf .bf16 x1 bitsLt_bf16_f32) p q).trans ?_
  rw [hs]
  rfl

/-- The block index of each window at every grid point: the left operand and the output move down one block of rows per
    point, the weight matrix stays at its one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One entry of a written-back block against the whole-array product: when row (j 0) of the left block is row (i 0)
    of the left array and column (j 1) of the right block is column (i 1) of the right array, the block's product at j
    is the arrays' product at i. -/
theorem mm_point4 (A : S100000x64.Idx → EReal) (W : S64x64.Idx → EReal)
    (x0 : Vec Ideal S10000x64 .f32) (x1 : Vec Ideal S64x64 .f32) (j : S10000x64.Idx) (i : S100000x64.Idx)
    (h0 : ∀ k : Fin 64, x0 (ix2 (j 0) k) = A (ix2 (i 0) k))
    (h1 : ∀ k : Fin 64, x1 (ix2 k (j 1)) = W (ix2 k (i 1))) :
    (k4_pay1 x0 x1 : FVec Ideal S10000x64 .f32) j = Cert.Net.mm (n := 100000) (K := 64) (N := 64) A W i := by
  refine (congrArg (k4_pay1 x0 x1 : FVec Ideal S10000x64 .f32) (eq_ix2 j)).trans ?_
  refine (pay4_apply x0 x1 (j 0) (j 1)).trans ?_
  show _ = ∑ k : Fin 64, A (ix2 (i 0) k) * W (ix2 k (i 1))
  exact Finset.sum_congr rfl fun k _ => congrArg₂ (· * ·) (h0 k) (h1 k)

/-- What grid point t writes back is block t of the whole-array product: row y of the block is row 10000·t + y of the
    array, and the weight block is the whole weight matrix. -/
theorem flushed4_eq (c : Dev nD) (t : Fin cfg4.N) :
    (pd4 V c).flushed 2 t = ((cfg4.win 2).blk t).view.read (Elt Ideal)
      (Cert.Net.mm (n := 100000) (K := 64) (N := 64) (V c main_v35) (V c main_arg7)) := by
  show (cfg4.win 2).cut (grid4.coords t) ((pd4 V c).after 2 t) = _
  rw [pd4_after_2]
  unfold res4
  rw [View.canon_unit_zero zero_offsets4]
  simp only [View.ld_unit_zero (S := S10000x64) zero_offsets4, View.ld_unit_zero (S := S64x64) zero_offsets4]
  obtain ⟨e0, e1, e2, e3, e4, e5⟩ := idx_facts4 t
  funext y
  refine mm_point4 (V c main_v35) (V c main_arg7) (blk4 V c 0 t) (blk4 V c 1 t)
    ((cfg4.win 2).xinj (grid4.coords t) y) (((cfg4.win 2).blk t).view.emb y) (fun k => ?_) (fun k => ?_)
  · show V c main_v35 (((cfg4.win 0).blk t).view.emb (ix2 ((cfg4.win 2).xinj (grid4.coords t) y 0) k))
      = V c main_v35 (ix2 (((cfg4.win 2).blk t).view.emb y 0) k)
    congr 1
    funext a
    apply Fin.ext
    match a with
    | ⟨0, _⟩ => show win4_0.index t (0 : Fin 2) * 10000 + 1 * (y 0).val = win4_2.index t (0 : Fin 2) * 10000 + 1 * (y 0).val; rw [e0, e4]
    | ⟨1, _⟩ => show win4_0.index t (1 : Fin 2) * 64 + 1 * k.val = k.val; rw [e1]; omega
  · show V c main_arg7 (((cfg4.win 1).blk t).view.emb (ix2 k ((cfg4.win 2).xinj (grid4.coords t) y 1)))
      = V c main_arg7 (ix2 k (((cfg4.win 2).blk t).view.emb y 1))
    congr 1
    funext a
    apply Fin.ext
    match a with
    | ⟨0, _⟩ => show win4_1.index t (0 : Fin 2) * 64 + 1 * k.val = k.val; rw [e2]; omega
    | ⟨1, _⟩ => show win4_1.index t (1 : Fin 2) * 64 + 1 * (y 1).val = win4_2.index t (1 : Fin 2) * 64 + 1 * (y 1).val; rw [e3, e5]

/-- An index of the array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v36).slice (win4_2.rect t)).set ↔ _
  rw [View.set_slice_whole, Rect.mem_set_unit]
  exact Iff.rfl

/-- Row r of the array lies in the block of point r / 10000: the ten blocks of 10000 rows cover the 100000 rows. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  have ht : (i 0).val / 10000 < cfg4.N := by rw [hN]; omega
  obtain ⟨e0, e1, e2, e3, e4, e5⟩ := idx_facts4 ⟨(i 0).val / 10000, ht⟩
  refine ⟨⟨(i 0).val / 10000, ht⟩, flush4_2 _, ?_⟩
  rw [mem_blk4]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, ht⟩ (1 : Fin 2) * 64 ≤ (i 1).val
      ∧ (i 1).val < win4_2.index ⟨(i 0).val / 10000, ht⟩ (1 : Fin 2) * 64 + 64
    rw [e5]
    omega

/-- The third projection's output array after its region: the second layer's output times the third weight matrix. -/
theorem val4 (c : Dev nD) : (pd4 V c).arrAt 2 cfg4.N
    = Cert.Net.mm (n := 100000) (K := 64) (N := 64) (V c main_v35) (V c main_arg7) :=
  (pd4 V c).arrAt_eq_of_cover 2 (Cert.Net.mm (n := 100000) (K := 64) (N := 64) (V c main_v35) (V c main_arg7))
    (fun t _ => flushed4_eq V c t) cover4

end Cert.KernelIdeal.TileValue

end
-- ==== Proof.IdealVal5.lean ====
/-
  The value of the third activation's tiled region, at the extended reals: the region adds a [1, 64] bias row to every
  row of a [100000, 64] array and mixes the sum s with its positive part, ½ · s + ½ · max (s, 0), in ten blocks of
  10000 rows, and leaves in its output array that function of the whole input array and the bias row.

  Each grid point t works on rows 10000·t … 10000·t + 9999 and writes the result back to the same rows of the output;
  the ten row blocks cover the array, so the array ends holding the activation of the whole input.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets5 : (![0, 0] : Fin 2 → Nat) = fun _ => 0 := funext fun a => by fin_cases a <;> rfl

/-- The activation's arithmetic on whole blocks, read at (p, q): with s = x0 (p, q) + x1 (0, q), half of s plus half
    of the larger of s and zero (the bias row is spread down the rows, the two constants over the block). -/
theorem pay5_apply (x0 : Vec Ideal S10000x64 .f32) (x1 : Vec Ideal S1x64 .f32) (p : Fin 10000) (q : Fin 64) :
    (k5_pay1 x0 x1 : FVec Ideal S10000x64 .f32) (ix2 p q)
      = Cert.Net.half * (x0 (ix2 p q) + x1 (ix2 (0 : Fin 1) q))
        + Cert.Net.half * max (x0 (ix2 p q) + x1 (ix2 (0 : Fin 1) q)) Cert.Net.zero := by
  unfold k5_pay1
  have hb : (broadcastTo S10000x64 (shapeCast S1x64 x1 shapeCasts_S1x64_S1x64) broadcasts_S1x64_S10000x64 : FVec Ideal S10000x64 .f32) (ix2 p q)
      = x1 (ix2 (0 : Fin 1) q) := by
    rw [shapeCast_self]
    exact broadcastTo_1b_ab_apply x1 broadcasts_S1x64_S10000x64 p q
  have hs : (shapeCast S10000x64 x0 shapeCasts_S10000x64_S10000x64 : FVec Ideal S10000x64 .f32) = x0 := shapeCast_self x0 _
  show Cert.Net.half * ((shapeCast S10000x64 x0 shapeCasts_S10000x64_S10000x64 : FVec Ideal S10000x64 .f32) (ix2 p q)
        + (broadcastTo S10000x64 (shapeCast S1x64 x1 shapeCasts_S1x64_S1x64) broadcasts_S1x64_S10000x64 : FVec Ideal S10000x64 .f32) (ix2 p q))
      + Cert.Net.half * max ((shapeCast S10000x64 x0 shapeCasts_S10000x64_S10000x64 : FVec Ideal S10000x64 .f32) (ix2 p q)
        + (broadcastTo S10000x64 (shapeCast S1x64 x1 shapeCasts_S1x64_S1x64) broadcasts_S1x64_S10000x64 : FVec Ideal S10000x64 .f32) (ix2 p q)) Cert.Net.zero = _
  rw [hb, hs]

/-- The block index of each window at every grid point: the input and the output move down one block of rows per point,
    the bias row stays at its one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- One entry of a written-back block against the whole-array activation: when the input block's entry j is the input
    array's entry i and the bias block at column (j 1) is the bias row at column (i 1), the block's activation at j is
    the arrays' at i. -/
theorem act_point5 (A : S100000x64.Idx → EReal) (B : S1x64.Idx → EReal)
    (x0 : Vec Ideal S10000x64 .f32) (x1 : Vec Ideal S1x64 .f32) (j : S10000x64.Idx) (i : S100000x64.Idx)
    (h0 : x0 (ix2 (j 0) (j 1)) = A i)
    (h1 : x1 (ix2 (0 : Fin 1) (j 1)) = B (ix2 (0 : Fin 1) (i 1))) :
    (k5_pay1 x0 x1 : FVec Ideal S10000x64 .f32) j = Cert.Net.act1 (n := 100000) (N := 64) A B i := by
  refine (congrArg (k5_pay1 x0 x1 : FVec Ideal S10000x64 .f32) (eq_ix2 j)).trans ?_
  refine (pay5_apply x0 x1 (j 0) (j 1)).trans ?_
  show _ = Cert.Net.half * (A i + B (ix2 (0 : Fin 1) (i 1))) + Cert.Net.half * max (A i + B (ix2 (0 : Fin 1) (i 1))) Cert.Net.zero
  rw [h0, h1]

/-- What grid point t writes back is block t of the whole-array activation: entry y of the block is entry
    (10000·t + y 0, y 1) of the array, and the bias block is the whole bias row. -/
theorem flushed5_eq (c : Dev nD) (t : Fin cfg5.N) :
    (pd5 V c).flushed 2 t = ((cfg5.win 2).blk t).view.read (Elt Ideal)
      (Cert.Net.act1 (n := 100000) (N := 64) (V c main_v49) (V c main_v50)) := by
  show (cfg5.win 2).cut (grid5.coords t) ((pd5 V c).after 2 t) = _
  rw [pd5_after_2]
  unfold res5
  rw [View.canon_unit_zero zero_offsets5]
  simp only [View.ld_unit_zero (S := S10000x64) zero_offsets5, View.ld_unit_zero (S := S1x64) zero_offsets5]
  obtain ⟨e0, e1, e2, e3, e4, e5⟩ := idx_facts5 t
  funext y
  refine act_point5 (V c main_v49) (V c main_v50) (blk5 V c 0 t) (blk5 V c 1 t)
    ((cfg5.win 2).xinj (grid5.coords t) y) (((cfg5.win 2).blk t).view.emb y) ?_ ?_
  · show V c main_v49 (((cfg5.win 0).blk t).view.emb (ix2 ((cfg5.win 2).xinj (grid5.coords t) y 0) ((cfg5.win 2).xinj (grid5.coords t) y 1)))
      = V c main_v49 (((cfg5.win 2).blk t).view.emb y)
    congr 1
    funext a
    apply Fin.ext
    match a with
    | ⟨0, _⟩ => show win5_0.index t (0 : Fin 2) * 10000 + 1 * (y 0).val = win5_2.index t (0 : Fin 2) * 10000 + 1 * (y 0).val; rw [e0, e4]
    | ⟨1, _⟩ => show win5_0.index t (1 : Fin 2) * 64 + 1 * (y 1).val = win5_2.index t (1 : Fin 2) * 64 + 1 * (y 1).val; rw [e1, e5]
  · show V c main_v50 (((cfg5.win 1).blk t).view.emb (ix2 (0 : Fin 1) ((cfg5.win 2).xinj (grid5.coords t) y 1)))
      = V c main_v50 (ix2 (0 : Fin 1) (((cfg5.win 2).blk t).view.emb y 1))
    congr 1
    funext a
    apply Fin.ext
    match a with
    | ⟨0, _⟩ => show win5_1.index t (0 : Fin 2) * 1 + 1 * 0 = 0; rw [e2]
    | ⟨1, _⟩ => show win5_1.index t (1 : Fin 2) * 64 + 1 * (y 1).val = win5_2.index t (1 : Fin 2) * 64 + 1 * (y 1).val; rw [e3, e5]

/-- An index of the array is in point t's block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v51).slice (win5_2.rect t)).set ↔ _
  rw [View.set_slice_whole, Rect.mem_set_unit]
  exact Iff.rfl

/-- Row r of the array lies in the block of point r / 10000: the ten blocks of 10000 rows cover the 100000 rows. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  have ht : (i 0).val / 10000 < cfg5.N := by rw [hN]; omega
  obtain ⟨e0, e1, e2, e3, e4, e5⟩ := idx_facts5 ⟨(i 0).val / 10000, ht⟩
  refine ⟨⟨(i 0).val / 10000, ht⟩, flush5_2 _, ?_⟩
  rw [mem_blk5]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, ht⟩ (1 : Fin 2) * 64 ≤ (i 1).val
      ∧ (i 1).val < win5_2.index ⟨(i 0).val / 10000, ht⟩ (1 : Fin 2) * 64 + 64
    rw [e5]
    omega

/-- The third activation's output array after its region: the bias and mix of the third aggregated array. -/
theorem val5 (c : Dev nD) : (pd5 V c).arrAt 2 cfg5.N
    = Cert.Net.act1 (n := 100000) (N := 64) (V c main_v49) (V c main_v50) :=
  (pd5 V c).arrAt_eq_of_cover 2 (Cert.Net.act1 (n := 100000) (N := 64) (V c main_v49) (V c main_v50))
    (fun t _ => flushed5_eq V c t) cover5

end Cert.KernelIdeal.TileValue

end
-- ==== Proof.IdealVal6.lean ====
/-
  The value of the read-out's tiled region, at the extended reals: the region multiplies the [100000, 192] array of the
  three layers' outputs laid side by side by a [192, 40] weight matrix and adds a [1, 40] bias row to every row, in ten
  blocks of 10000 rows, and leaves in its output array the whole product plus the bias, entry (r, j) the sum over k of
  h (r, k) · w (k, j), plus b (0, j).

  Each grid point t works on rows 10000·t … 10000·t + 9999 with the whole weight matrix and bias row and writes the
  result back to the same rows of the output; the ten row blocks cover the array.
-/
import proofs.«182094_j14697378087202_1_alg».proof.Proof.IdealTiles
import proofs.«182094_j14697378087202_1_alg».proof.Proof.Net
import proofs.«182094_j14697378087202_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TileValue

open Cert.KernelIdeal Cert.KernelIdeal.Gen Cert.KernelIdeal.Tiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets6 : (![0, 0] : Fin 2 → Nat) = fun _ => 0 := funext fun a => by fin_cases a <;> rfl

/-- The read-out's arithmetic on whole blocks, read at (p, q): the sum over k of x0 (p, k) · x1 (k, q), plus x2 (0, q)
    (the narrowing of the operands is the identity on the extended reals, the accumulator starts at zero, the bias row
    is spread down the rows). -/
theorem pay6_apply (x0 : Vec Ideal S10000x192 .f32) (x1 : Vec Ideal S192x40 .f32) (x2 : Vec Ideal S1x40 .f32)
    (p : Fin 10000) (q : Fin 40) :
    (k6_pay1 x0 x1 x2 : FVec Ideal S10000x40 .f32) (ix2 p q)
      = (∑ k : Fin 192, x0 (ix2 p k) * x1 (ix2 k q)) + x2 (ix2 (0 : Fin 1) q) := by
  unfold k6_pay1
  have hs0 : (shapeCast S10000x192 x0 shapeCasts_S10000x192_S10000x192 : FVec Ideal S10000x192 .f32) = x0 := shapeCast_self x0 _
  have hs2 : (shapeCast S1x40 x2 shapeCasts_S1x40_S1x40 : FVec Ideal S1x40 .f32) = x2 := shapeCast_self x2 _
  refine (Cert.LibDense.dense_apply dot_S10000x192_S192x40_S10000x40_1_0_0_1_n_n_wf
    (truncf .bf16 (shapeCast S10000x192 x0 shapeCasts_S10000x192_S10000x192) bitsLt_bf16_f32) (truncf .bf16 x1 bitsLt_bf16_f32)
    (shapeCast S1x40 x2 shapeCasts_S1x40_S1x40) broadcasts_S1x40_S10000x40 p q).trans ?_
  rw [hs0, hs2]
  rfl

/-- The block index of each window at every grid point: the left operand and the output move down one block of rows per
    point, the weight matrix and the bias row stay at their one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- One entry of a written-back block against the whole-array read-out: when row (j 0) of the left block is row (i 0)
    of the left array, column (j 1) of the weight block is column (i 1) of the weight matrix and the bias block at column
    (j 1) is the bias row at column (i 1), the block's read-out at j is the arrays' at i. -/
theorem dense_point6 (A : S100000x192.Idx → EReal) (W : S192x40.Idx → EReal) (B : S1x40.Idx → EReal)
    (x0 : Vec Ideal S10000x192 .f32) (x1 : Vec Ideal S192x40 .f32) (x2 : Vec Ideal S1x40 .f32)
    (j : S10000x40.Idx) (i : S100000x40.Idx)
    (h0 : ∀ k : Fin 192, x0 (ix2 (j 0) k) = A (ix2 (i 0) k))
    (h1 : ∀ k : Fin 192, x1 (ix2 k (j 1)) = W (ix2 k (i 1)))
    (h2 : x2 (ix2 (0 : Fin 1) (j 1)) = B (ix2 (0 : Fin 1) (i 1))) :
    (k6_pay1 x0 x1 x2 : FVec Ideal S10000x40 .f32) j
      = Cert.Net.dense1 (n := 100000) (K := 192) (N := 40) A W B i := by
  refine (congrArg (k6_pay1 x0 x1 x2 : FVec Ideal S10000x40 .f32) (eq_ix2 j)).trans ?_
  refine (pay6_apply x0 x1 x2 (j 0) (j 1)).trans ?_
  show _ = (∑ k : Fin 192, A (ix2 (i 0) k) * W (ix2 k (i 1))) + B (ix2 (0 : Fin 1) (i 1))
  exact congrArg₂ (· + ·) (Finset.sum_congr rfl fun k _ => congrArg₂ (· * ·) (h0 k) (h1 k)) h2

/-- What grid point t writes back is block t of the whole-array read-out: row y of the block is row 10000·t + y of the
    array, the weight block is the whole weight matrix and the bias block the whole bias row. -/
theorem flushed6_eq (c : Dev nD) (t : Fin cfg6.N) :
    (pd6 V c).flushed 3 t = ((cfg6.win 3).blk t).view.read (Elt Ideal)
      (Cert.Net.dense1 (n := 100000) (K := 192) (N := 40) (V c main_v52) (V c main_arg9) (V c main_v53)) := by
  show (cfg6.win 3).cut (grid6.coords t) ((pd6 V c).after 3 t) = _
  rw [pd6_after_3]
  unfold res6
  rw [View.canon_unit_zero zero_offsets6]
  simp only [View.ld_unit_zero (S := S10000x192) zero_offsets6, View.ld_unit_zero (S := S192x40) zero_offsets6,
    View.ld_unit_zero (S := S1x40) zero_offsets6]
  obtain ⟨e0, e1, e2, e3, e4, e5, e6, e7⟩ := idx_facts6 t
  funext y
  refine dense_point6 (V c main_v52) (V c main_arg9) (V c main_v53) (blk6 V c 0 t) (blk6 V c 1 t) (blk6 V c 2 t)
    ((cfg6.win 3).xinj (grid6.coords t) y) (((cfg6.win 3).blk t).view.emb y) (fun k => ?_) (fun k => ?_) ?_
  · show V c main_v52 (((cfg6.win 0).blk t).view.emb (ix2 ((cfg6.win 3).xinj (grid6.coords t) y 0) k))
      = V c main_v52 (ix2 (((cfg6.win 3).blk t).view.emb y 0) k)
    congr 1
    funext a
    apply Fin.ext
    match a with
    | ⟨0, _⟩ => show win6_0.index t (0 : Fin 2) * 10000 + 1 * (y 0).val = win6_3.index t (0 : Fin 2) * 10000 + 1 * (y 0).val; rw [e0, e6]
    | ⟨1, _⟩ => show win6_0.index t (1 : Fin 2) * 192 + 1 * k.val = k.val; rw [e1]; omega
  · show V c main_arg9 (((cfg6.win 1).blk t).view.emb (ix2 k ((cfg6.win 3).xinj (grid6.coords t) y 1)))
      = V c main_arg9 (ix2 k (((cfg6.win 3).blk t).view.emb y 1))
    congr 1
    funext a
    apply Fin.ext
    match a with
    | ⟨0, _⟩ => show win6_1.index t (0 : Fin 2) * 192 + 1 * k.val = k.val; rw [e2]; omega
    | ⟨1, _⟩ => show win6_1.index t (1 : Fin 2) * 40 + 1 * (y 1).val = win6_3.index t (1 : Fin 2) * 40 + 1 * (y 1).val; rw [e3, e7]
  · show V c main_v53 (((cfg6.win 2).blk t).view.emb (ix2 (0 : Fin 1) ((cfg6.win 3).xinj (grid6.coords t) y 1)))
      = V c main_v53 (ix2 (0 : Fin 1) (((cfg6.win 3).blk t).view.emb y 1))
    congr 1
    funext a
    apply Fin.ext
    match a with
    | ⟨0, _⟩ => show win6_2.index t (0 : Fin 2) * 1 + 1 * 0 = 0; rw [e4]
    | ⟨1, _⟩ => show win6_2.index t (1 : Fin 2) * 40 + 1 * (y 1).val = win6_3.index t (1 : Fin 2) * 40 + 1 * (y 1).val; rw [e5, e7]

/-- An index of the array is in point t's block iff each coordinate is in the block's range on its axis. -/
theorem mem_blk6 (t : Fin cfg6.N) (i : S100000x40.Idx) :
    i ∈ ((cfg6.win 3).blk t).view.set ↔ ∀ a : Fin 2, win6_3.index t a * S10000x40.size a ≤ (i a).val
      ∧ (i a).val < win6_3.index t a * S10000x40.size a + S10000x40.size a := by
  show i ∈ ((View.whole main_v54).slice (win6_3.rect t)).set ↔ _
  rw [View.set_slice_whole, Rect.mem_set_unit]
  exact Iff.rfl

/-- Row r of the array lies in the block of point r / 10000: the ten blocks of 10000 rows cover the 100000 rows. -/
theorem cover6 (i : S100000x40.Idx) :
    ∃ t : Fin cfg6.N, (cfg6.win 3).flush t = true ∧ i ∈ ((cfg6.win 3).blk t).view.set := by
  have hi0 : (i 0).val < 100000 := (i 0).isLt
  have hi1 : (i 1).val < 40 := (i 1).isLt
  have hN : cfg6.N = 10 := N_6
  have ht : (i 0).val / 10000 < cfg6.N := by rw [hN]; omega
  obtain ⟨e0, e1, e2, e3, e4, e5, e6, e7⟩ := idx_facts6 ⟨(i 0).val / 10000, ht⟩
  refine ⟨⟨(i 0).val / 10000, ht⟩, flush6_3 _, ?_⟩
  rw [mem_blk6]
  intro a
  match a with
  | ⟨0, _⟩ =>
    show win6_3.index ⟨(i 0).val / 10000, ht⟩ (0 : Fin 2) * 10000 ≤ (i 0).val
      ∧ (i 0).val < win6_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win6_3.index ⟨(i 0).val / 10000, ht⟩ (1 : Fin 2) * 40 ≤ (i 1).val
      ∧ (i 1).val < win6_3.index ⟨(i 0).val / 10000, ht⟩ (1 : Fin 2) * 40 + 40
    rw [e7]
    omega

/-- The read-out's output array after its region: the concatenated layer outputs times the read-out matrix, plus the bias row. -/
theorem val6 (c : Dev nD) : (pd6 V c).arrAt 3 cfg6.N
    = Cert.Net.dense1 (n := 100000) (K := 192) (N := 40) (V c main_v52) (V c main_arg9) (V c main_v53) :=
  (pd6 V c).arrAt_eq_of_cover 3 (Cert.Net.dense1 (n := 100000) (K := 192) (N := 40) (V c main_v52) (V c main_arg9) (V c main_v53))
    (fun t _ => flushed6_eq V c t) cover6

end Cert.KernelIdeal.TileValue

end
-- ==== Proof.RefNet.lean ====
/-
  The reference program is the network.

  The reference computes, three times over, a projection (a matrix product with a 64×64 weight), an aggregation over
  the edges (gather the rows named by the source indices, scale each by its edge weight, add them up at the rows named
  by the destination indices), a bias row and the mix  ½·(a + b) + ½·max(a + b, 0);  it lays the three layer outputs
  side by side and applies a last product with a 192×40 weight plus a bias row.

  * `agg` is the aggregation, carried as ONE function of the edge index table, the edge weights and the projected
    rows: it is never opened.  `cat` is the side-by-side layout of three 64-column arrays.
  * `dot64_eq`, `dot192_eq`: the host matrix products are `Cert.Net.mm`.
  * `mix_eq`: bias and mix are `Cert.Net.act`.   `readout_eq`: product plus bias row is `Cert.Net.dense`.
  * `stage1` … `stage3`, `stage_cat`, `stage_out`: each stage of the program in terms of the one before.
  * `result_eq`, `run`: the program's result is `Cert.Net.net agg cat` of its arguments.
-/
import proofs.«182094_j14697378087202_1_alg».proof.Proof.Gen.ReferenceIdeal.Run
import proofs.«182094_j14697378087202_1_alg».proof.Proof.Gen.ReferenceIdeal.Read
import proofs.«182094_j14697378087202_1_alg».proof.Proof.Net
import proofs.«182094_j14697378087202_1_alg».proof.Proof.LibDense

noncomputable section

namespace Cert.ReferenceIdeal.RefNet

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The aggregation over the edges: rows of `z` gathered at the (wrapped) source indices, each scaled by its edge
    weight, added up at the destination indices into the zero array. -/
def agg (ei : (⟨S2x1600000, .i32⟩ : BufTy).Contents (Elt Ideal)) (ew : (⟨S1600000, .f32⟩ : BufTy).Contents (Elt Ideal))
    (z : (⟨S100000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (shapeCast _ (extractStridedSlice S1x1600000 ![1, 0] ei slices_S2x1600000_S1x1600000_1_0) shapeCasts_S1x1600000_S1600000))
    (mulf
      (Host.gather gather_S100000x64_S1600000x1_S1600000x64_1_0_n_n_0_1_164 z
        (broadcastInDim S1600000x1 ![0] bcast_S1600000_S1600000x1_0
          (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
            (addi (shapeCast _ (extractStridedSlice S1x1600000 ![0, 0] ei slices_S2x1600000_S1x1600000_0_0) shapeCasts_S1x1600000_S1600000) (broadcastInDim S1600000 ![] bcast_S_S1600000 (constantI S_ 32 100000#32)))
            (shapeCast _ (extractStridedSlice S1x1600000 ![0, 0] ei slices_S2x1600000_S1x1600000_0_0) shapeCasts_S1x1600000_S1600000))))
      (broadcastInDim S1600000x64 ![0, 1] bcast_S1600000x1_S1600000x64_0_1
        (broadcastInDim S1600000x1 ![0] bcast_S1600000_S1600000x1_0 ew)))

/-- Three 64-column arrays side by side. -/
def cat (h1 h2 h3 : (⟨S100000x64, .f32⟩ : BufTy).Contents (Elt Ideal)) : (⟨S100000x192, .f32⟩ : BufTy).Contents (Elt Ideal) :=
  concatenate S100000x192 1 [⟨S100000x64, h1⟩, ⟨S100000x64, h2⟩, ⟨S100000x64, h3⟩]
    concatenates_S100000x64_S100000x64_S100000x64_S100000x192_d1

/-- Bias row added, then half the sum plus half its positive part, as the program spells it. -/
def mix (z : (⟨S100000x64, .f32⟩ : BufTy).Contents (Elt Ideal)) (b : (⟨S64, .f32⟩ : BufTy).Contents (Elt Ideal)) : (⟨S100000x64, .f32⟩ : BufTy).Contents (Elt Ideal) :=
  addf (mulf (broadcastInDim S100000x64 ![] bcast_S_S100000x64 (constant (F := Ideal) S_ .f32 0x3F000000#32)) (addf z (broadcastInDim S100000x64 ![0, 1] bcast_S1x64_S100000x64_0_1 (broadcastInDim S1x64 ![1] bcast_S64_S1x64_1 b))))
    (mulf (broadcastInDim S100000x64 ![] bcast_S_S100000x64 (constant (F := Ideal) S_ .f32 0x3F000000#32)) (maximumf (addf z (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))))

/-- Product with the read-out weight plus its bias row, as the program spells it. -/
def readout (h : (⟨S100000x192, .f32⟩ : BufTy).Contents (Elt Ideal)) (w : (⟨S192x40, .f32⟩ : BufTy).Contents (Elt Ideal)) (b : (⟨S40, .f32⟩ : BufTy).Contents (Elt Ideal)) :
    (⟨S100000x40, .f32⟩ : BufTy).Contents (Elt Ideal) :=
  addf (Host.dotGeneral (F := Ideal) (φ₁ := .f32) (φ₂ := .f32) dot_S100000x192_S192x40_S100000x40_1_0_0_1_n_n none h w) (broadcastInDim S100000x40 ![0, 1] bcast_S1x40_S100000x40_0_1 (broadcastInDim S1x40 ![1] bcast_S40_S1x40_1 b))

/-! ## The pieces at an index -/

/-- A scalar spread over the whole array, read anywhere, is the scalar. -/
theorem splat_apply (y : (⟨S_, .f32⟩ : BufTy).Contents (Elt Ideal)) (i : S100000x64.Idx) :
    broadcastInDim S100000x64 ![] bcast_S_S100000x64 y i = y ix0 :=
  broadcastInDim_apply _ bcast_S_S100000x64 y i ix0 (fun a => a.elim0)

/-- A 64-vector laid as a row and spread down the rows, read at (r, j), is the vector at j. -/
theorem bias64_apply (b : (⟨S64, .f32⟩ : BufTy).Contents (Elt Ideal)) (r : Fin 100000) (j : Fin 64) :
    (broadcastInDim S100000x64 ![0, 1] bcast_S1x64_S100000x64_0_1 (broadcastInDim S1x64 ![1] bcast_S64_S1x64_1 b)) (ix2 r j) = b (ix1 j) :=
  (broadcastInDim_apply _ bcast_S1x64_S100000x64_0_1 (broadcastInDim S1x64 ![1] bcast_S64_S1x64_1 b) (ix2 r j) (ix2 (0 : Fin 1) j)
    (fun a => match a with
      | ⟨0, _⟩ => by show 0 = if (1 : Nat) = 1 then 0 else r.val; rw [if_pos rfl]
      | ⟨1, _⟩ => by show j.val = if (64 : Nat) = 1 then 0 else j.val; rw [if_neg (by decide)])).trans
  (broadcastInDim_apply _ bcast_S64_S1x64_1 b (ix2 (0 : Fin 1) j) (ix1 j)
    (fun a => match a with
      | ⟨0, _⟩ => by show j.val = if (64 : Nat) = 1 then 0 else j.val; rw [if_neg (by decide)]))

/-- A 40-vector laid as a row and spread down the rows, read at (r, j), is the vector at j. -/
theorem bias40_apply (b : (⟨S40, .f32⟩ : BufTy).Contents (Elt Ideal)) (r : Fin 100000) (j : Fin 40) :
    (broadcastInDim S100000x40 ![0, 1] bcast_S1x40_S100000x40_0_1 (broadcastInDim S1x40 ![1] bcast_S40_S1x40_1 b)) (ix2 r j) = b (ix1 j) :=
  (broadcastInDim_apply _ bcast_S1x40_S100000x40_0_1 (broadcastInDim S1x40 ![1] bcast_S40_S1x40_1 b) (ix2 r j) (ix2 (0 : Fin 1) j)
    (fun a => match a with
      | ⟨0, _⟩ => by show 0 = if (1 : Nat) = 1 then 0 else r.val; rw [if_pos rfl]
      | ⟨1, _⟩ => by show j.val = if (40 : Nat) = 1 then 0 else j.val; rw [if_neg (by decide)])).trans
  (broadcastInDim_apply _ bcast_S40_S1x40_1 b (ix2 (0 : Fin 1) j) (ix1 j)
    (fun a => match a with
      | ⟨0, _⟩ => by show j.val = if (40 : Nat) = 1 then 0 else j.val; rw [if_neg (by decide)]))

/-- The host product of a 100000×64 array with a 64×64 weight is the matrix product. -/
theorem dot64_eq (x : (⟨S100000x64, .f32⟩ : BufTy).Contents (Elt Ideal)) (w : (⟨S64x64, .f32⟩ : BufTy).Contents (Elt Ideal)) :
    Host.dotGeneral (F := Ideal) (φ₁ := .f32) (φ₂ := .f32) dot_S100000x64_S64x64_S100000x64_1_0_0_1_n_n none x w = Cert.Net.mm x w := by
  funext i
  obtain ⟨r, j, rfl⟩ : ∃ (r : Fin 100000) (j : Fin 64), i = ix2 r j := ⟨i 0, i 1, eq_ix2 i⟩
  rw [Cert.Net.mm_apply]
  exact Cert.LibDense.dotGeneral_plain dot_S100000x64_S64x64_S100000x64_1_0_0_1_n_n_wf none .single x w r j

/-- The host product of a 100000×192 array with a 192×40 weight is the matrix product. -/
theorem dot192_eq (x : (⟨S100000x192, .f32⟩ : BufTy).Contents (Elt Ideal)) (w : (⟨S192x40, .f32⟩ : BufTy).Contents (Elt Ideal)) :
    Host.dotGeneral (F := Ideal) (φ₁ := .f32) (φ₂ := .f32) dot_S100000x192_S192x40_S100000x40_1_0_0_1_n_n none x w = Cert.Net.mm x w := by
  funext i
  obtain ⟨r, j, rfl⟩ : ∃ (r : Fin 100000) (j : Fin 40), i = ix2 r j := ⟨i 0, i 1, eq_ix2 i⟩
  rw [Cert.Net.mm_apply]
  exact Cert.LibDense.dotGeneral_plain dot_S100000x192_S192x40_S100000x40_1_0_0_1_n_n_wf none .single x w r j

/-- Bias and mix, as the program spells them, are `Cert.Net.act`. -/
theorem mix_eq (z : (⟨S100000x64, .f32⟩ : BufTy).Contents (Elt Ideal)) (b : (⟨S64, .f32⟩ : BufTy).Contents (Elt Ideal)) : mix z b = Cert.Net.act z b := by
  funext i
  obtain ⟨r, j, rfl⟩ : ∃ (r : Fin 100000) (j : Fin 64), i = ix2 r j := ⟨i 0, i 1, eq_ix2 i⟩
  rw [Cert.Net.act_apply]
  unfold mix
  simp only [addf_apply, mulf_apply, maximumf_apply]
  rw [splat_apply, splat_apply, bias64_apply]
  rfl

/-- Product plus bias row, as the program spells them, is `Cert.Net.dense`. -/
theorem readout_eq (h : (⟨S100000x192, .f32⟩ : BufTy).Contents (Elt Ideal)) (w : (⟨S192x40, .f32⟩ : BufTy).Contents (Elt Ideal)) (b : (⟨S40, .f32⟩ : BufTy).Contents (Elt Ideal)) :
    readout h w b = Cert.Net.dense h w b := by
  funext i
  obtain ⟨r, j, rfl⟩ : ∃ (r : Fin 100000) (j : Fin 40), i = ix2 r j := ⟨i 0, i 1, eq_ix2 i⟩
  unfold readout
  rw [dot192_eq]
  simp only [addf_apply]
  rw [bias40_apply]
  rfl

/-! ## The program's stages

Each stage of the program is the one before it under the operations spelt above: the two sides are the same term once
the stage's own definitions are opened (the aggregation stays folded as `agg`). -/

/-- The program's first aggregation is `agg` of its index table, its weights and the first projection. -/
theorem agg_eq (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) :
    val_main_v17 (F := Ideal) x0 x1 x2 x3 = agg x1 x2 (val_main_v4 (F := Ideal) x0 x3) := rfl

/-- Layer 1 as the program spells it. -/
theorem spelt1 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) :
    val_main_v26 (F := Ideal) x0 x1 x2 x3 x4 = mix (agg x1 x2 (Host.dotGeneral (F := Ideal) (φ₁ := .f32) (φ₂ := .f32) dot_S100000x64_S64x64_S100000x64_1_0_0_1_n_n none x0 x3)) x4 := rfl

/-- Layer 2 as the program spells it, over layer 1's output. -/
theorem spelt2 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v49 (F := Ideal) x0 x1 x2 x3 x4 x5 x6 = mix (agg x1 x2 (Host.dotGeneral (F := Ideal) (φ₁ := .f32) (φ₂ := .f32) dot_S100000x64_S64x64_S100000x64_1_0_0_1_n_n none (val_main_v26 (F := Ideal) x0 x1 x2 x3 x4) x5)) x6 := rfl

/-- Layer 3 as the program spells it, over layer 2's output. -/
theorem spelt3 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v72 (F := Ideal) x0 x1 x2 x3 x4 x5 x6 x7 x8 = mix (agg x1 x2 (Host.dotGeneral (F := Ideal) (φ₁ := .f32) (φ₂ := .f32) dot_S100000x64_S64x64_S100000x64_1_0_0_1_n_n none (val_main_v49 (F := Ideal) x0 x1 x2 x3 x4 x5 x6) x7)) x8 := rfl

/-- The three layer outputs side by side. -/
theorem spelt_cat (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v73 (F := Ideal) x0 x1 x2 x3 x4 x5 x6 x7 x8 = cat (val_main_v26 (F := Ideal) x0 x1 x2 x3 x4) (val_main_v49 (F := Ideal) x0 x1 x2 x3 x4 x5 x6) (val_main_v72 (F := Ideal) x0 x1 x2 x3 x4 x5 x6 x7 x8) := rfl

/-- The read-out over the three layers side by side. -/
theorem spelt_out (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x40, .f32⟩ : BufTy).Contents (Elt Ideal)) (x10 : (⟨S40, .f32⟩ : BufTy).Contents (Elt Ideal)) :
    val_main_v77 (F := Ideal) x0 x1 x2 x3 x4 x5 x6 x7 x8 x9 x10 = readout (val_main_v73 (F := Ideal) x0 x1 x2 x3 x4 x5 x6 x7 x8) x9 x10 := rfl

/-- Layer 1 is the network's layer of the input. -/
theorem stage1 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) :
    val_main_v26 (F := Ideal) x0 x1 x2 x3 x4 = Cert.Net.layer (agg x1 x2) x0 x3 x4 := by
  rw [spelt1, mix_eq, dot64_eq]; rfl

/-- Layer 2 is the network's layer of layer 1's output. -/
theorem stage2 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v49 (F := Ideal) x0 x1 x2 x3 x4 x5 x6 = Cert.Net.layer (agg x1 x2) (val_main_v26 (F := Ideal) x0 x1 x2 x3 x4) x5 x6 := by
  rw [spelt2, mix_eq, dot64_eq]; rfl

/-- Layer 3 is the network's layer of layer 2's output. -/
theorem stage3 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v72 (F := Ideal) x0 x1 x2 x3 x4 x5 x6 x7 x8 = Cert.Net.layer (agg x1 x2) (val_main_v49 (F := Ideal) x0 x1 x2 x3 x4 x5 x6) x7 x8 := by
  rw [spelt3, mix_eq, dot64_eq]; rfl

/-- The whole program is the network of its arguments. -/
theorem net_eq (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S192x40, .f32⟩ : BufTy).Contents (Elt Ideal)) (x10 : (⟨S40, .f32⟩ : BufTy).Contents (Elt Ideal)) :
    val_main_v77 (F := Ideal) x0 x1 x2 x3 x4 x5 x6 x7 x8 x9 x10 = Cert.Net.net (agg x1 x2) cat x0 x3 x4 x5 x6 x7 x8 x9 x10 := by
  rw [spelt_out, readout_eq, spelt_cat, stage3, stage2, stage1]; rfl

/-! ## The run -/

/-- The result buffer's term is the network of the launch contents of the arguments. -/
theorem result_eq (m : (ℓ : Loc nD τ sig) → Buf (Elt Ideal) ℓ) (c : Dev nD) :
    Cert.ReferenceIdeal.Value.res_out0 (F := Ideal) m c
      = Cert.Net.net (agg (m ((c.tc : Thread nD τ).loc main_arg1)) (m ((c.tc : Thread nD τ).loc main_arg2))) cat (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v77_eq (F := Ideal) m c).trans (net_eq _ _ _ _ _ _ _ _ _ _ _)

/-- Every weakly fair execution of the reference terminates with the result buffer at the network of the arguments'
    launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = Cert.Net.net (agg (m ((c.tc : Thread nD τ).loc main_arg1)) (m ((c.tc : Thread nD τ).loc main_arg2))) cat (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (result_eq m c), (h c).2⟩)
    (Cert.ReferenceIdeal.Value.run (F := Ideal) m ρ)

end Cert.ReferenceIdeal.RefNet

end
-- ==== Proof.lean ====
/-
  The certificate's five claims.

  Both kernel programs (the word-level one and its idealization, the same text read at two float models) are twelve items
  in a row: five stretches of host operations and seven tiled regions, each region a one-dimensional grid of ten points
  whose body loads its input blocks whole, computes, and stores the output block whole. Their frames are the run over
  those twelve items: the arguments are never written. The reference is a plain host program; its frame is its run with
  the result dropped. The idealization rewrote nothing, so there is nothing to preserve.

  At the extended reals both programs compute one function of the arguments, `Cert.Net.net`: three message-passing layers
  — project by a weight matrix, aggregate over the edges, add the bias and mix ½·z + ½·max(z, 0) — whose outputs are laid
  side by side and read out by a last matrix product plus bias. A tiled product of ten row blocks is the whole product
  because every entry of a matrix product depends on one row of the left factor only; the tiled bias-and-mix is the whole
  one because it is computed entry by entry; the edge aggregation and the laying side by side are the same host
  operations on both sides.
-/
import proofs.«182094_j14697378087202_1_alg».proof.Defs
import proofs.«182094_j14697378087202_1_alg».proof.Proof.Gen.Kernel
import proofs.«182094_j14697378087202_1_alg».proof.Proof.Gen.KernelIdeal
import proofs.«182094_j14697378087202_1_alg».proof.Proof.Gen.ReferenceIdeal
import proofs.«182094_j14697378087202_1_alg».proof.Proof.Gen.Pre_finite_inputs
import proofs.«182094_j14697378087202_1_alg».proof.Proof.BitsRun
import proofs.«182094_j14697378087202_1_alg».proof.Proof.IdealOut
import proofs.«182094_j14697378087202_1_alg».proof.Proof.IdealVal0
import proofs.«182094_j14697378087202_1_alg».proof.Proof.IdealVal1
import proofs.«182094_j14697378087202_1_alg».proof.Proof.IdealVal2
import proofs.«182094_j14697378087202_1_alg».proof.Proof.IdealVal3
import proofs.«182094_j14697378087202_1_alg».proof.Proof.IdealVal4
import proofs.«182094_j14697378087202_1_alg».proof.Proof.IdealVal5
import proofs.«182094_j14697378087202_1_alg».proof.Proof.IdealVal6
import proofs.«182094_j14697378087202_1_alg».proof.Proof.RefNet
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Tiles.frame m ρ

theorem frame_ki : @Cert.frame_KernelIdeal Cert.KernelIdeal.Gen.facts Cert.Pre_finite_inputs.Gen.facts :=
  fun m ρ _ => Cert.KernelIdeal.Tiles.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The reference's edge aggregation and the kernel program's are the same operations. -/
theorem agg_same (ei) (ew) : Cert.ReferenceIdeal.RefNet.agg ei ew = Cert.KernelIdeal.NetValue.aggK ei ew := rfl

/-- Both programs lay the three layer outputs side by side in the same way. -/
theorem cat_same : Cert.ReferenceIdeal.RefNet.cat = Cert.KernelIdeal.NetValue.catK := rfl

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Net.net (Cert.KernelIdeal.NetValue.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2))) Cert.KernelIdeal.NetValue.catK
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.NetValue.run m ρ Cert.KernelIdeal.TileValue.val0 Cert.KernelIdeal.TileValue.val1 Cert.KernelIdeal.TileValue.val2
      Cert.KernelIdeal.TileValue.val3 Cert.KernelIdeal.TileValue.val4 Cert.KernelIdeal.TileValue.val5 Cert.KernelIdeal.TileValue.val6, ?_⟩
  refine (θ_run Cert.ReferenceIdeal.defs _ _).mono (fun _ h c => ⟨(h c).1.trans ?_, (h c).2⟩) (Cert.ReferenceIdeal.RefNet.run m' ρ')
  obtain ⟨e0, e1, e2, e3, e4, e5, e6, e7, e8, e9, e10⟩ := hagree c
  rw [e0, e1, e2, e3, e4, e5, e6, e7, e8, e9, e10, agg_same, cat_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
